-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x32x768 : Shape := ⟨3, ![128, 32, 768]⟩
abbrev S128x512x768 : Shape := ⟨3, ![128, 512, 768]⟩
abbrev S128x32 : Shape := ⟨2, ![128, 32]⟩
abbrev S128x512 : Shape := ⟨2, ![128, 512]⟩
abbrev S768x128 : Shape := ⟨2, ![768, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S128x32x768 : S_.BroadcastsInDim S128x32x768 (![] : Fin 0 → Fin S128x32x768.rank)
  reducesTo_S128x32x768_S_d0_1_2 : S128x32x768.ReducesTo [0, 1, 2] S_
  h_S_ : 0 < S_.numel
  bcast_S_S128x512x768 : S_.BroadcastsInDim S128x512x768 (![] : Fin 0 → Fin S128x512x768.rank)
  reducesTo_S128x512x768_S_d0_1_2 : S128x512x768.ReducesTo [0, 1, 2] S_
  bcast_S_S768x128 : S_.BroadcastsInDim S768x128 (![] : Fin 0 → Fin S768x128.rank)
  reducesTo_S768x128_S_d0_1 : S768x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S128x32 : S_.BroadcastsInDim S128x32 (![] : Fin 0 → Fin S128x32.rank)
  reducesTo_S128x32_S_d0_1 : S128x32.ReducesTo [0, 1] S_
  bcast_S_S128x512 : S_.BroadcastsInDim S128x512 (![] : Fin 0 → Fin S128x512.rank)
  reducesTo_S128x512_S_d0_1 : S128x512.ReducesTo [0, 1] S_

variable [Facts]

def fn_part2 {F : FTy → Type} [FloatOps F] (main_arg2 : IVec S128x32 32) (main_arg3 : IVec S128x512 32) (main_v33 : IVec S_ 1) : IVec S_ 1 :=
  let main_c_12 : IVec S_ 32 := constantI S_ 32 0#32
  let main_v34 : IVec S128x32 32 := broadcastInDim S128x32 ![] bcast_S_S128x32 main_c_12
  let main_v35 : IVec S128x32 1 := cmpi .eq main_arg2 main_v34
  let main_c_13 : IVec S_ 32 := constantI S_ 32 1#32
  let main_v36 : IVec S128x32 32 := broadcastInDim S128x32 ![] bcast_S_S128x32 main_c_13
  let main_v37 : IVec S128x32 1 := cmpi .eq main_arg2 main_v36
  let main_v38 : IVec S128x32 1 := ori main_v35 main_v37
  let main_c_14 : IVec S_ 1 := constantI S_ 1 1#1
  let main_v39 : IVec S_ 1 := (fun x v => Host.reduce IntOp.andi x v reducesTo_S128x32_S_d0_1 h_S_) main_v38 main_c_14
  let main_v40 : IVec S_ 1 := andi main_v33 main_v39
  let main_c_15 : IVec S_ 32 := constantI S_ 32 0#32
  let main_v41 : IVec S128x512 32 := broadcastInDim S128x512 ![] bcast_S_S128x512 main_c_15
  let main_v42 : IVec S128x512 1 := cmpi .eq main_arg3 main_v41
  let main_c_16 : IVec S_ 32 := constantI S_ 32 1#32
  let main_v43 : IVec S128x512 32 := broadcastInDim S128x512 ![] bcast_S_S128x512 main_c_16
  let main_v44 : IVec S128x512 1 := cmpi .eq main_arg3 main_v43
  let main_v45 : IVec S128x512 1 := ori main_v42 main_v44
  let main_c_17 : IVec S_ 1 := constantI S_ 1 1#1
  let main_v46 : IVec S_ 1 := (fun x v => Host.reduce IntOp.andi x v reducesTo_S128x512_S_d0_1 h_S_) main_v45 main_c_17
  let main_v47 : IVec S_ 1 := andi main_v40 main_v46
  main_v47

def fn_part1 {F : FTy → Type} [FloatOps F] (main_arg2 : IVec S128x32 32) (main_arg3 : IVec S128x512 32) (main_arg6 : FVec F S128x1 .f32) (main_arg7 : FVec F S1 .f32) (main_arg8 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x1 .f32 := Host.absf main_arg6
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg2 main_arg3 main_v33

def fn {F : FTy → Type} [FloatOps F] (main_arg0 : FVec F S128x32x768 .f32) (main_arg1 : FVec F S128x512x768 .f32) (main_arg2 : IVec S128x32 32) (main_arg3 : IVec S128x512 32) (main_arg4 : FVec F S768x128 .f32) (main_arg5 : FVec F S128 .f32) (main_arg6 : FVec F S128x1 .f32) (main_arg7 : FVec F S1 .f32) (main_arg8 : FVec F S1 .f32) : IVec S_ 1 :=
  let main_v0 : FVec F S128x32x768 .f32 := Host.absf main_arg0
  let main_cst : FVec F S_ .f32 := constant S_ .f32 0x7F800000#32
  let main_v1 : FVec F S128x32x768 .f32 := broadcastInDim S128x32x768 ![] bcast_S_S128x32x768 main_cst
  let main_v2 : IVec S128x32x768 1 := cmpf .olt main_v0 main_v1
  let main_c : IVec S_ 1 := constantI S_ 1 1#1
  let main_v3 : IVec S_ 1 := (fun x v => Host.reduce IntOp.andi x v reducesTo_S128x32x768_S_d0_1_2 h_S_) main_v2 main_c
  let main_v4 : FVec F S128x512x768 .f32 := Host.absf main_arg1
  let main_cst_0 : FVec F S_ .f32 := constant S_ .f32 0x7F800000#32
  let main_v5 : FVec F S128x512x768 .f32 := broadcastInDim S128x512x768 ![] bcast_S_S128x512x768 main_cst_0
  let main_v6 : IVec S128x512x768 1 := cmpf .olt main_v4 main_v5
  let main_c_1 : IVec S_ 1 := constantI S_ 1 1#1
  let main_v7 : IVec S_ 1 := (fun x v => Host.reduce IntOp.andi x v reducesTo_S128x512x768_S_d0_1_2 h_S_) main_v6 main_c_1
  let main_v8 : IVec S_ 1 := andi main_v3 main_v7
  let main_v9 : FVec F S768x128 .f32 := Host.absf main_arg4
  let main_cst_2 : FVec F S_ .f32 := constant S_ .f32 0x7F800000#32
  let main_v10 : FVec F S768x128 .f32 := broadcastInDim S768x128 ![] bcast_S_S768x128 main_cst_2
  let main_v11 : IVec S768x128 1 := cmpf .olt main_v9 main_v10
  let main_c_3 : IVec S_ 1 := constantI S_ 1 1#1
  let main_v12 : IVec S_ 1 := (fun x v => Host.reduce IntOp.andi x v reducesTo_S768x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg3 main_arg6 main_arg7 main_arg8 main_v13 main_v16
-- ==== Kernel.lean ====
abbrev S128x32x768 : Shape := ⟨3, ![128, 32, 768]⟩
abbrev S128x512x768 : Shape := ⟨3, ![128, 512, 768]⟩
abbrev S128x32 : Shape := ⟨2, ![128, 32]⟩
abbrev S128x512 : Shape := ⟨2, ![128, 512]⟩
abbrev S768x128 : Shape := ⟨2, ![768, 128]⟩
abbrev S128 : Shape := ⟨1, ![128]⟩
abbrev S128x1 : Shape := ⟨2, ![128, 1]⟩
abbrev S1 : Shape := ⟨1, ![1]⟩
abbrev S8x32x768 : Shape := ⟨3, ![8, 32, 768]⟩
abbrev S8x512x768 : Shape := ⟨3, ![8, 512, 768]⟩
abbrev S8x32 : Shape := ⟨2, ![8, 32]⟩
abbrev S8x512 : Shape := ⟨2, ![8, 512]⟩
abbrev S8x1 : Shape := ⟨2, ![8, 1]⟩
abbrev S8x1x768 : Shape := ⟨3, ![8, 1, 768]⟩
abbrev S8x768 : Shape := ⟨2, ![8, 768]⟩
abbrev S8 : Shape := ⟨1, ![8]⟩
abbrev S256x768 : Shape := ⟨2, ![256, 768]⟩
abbrev S256x128 : Shape := ⟨2, ![256, 128]⟩
abbrev S1x128 : Shape := ⟨2, ![1, 128]⟩
abbrev S8x32x128 : Shape := ⟨3, ![8, 32, 128]⟩
abbrev S8x32x1 : Shape := ⟨3, ![8, 32, 1]⟩
abbrev S4096x768 : Shape := ⟨2, ![4096, 768]⟩
abbrev S4096x128 : Shape := ⟨2, ![4096, 128]⟩
abbrev S4096x1 : Shape := ⟨2, ![4096, 1]⟩
abbrev S1x1 : Shape := ⟨2, ![1, 1]⟩
abbrev S8x512x128 : Shape := ⟨3, ![8, 512, 128]⟩
abbrev S8x32x512 : Shape := ⟨3, ![8, 32, 512]⟩
abbrev S8x1x512 : Shape := ⟨3, ![8, 1, 512]⟩

abbrev nBuf : Space → Nat
  | .hbm => 15
  | .vmem => 19
  | .smem => 0
  | _ => 0

abbrev bufTy : (tb : Table) → Fin (tcTables nBuf tb) → BufTy
  | .hbm, ⟨0, _⟩ => ⟨S128x32x768, .f32⟩
  | .hbm, ⟨1, _⟩ => ⟨S128x512x768, .f32⟩
  | .hbm, ⟨2, _⟩ => ⟨S128x32, .i32⟩
  | .hbm, ⟨3, _⟩ => ⟨S128x512, .i32⟩
  | .hbm, ⟨4, _⟩ => ⟨S768x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S1, .f32⟩
  | .hbm, ⟨9, _⟩ => ⟨S128x1, .f32⟩
  | .hbm, ⟨10, _⟩ => ⟨S128x1, .f32⟩
  | .hbm, ⟨11, _⟩ => ⟨S128x1, .f32⟩
  | .hbm, ⟨12, _⟩ => ⟨S128, .f32⟩
  | .hbm, ⟨13, _⟩ => ⟨S128, .f32⟩
  | .hbm, ⟨14, _⟩ => ⟨S128, .f32⟩
  | .local _ .vmem, ⟨0, _⟩ => ⟨S8x32x768, .f32⟩
  | .local _ .vmem, ⟨1, _⟩ => ⟨S8x32x768, .f32⟩
  | .local _ .vmem, ⟨2, _⟩ => ⟨S8x512x768, .f32⟩
  | .local _ .vmem, ⟨3, _⟩ => ⟨S8x512x768, .f32⟩
  | .local _ .vmem, ⟨4, _⟩ => ⟨S8x32, .i32⟩
  | .local _ .vmem, ⟨5, _⟩ => ⟨S8x32, .i32⟩
  | .local _ .vmem, ⟨6, _⟩ => ⟨S8x512, .i32⟩
  | .local _ .vmem, ⟨7, _⟩ => ⟨S8x512, .i32⟩
  | .local _ .vmem, ⟨8, _⟩ => ⟨S768x128, .f32⟩
  | .local _ .vmem, ⟨9, _⟩ => ⟨S128, .f32⟩
  | .local _ .vmem, ⟨10, _⟩ => ⟨S128x1, .f32⟩
  | .local _ .vmem, ⟨11, _⟩ => ⟨S1, .f32⟩
  | .local _ .vmem, ⟨12, _⟩ => ⟨S1, .f32⟩
  | .local _ .vmem, ⟨13, _⟩ => ⟨S8x1, .f32⟩
  | .local _ .vmem, ⟨14, _⟩ => ⟨S8x1, .f32⟩
  | .local _ .vmem, ⟨15, _⟩ => ⟨S8x1, .f32⟩
  | .local _ .vmem, ⟨16, _⟩ => ⟨S8x1, .f32⟩
  | .local _ .vmem, ⟨17, _⟩ => ⟨S8x1, .f32⟩
  | .local _ .vmem, ⟨18, _⟩ => ⟨S8x1, .f32⟩
  | _, _ => ⟨S128x32x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x32 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S768x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  inb_S8x32x768_S8x32x768_0_0_0 : ∀ a, (![0, 0, 0] : Fin 3 → Nat) a + S8x32x768.size a ≤ S8x32x768.size a
  h_S8x32x768 : 0 < S8x32x768.numel
  inb_S8x512x768_S8x512x768_0_0_0 : ∀ a, (![0, 0, 0] : Fin 3 → Nat) a + S8x512x768.size a ≤ S8x512x768.size a
  h_S8x512x768 : 0 < S8x512x768.numel
  inb_S8x32_S8x32_0_0 : ∀ a, (![0, 0] : Fin 2 → Nat) a + S8x32.size a ≤ S8x32.size a
  h_S8x32 : 0 < S8x32.numel
  inb_S8x512_S8x512_0_0 : ∀ a, (![0, 0] : Fin 2 → Nat) a + S8x512.size a ≤ S8x512.size a
  h_S8x512 : 0 < S8x512.numel
  inb_S768x128_S768x128_0_0 : ∀ a, (![0, 0] : Fin 2 → Nat) a + S768x128.size a ≤ S768x128.size a
  h_S768x128 : 0 < S768x128.numel
  inb_S128_S128_0 : ∀ a, (![0] : Fin 1 → Nat) a + S128.size a ≤ S128.size a
  h_S128 : 0 < S128.numel
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  slices_S8x32x768_o0_0_0_S8x1x768 : S8x32x768.Slices ![0, 0, 0] S8x1x768
  shapeCasts_S8x1x768_S8x768 : S8x1x768.ShapeCasts S8x768
  slices_S8x512x768_o0_0_0_S8x1x768 : S8x512x768.Slices ![0, 0, 0] S8x1x768
  reduces_S8x768_S8 : S8x768.Reduces [1] S8
  bitsLt_bf16_f32 : FTy.bits .bf16 < FTy.bits .f32
  shapeCasts_S8x32x768_S256x768 : S8x32x768.ShapeCasts S256x768
  shapeCasts_S128_S1x128 : S128.ShapeCasts S1x128
  broadcasts_S1x128_S256x128 : S1x128.Broadcasts S256x128
  shapeCasts_S256x128_S8x32x128 : S256x128.ShapeCasts S8x32x128
  shapeCasts_S8x32_S8x32x1 : S8x32.ShapeCasts S8x32x1
  broadcasts_S8x32x1_S8x32x128 : S8x32x1.Broadcasts S8x32x128
  shapeCasts_S8x512x768_S4096x768 : S8x512x768.ShapeCasts S4096x768
  broadcasts_S1x128_S4096x128 : S1x128.Broadcasts S4096x128
  shapeCasts_S1_S1x1 : S1.ShapeCasts S1x1
  broadcasts_S1x1_S4096x1 : S1x1.Broadcasts S4096x1
  shapeCasts_S8x512_S4096x1 : S8x512.ShapeCasts S4096x1
  broadcasts_S4096x1_S4096x128 : S4096x1.Broadcasts S4096x128
  shapeCasts_S4096x128_S8x512x128 : S4096x128.ShapeCasts S8x512x128
  shapeCasts_S8x512_S8x1x512 : S8x512.ShapeCasts S8x1x512
  broadcasts_S8x1x512_S8x32x512 : S8x1x512.Broadcasts S8x32x512
  reduces_S8x32x512_S8x32 : S8x32x512.Reduces [2] S8x32
  reduces_S8x32_S8 : S8x32.Reduces [1] S8
  broadcasts_S1_S8 : S1.Broadcasts S8
  shapeCasts_S8_S8x1 : S8.ShapeCasts S8x1
  inb_S8x1_S8x1_0_0 : ∀ a, (![0, 0] : Fin 2 → Nat) a + S8x1.size a ≤ S8x1.size a
  h_S8x1 : 0 < S8x1.numel
  shapeCasts_S128x1_S128 : S128x1.ShapeCasts S128
  dot_S256x768_S768x128_S256x128_1_0_0_1_n_n_wf : DotDims.WF S256x768 S768x128 S256x128 [1] [0] [0] [1] [] []
  dot_S4096x768_S768x128_S4096x128_1_0_0_1_n_n_wf : DotDims.WF S4096x768 S768x128 S4096x128 [1] [0] [0] [1] [] []
  dot_S4096x128_S128x1_S4096x1_1_0_0_1_n_n_wf : DotDims.WF S4096x128 S128x1 S4096x1 [1] [0] [0] [1] [] []
  dot_S8x32x128_S8x512x128_S8x32x512_2_2_1_1_0_0_wf : DotDims.WF S8x32x128 S8x512x128 S8x32x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32x768.size a ≤ S128x32x768.size a
  hwx0_0 : ∀ i : grid0.Coords, EltTy.bits .f32 = 32 ∨ (Rect.block (s := S128x32x768) S8x32x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x768.size a ≤ S128x512x768.size a
  hwx0_1 : ∀ i : grid0.Coords, EltTy.bits .f32 = 32 ∨ (Rect.block (s := S128x512x768) S8x512x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x32.size a ≤ S128x32.size a
  hwx0_2 : ∀ i : grid0.Coords, EltTy.bits .i32 = 32 ∨ (Rect.block (s := S128x32) S8x32.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512.size a ≤ S128x512.size a
  hwx0_3 : ∀ i : grid0.Coords, EltTy.bits .i32 = 32 ∨ (Rect.block (s := S128x512) S8x512.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x128.size a ≤ S768x128.size a
  hwx0_4 : ∀ i : grid0.Coords, EltTy.bits .f32 = 32 ∨ (Rect.block (s := S768x128) S768x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S128x1.size a
  hwx0_6 : ∀ i : grid0.Coords, EltTy.bits .f32 = 32 ∨ (Rect.block (s := S128x1) S128x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x1.size a ≤ S128x1.size a
  hwx0_9 : ∀ i : grid0.Coords, EltTy.bits .f32 = 32 ∨ (Rect.block (s := S128x1) S8x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8x1.size a ≤ S128x1.size a
  hwx0_10 : ∀ i : grid0.Coords, EltTy.bits .f32 = 32 ∨ (Rect.block (s := S128x1) S8x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8x1.size a ≤ S128x1.size a
  hwx0_11 : ∀ i : grid0.Coords, EltTy.bits .f32 = 32 ∨ (Rect.block (s := S128x1) S8x1.size (cc0_transform_11 i) (hinb0_11 i)).WholeWords (EltTy.packing .f32)

variable [Facts₀]

def dot_S256x768_S768x128_S256x128_1_0_0_1_n_n : DotDims S256x768 S768x128 S256x128 where
  lhsContracting := [1]
  rhsContracting := [0]
  lhsNonContracting := [0]
  rhsNonContracting := [1]
  lhsBatch := []
  rhsBatch := []
  wf := dot_S256x768_S768x128_S256x128_1_0_0_1_n_n_wf
def dot_S4096x768_S768x128_S4096x128_1_0_0_1_n_n : DotDims S4096x768 S768x128 S4096x128 where
  lhsContracting := [1]
  rhsContracting := [0]
  lhsNonContracting := [0]
  rhsNonContracting := [1]
  lhsBatch := []
  rhsBatch := []
  wf := dot_S4096x768_S768x128_S4096x128_1_0_0_1_n_n_wf
def dot_S4096x128_S128x1_S4096x1_1_0_0_1_n_n : DotDims S4096x128 S128x1 S4096x1 where
  lhsContracting := [1]
  rhsContracting := [0]
  lhsNonContracting := [0]
  rhsNonContracting := [1]
  lhsBatch := []
  rhsBatch := []
  wf := dot_S4096x128_S128x1_S4096x1_1_0_0_1_n_n_wf
def dot_S8x32x128_S8x512x128_S8x32x512_2_2_1_1_0_0 : DotDims S8x32x128 S8x512x128 S8x32x512 where
  lhsContracting := [2]
  rhsContracting := [2]
  lhsNonContracting := [1]
  rhsNonContracting := [1]
  lhsBatch := [0]
  rhsBatch := [0]
  wf := dot_S8x32x128_S8x512x128_S8x32x512_2_2_1_1_0_0_wf

abbrev win0_0 : Pipeline.Window sig grid0 :=
  Pipeline.Window.ofSpec (Memref.whole main_arg0) S8x32x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S768x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0_0) S8x1.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_1) S8x1.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_2) S8x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S128x32x768 : Shape := ⟨3, ![128, 32, 768]⟩
abbrev S128x512x768 : Shape := ⟨3, ![128, 512, 768]⟩
abbrev S128x32 : Shape := ⟨2, ![128, 32]⟩
abbrev S128x512 : Shape := ⟨2, ![128, 512]⟩
abbrev S768x128 : Shape := ⟨2, ![768, 128]⟩
abbrev S128 : Shape := ⟨1, ![128]⟩
abbrev S128x1 : Shape := ⟨2, ![128, 1]⟩
abbrev S1 : Shape := ⟨1, ![1]⟩
abbrev S_ : Shape := ⟨0, ![]⟩
abbrev S128x1x768 : Shape := ⟨3, ![128, 1, 768]⟩
abbrev S128x768 : Shape := ⟨2, ![128, 768]⟩
abbrev S128x32x128 : Shape := ⟨3, ![128, 32, 128]⟩
abbrev S1x1x128 : Shape := ⟨3, ![1, 1, 128]⟩
abbrev S128x512x128 : Shape := ⟨3, ![128, 512, 128]⟩
abbrev S128x32x1 : Shape := ⟨3, ![128, 32, 1]⟩
abbrev S128x512x1 : Shape := ⟨3, ![128, 512, 1]⟩
abbrev S1x1x1 : Shape := ⟨3, ![1, 1, 1]⟩
abbrev S128x32x512 : Shape := ⟨3, ![128, 32, 512]⟩
abbrev S128x1x512 : Shape := ⟨3, ![128, 1, 512]⟩

abbrev nBuf : Space → Nat
  | .hbm => 78
  | .vmem => 0
  | .smem => 0
  | _ => 0

abbrev bufTy : (tb : Table) → Fin (tcTables nBuf tb) → BufTy
  | .hbm, ⟨0, _⟩ => ⟨S128x32x768, .f32⟩
  | .hbm, ⟨1, _⟩ => ⟨S128x512x768, .f32⟩
  | .hbm, ⟨2, _⟩ => ⟨S128x32, .i32⟩
  | .hbm, ⟨3, _⟩ => ⟨S128x512, .i32⟩
  | .hbm, ⟨4, _⟩ => ⟨S768x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S1, .f32⟩
  | .hbm, ⟨9, _⟩ => ⟨S_, .i32⟩
  | .hbm, ⟨10, _⟩ => ⟨S128x32, .i32⟩
  | .hbm, ⟨11, _⟩ => ⟨S128x32, .i1⟩
  | .hbm, ⟨12, _⟩ => ⟨S128x32, .i1⟩
  | .hbm, ⟨13, _⟩ => ⟨S_, .i32⟩
  | .hbm, ⟨14, _⟩ => ⟨S128x512, .i32⟩
  | .hbm, ⟨15, _⟩ => ⟨S128x512, .i1⟩
  | .hbm, ⟨16, _⟩ => ⟨S128x512, .i1⟩
  | .hbm, ⟨17, _⟩ => ⟨S128x1x768, .f32⟩
  | .hbm, ⟨18, _⟩ => ⟨S128x768, .f32⟩
  | .hbm, ⟨19, _⟩ => ⟨S128x1x768, .f32⟩
  | .hbm, ⟨20, _⟩ => ⟨S128x768, .f32⟩
  | .hbm, ⟨21, _⟩ => ⟨S128x32x128, .f32⟩
  | .hbm, ⟨22, _⟩ => ⟨S1x1x128, .f32⟩
  | .hbm, ⟨23, _⟩ => ⟨S128x32x128, .f32⟩
  | .hbm, ⟨24, _⟩ => ⟨S128x32x128, .f32⟩
  | .hbm, ⟨25, _⟩ => ⟨S128x512x128, .f32⟩
  | .hbm, ⟨26, _⟩ => ⟨S1x1x128, .f32⟩
  | .hbm, ⟨27, _⟩ => ⟨S128x512x128, .f32⟩
  | .hbm, ⟨28, _⟩ => ⟨S128x512x128, .f32⟩
  | .hbm, ⟨29, _⟩ => ⟨S128x32x1, .i1⟩
  | .hbm, ⟨30, _⟩ => ⟨S128x32x1, .f32⟩
  | .hbm, ⟨31, _⟩ => ⟨S128x32x128, .f32⟩
  | .hbm, ⟨32, _⟩ => ⟨S128x32x128, .f32⟩
  | .hbm, ⟨33, _⟩ => ⟨S128x512x1, .f32⟩
  | .hbm, ⟨34, _⟩ => ⟨S1x1x1, .f32⟩
  | .hbm, ⟨35, _⟩ => ⟨S128x512x1, .f32⟩
  | .hbm, ⟨36, _⟩ => ⟨S128x512x1, .f32⟩
  | .hbm, ⟨37, _⟩ => ⟨S_, .f32⟩
  | .hbm, ⟨38, _⟩ => ⟨S128x512x1, .f32⟩
  | .hbm, ⟨39, _⟩ => ⟨S128x512x1, .f32⟩
  | .hbm, ⟨40, _⟩ => ⟨S128x512x128, .f32⟩
  | .hbm, ⟨41, _⟩ => ⟨S128x512x128, .f32⟩
  | .hbm, ⟨42, _⟩ => ⟨S128x512x1, .i1⟩
  | .hbm, ⟨43, _⟩ => ⟨S128x512x1, .f32⟩
  | .hbm, ⟨44, _⟩ => ⟨S128x512x128, .f32⟩
  | .hbm, ⟨45, _⟩ => ⟨S128x512x128, .f32⟩
  | .hbm, ⟨46, _⟩ => ⟨S128x768, .f32⟩
  | .hbm, ⟨47, _⟩ => ⟨S_, .f32⟩
  | .hbm, ⟨48, _⟩ => ⟨S128, .f32⟩
  | .hbm, ⟨49, _⟩ => ⟨S128x32x512, .f32⟩
  | .hbm, ⟨50, _⟩ => ⟨S128x1x512, .i1⟩
  | .hbm, ⟨51, _⟩ => ⟨S_, .f32⟩
  | .hbm, ⟨52, _⟩ => ⟨S_, .f32⟩
  | .hbm, ⟨53, _⟩ => ⟨S128x32x512, .i1⟩
  | .hbm, ⟨54, _⟩ => ⟨S128x32x512, .f32⟩
  | .hbm, ⟨55, _⟩ => ⟨S128x32x512, .f32⟩
  | .hbm, ⟨56, _⟩ => ⟨S_, .f32⟩
  | .hbm, ⟨57, _⟩ => ⟨S128x32, .f32⟩
  | .hbm, ⟨58, _⟩ => ⟨S_, .f32⟩
  | .hbm, ⟨59, _⟩ => ⟨S_, .f32⟩
  | .hbm, ⟨60, _⟩ => ⟨S128x32, .f32⟩
  | .hbm, ⟨61, _⟩ => ⟨S128x32, .f32⟩
  | .hbm, ⟨62, _⟩ => ⟨S_, .f32⟩
  | .hbm, ⟨63, _⟩ => ⟨S128, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S_, .f32⟩
  | .hbm, ⟨74, _⟩ => ⟨S_, .f32⟩
  | .hbm, ⟨75, _⟩ => ⟨S128, .f32⟩
  | .hbm, ⟨76, _⟩ => ⟨S128, .f32⟩
  | .hbm, ⟨77, _⟩ => ⟨S128, .f32⟩
  | _, _ => ⟨S128x32x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_cst : Ref sig .tc := ⟨.hbm, 37, rfl⟩
abbrev main_call0_v0 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_1 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v37 : Ref sig .tc := ⟨.hbm, 55, rfl⟩
abbrev main_cst_2 : Ref sig .tc := ⟨.hbm, 56, rfl⟩
abbrev main_v38 : Ref sig .tc := ⟨.hbm, 57, rfl⟩
abbrev main_cst_3 : Ref sig .tc := ⟨.hbm, 58, rfl⟩
abbrev main_call2_v0 : Ref sig .tc := ⟨.hbm, 59, rfl⟩
abbrev main_call2_v1 : Ref sig .tc := ⟨.hbm, 60, rfl⟩
abbrev main_v39 : Ref sig .tc := ⟨.hbm, 61, rfl⟩
abbrev main_cst_4 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_5 : Ref sig .tc := ⟨.hbm, 67, rfl⟩
abbrev main_v44 : Ref sig .tc := ⟨.hbm, 68, rfl⟩
abbrev main_cst_6 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_7 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩

abbrev nD : Nat := 1
abbrev τ : Topo := Topo.v7x

variable {F : FTy → Type} [FloatOps F]

class Facts₀ : Prop where
  bcast_S_S128x32 : S_.BroadcastsInDim S128x32 (![] : Fin 0 → Fin S128x32.rank)
  bcast_S_S128x512 : S_.BroadcastsInDim S128x512 (![] : Fin 0 → Fin S128x512.rank)
  slices_S128x32x768_S128x1x768_0_0_0 : S128x32x768.Slices ![0, 0, 0] S128x1x768
  shapeCasts_S128x1x768_S128x768 : S128x1x768.ShapeCasts S128x768
  slices_S128x512x768_S128x1x768_0_0_0 : S128x512x768.Slices ![0, 0, 0] S128x1x768
  bcast_S128_S1x1x128_2 : S128.BroadcastsInDim S1x1x128 (![2] : Fin 1 → Fin S1x1x128.rank)
  bcast_S1x1x128_S128x32x128_0_1_2 : S1x1x128.BroadcastsInDim S128x32x128 (![0, 1, 2] : Fin 3 → Fin S128x32x128.rank)
  bcast_S1x1x128_S128x512x128_0_1_2 : S1x1x128.BroadcastsInDim S128x512x128 (![0, 1, 2] : Fin 3 → Fin S128x512x128.rank)
  bcast_S128x32_S128x32x1_0_1 : S128x32.BroadcastsInDim S128x32x1 (![0, 1] : Fin 2 → Fin S128x32x1.rank)
  bcast_S128x32x1_S128x32x128_0_1_2 : S128x32x1.BroadcastsInDim S128x32x128 (![0, 1, 2] : Fin 3 → Fin S128x32x128.rank)
  bcast_S1_S1x1x1_2 : S1.BroadcastsInDim S1x1x1 (![2] : Fin 1 → Fin S1x1x1.rank)
  bcast_S1x1x1_S128x512x1_0_1_2 : S1x1x1.BroadcastsInDim S128x512x1 (![0, 1, 2] : Fin 3 → Fin S128x512x1.rank)
  bcast_S_S128x512x1 : S_.BroadcastsInDim S128x512x1 (![] : Fin 0 → Fin S128x512x1.rank)
  bcast_S128x512x1_S128x512x128_0_1_2 : S128x512x1.BroadcastsInDim S128x512x128 (![0, 1, 2] : Fin 3 → Fin S128x512x128.rank)
  bcast_S128x512_S128x512x1_0_1 : S128x512.BroadcastsInDim S128x512x1 (![0, 1] : Fin 2 → Fin S128x512x1.rank)
  reducesTo_S128x768_S128_d1 : S128x768.ReducesTo [1] S128
  h_S_ : 0 < S_.numel
  bcast_S128x512_S128x1x512_0_2 : S128x512.BroadcastsInDim S128x1x512 (![0, 2] : Fin 2 → Fin S128x1x512.rank)
  bcast_S128x1x512_S128x32x512_0_1_2 : S128x1x512.BroadcastsInDim S128x32x512 (![0, 1, 2] : Fin 3 → Fin S128x32x512.rank)
  bcast_S_S128x32x512 : S_.BroadcastsInDim S128x32x512 (![] : Fin 0 → Fin S128x32x512.rank)
  reducesTo_S128x32x512_S128x32_d2 : S128x32x512.ReducesTo [2] S128x32
  reducesTo_S128x32_S128_d1 : S128x32.ReducesTo [1] S128
  shapeCasts_S1_S_ : S1.ShapeCasts S_
  bcast_S_S128 : S_.BroadcastsInDim S128 (![] : Fin 0 → Fin S128.rank)
  dot_S128x32x768_S768x128_S128x32x128_2_0_01_1_n_n_wf : DotDims.WF S128x32x768 S768x128 S128x32x128 [2] [0] [0, 1] [1] [] []
  dot_S128x512x768_S768x128_S128x512x128_2_0_01_1_n_n_wf : DotDims.WF S128x512x768 S768x128 S128x512x128 [2] [0] [0, 1] [1] [] []
  dot_S128x512x128_S128x1_S128x512x1_2_0_01_1_n_n_wf : DotDims.WF S128x512x128 S128x1 S128x512x1 [2] [0] [0, 1] [1] [] []
  dot_S128x32x128_S128x512x128_S128x32x512_2_2_1_1_0_0_wf : DotDims.WF S128x32x128 S128x512x128 S128x32x512 [2] [2] [1] [1] [0] [0]

variable [Facts₀]

def dot_S128x32x768_S768x128_S128x32x128_2_0_01_1_n_n : DotDims S128x32x768 S768x128 S128x32x128 where
  lhsContracting := [2]
  rhsContracting := [0]
  lhsNonContracting := [0, 1]
  rhsNonContracting := [1]
  lhsBatch := []
  rhsBatch := []
  wf := dot_S128x32x768_S768x128_S128x32x128_2_0_01_1_n_n_wf
def dot_S128x512x768_S768x128_S128x512x128_2_0_01_1_n_n : DotDims S128x512x768 S768x128 S128x512x128 where
  lhsContracting := [2]
  rhsContracting := [0]
  lhsNonContracting := [0, 1]
  rhsNonContracting := [1]
  lhsBatch := []
  rhsBatch := []
  wf := dot_S128x512x768_S768x128_S128x512x128_2_0_01_1_n_n_wf
def dot_S128x512x128_S128x1_S128x512x1_2_0_01_1_n_n : DotDims S128x512x128 S128x1 S128x512x1 where
  lhsContracting := [2]
  rhsContracting := [0]
  lhsNonContracting := [0, 1]
  rhsNonContracting := [1]
  lhsBatch := []
  rhsBatch := []
  wf := dot_S128x512x128_S128x1_S128x512x1_2_0_01_1_n_n_wf
def dot_S128x32x128_S128x512x128_S128x32x512_2_2_1_1_0_0 : DotDims S128x32x128 S128x512x128 S128x32x512 where
  lhsContracting := [2]
  rhsContracting := [2]
  lhsNonContracting := [1]
  rhsNonContracting := [1]
  lhsBatch := [0]
  rhsBatch := [0]
  wf := dot_S128x32x128_S128x512x128_S128x32x512_2_2_1_1_0_0_wf

class Facts : Prop extends Facts₀ where

variable [Facts]
-- ==== Proof.Spec.lean ====
/-
  The late-interaction score of ONE batch element, as a function of that element's slices of the argument arrays, on the
  extended reals.

  The slices: the query tokens' hidden vectors `q l h`, the document tokens' `d k h`, the two mask rows `mq l`, `md k`
  (integer words), and the parameters — the compressor `W h c` with bias `bc c`, the stopword vector `ws c` with bias
  `bs`, the merger parameter `sm`.

  The compressor projects a hidden vector `x` to `Σ_h x h · W h c + bc c`. A query token's vector is its projection times
  its mask value. A document token's importance is `max (Σ_c projection · ws c + bs) 0`, and its vector is projection times
  importance times mask value. The similarity of query token `l` and document token `k` is
  `Σ_c qvec l c · dvec k c + (mask value of k − 1) · 1000`: on a live document token the offset is `0`, on a masked one
  the sum is `0` and the offset is `−1000`. A query token's term is the maximum of its similarities over the document
  tokens. With `σ` the logistic function of the merger parameter, the first-token score is `(Σ_h q 0 h · d 0 h) · σ`,
  the term score `(Σ_l term l · mask value of l) · (1 − σ)`, and the score their sum.
  A mask value is the mask's integer word read as a number: `0` or `1` on a mask whose entries are 0 or 1.
-/
import Idealize.ShloMosaic.PureOps.Ideal
import Idealize.ShloMosaic.PureOps.Ideal.Laws

noncomputable section

namespace Cert.MaxSim

open Idealize.ShloMosaic

/-- A mask word read as a number (the signed integer it encodes). -/
def maskVal (w : BitVec 32) : EReal := FloatOps.sitofp (F := Ideal) .f32 w

/-- The float literals of the similarity offset, the merge, the rectifier and the running maximum, as the words printed. -/
def one : EReal := Ideal.ofBits .f32 0x3F800000#32
def thousand : EReal := Ideal.ofBits .f32 0x447A0000#32
def zeroW : EReal := Ideal.ofBits .f32 0x00000000#32
def negInfW : EReal := Ideal.ofBits .f32 0xFF800000#32

section
variable (q : Fin 32 → Fin 768 → EReal) (d : Fin 512 → Fin 768 → EReal) (mq : Fin 32 → BitVec 32) (md : Fin 512 → BitVec 32)
  (W : Fin 768 → Fin 128 → EReal) (bc : Fin 128 → EReal) (ws : Fin 128 → EReal) (bs sm : EReal)

/-- The compressor applied to query token `l`. -/
def projQ (l : Fin 32) (c : Fin 128) : EReal := (∑ h : Fin 768, q l h * W h c) + bc c

/-- The compressor applied to document token `k`. -/
def projD (k : Fin 512) (c : Fin 128) : EReal := (∑ h : Fin 768, d k h * W h c) + bc c

/-- A query token's vector: its projection times its mask value. -/
def qvec (l : Fin 32) (c : Fin 128) : EReal := projQ q W bc l c * maskVal (mq l)

/-- A document token's importance: the rectified stopword score. -/
def importance (k : Fin 512) : EReal := max ((∑ c : Fin 128, projD d W bc k c * ws c) + bs) zeroW

/-- A document token's vector: projection times importance times mask value. -/
def dvec (k : Fin 512) (c : Fin 128) : EReal := projD d W bc k c * importance d W bc ws bs k * maskVal (md k)

/-- The similarity of query token `l` and document token `k`, with the offset that sends a masked document token to −1000. -/
def sim (l : Fin 32) (k : Fin 512) : EReal :=
  (∑ c : Fin 128, qvec q mq W bc l c * dvec d md W bc ws bs k c) + (maskVal (md k) - one) * thousand

/-- A query token's term: its best similarity over the document tokens. -/
def term (l : Fin 32) : EReal :=
  (Finset.univ : Finset (Fin 512)).fold max negInfW (fun k => sim q d mq md W bc ws bs l k)

/-- The merge weight. -/
def sigma : EReal := Ideal.logistic sm

/-- The weighted first-token score. -/
def clsScore : EReal := (∑ h : Fin 768, q 0 h * d 0 h) * sigma sm

/-- The weighted term score. -/
def termScore : EReal := (∑ l : Fin 32, term q d mq md W bc ws bs l * maskVal (mq l)) * (one - sigma sm)

/-- The merged score. -/
def score : EReal := clsScore q d sm + termScore q d mq md W bc ws bs sm

end

end Cert.MaxSim

end
-- ==== Proof.Arrays.lean ====
/-
  The three result arrays as whole-array functions of the nine argument arrays: entry `b` of each is the per-element
  function of Spec.lean at batch element `b`'s slices — query token `l`'s hidden vector is row `(b, l, ·)` of the query
  array, document token `k`'s is row `(b, k, ·)` of the document array, the mask rows are rows `b` of the two masks, and
  the parameters are read whole.
-/
import proofs.«146330_j53549652246634_2_alg».proof.Proof.Spec
import Idealize.ShloMosaic.Lib.ValueIdx

noncomputable section

namespace Cert.MaxSim

open Idealize.ShloMosaic Idealize.ShloMosaic.ValueIdx

/-- The argument arrays' and the results' shapes. -/
abbrev ShQ : Shape := ⟨3, ![128, 32, 768]⟩
abbrev ShD : Shape := ⟨3, ![128, 512, 768]⟩
abbrev ShQM : Shape := ⟨2, ![128, 32]⟩
abbrev ShDM : Shape := ⟨2, ![128, 512]⟩
abbrev ShW : Shape := ⟨2, ![768, 128]⟩
abbrev ShB : Shape := ⟨1, ![128]⟩
abbrev ShWs : Shape := ⟨2, ![128, 1]⟩
abbrev Sh1 : Shape := ⟨1, ![1]⟩
abbrev Out : Shape := ⟨1, ![128]⟩

section
variable (x0 : ShQ.Idx → EReal) (x1 : ShD.Idx → EReal) (x2 : ShQM.Idx → BitVec 32) (x3 : ShDM.Idx → BitVec 32)
  (x4 : ShW.Idx → EReal) (x5 : ShB.Idx → EReal) (x6 : ShWs.Idx → EReal) (x7 x8 : Sh1.Idx → EReal)

/-- The merged score of batch element `b`. -/
def scoreAt (b : Fin 128) : EReal :=
  score (fun l h => x0 (ix3 b l h)) (fun k h => x1 (ix3 b k h)) (fun l => x2 (ix2 b l)) (fun k => x3 (ix2 b k))
    (fun h c => x4 (ix2 h c)) (fun c => x5 (ix1 c)) (fun c => x6 (ix2 c (0 : Fin 1))) (x7 (ix1 (0 : Fin 1))) (x8 (ix1 (0 : Fin 1)))

/-- The weighted first-token score of batch element `b`. -/
def clsAt (b : Fin 128) : EReal :=
  clsScore (fun l h => x0 (ix3 b l h)) (fun k h => x1 (ix3 b k h)) (x8 (ix1 (0 : Fin 1)))

/-- The weighted term score of batch element `b`. -/
def termAt (b : Fin 128) : EReal :=
  termScore (fun l h => x0 (ix3 b l h)) (fun k h => x1 (ix3 b k h)) (fun l => x2 (ix2 b l)) (fun k => x3 (ix2 b k))
    (fun h c => x4 (ix2 h c)) (fun c => x5 (ix1 c)) (fun c => x6 (ix2 c (0 : Fin 1))) (x7 (ix1 (0 : Fin 1))) (x8 (ix1 (0 : Fin 1)))

/-- The three result arrays. -/
def scoreArr : Out.Idx → EReal := fun i => scoreAt x0 x1 x2 x3 x4 x5 x6 x7 x8 (i 0)
def clsArr : Out.Idx → EReal := fun i => clsAt x0 x1 x8 (i 0)
def termArr : Out.Idx → EReal := fun i => termAt x0 x1 x2 x3 x4 x5 x6 x7 x8 (i 0)

theorem scoreArr_ix1 (b : Fin 128) : scoreArr x0 x1 x2 x3 x4 x5 x6 x7 x8 (ix1 b) = scoreAt x0 x1 x2 x3 x4 x5 x6 x7 x8 b := rfl
theorem clsArr_ix1 (b : Fin 128) : clsArr x0 x1 x8 (ix1 b) = clsAt x0 x1 x8 b := rfl
theorem termArr_ix1 (b : Fin 128) : termArr x0 x1 x2 x3 x4 x5 x6 x7 x8 (ix1 b) = termAt x0 x1 x2 x3 x4 x5 x6 x7 x8 b := rfl

end

end Cert.MaxSim

end
-- ==== Proof.Layout.lean ====
/-
  Layout operations read at an index, for the shapes this kernel's body meets.

  A shape cast keeps the row-major position: flattening a batch axis `A` and a token axis `B` into one axis of `A · B` rows sends
  `(p, k)` to row `p · B + k`, and inserting or dropping an axis of extent one moves no entry. A broadcast along an axis of
  extent one reads the operand at `0` on that axis. A slice at zero offsets reads the operand at the same coordinates.
-/
import Idealize.ShloMosaic.Lib.Pipeline.Value
import Idealize.ShloMosaic.Lib.ValueIdx
import Idealize.ShloMosaic.PureOps.Ideal.Laws

noncomputable section

namespace Cert.MaxSim.Layout

open Idealize.ShloMosaic Idealize.ShloMosaic.ValueIdx

variable {α : Type}

/-! ## Shape casts -/

/-- Rows `(p, k)` of a three-axis array are row `p · B + k` of its flattening to two axes. -/
theorem cast_flatten {A B C N : Nat} (v : (⟨3, ![A, B, C]⟩ : Shape).Idx → α)
    (h : (⟨3, ![A, B, C]⟩ : Shape).ShapeCasts ⟨2, ![N, C]⟩) (p : Fin A) (k : Fin B) (c : Fin C) (r : Fin N)
    (hr : r.val = p.val * B + k.val) : shapeCast ⟨2, ![N, C]⟩ v h (ix2 r c) = v (ix3 p k c) :=
  shapeCast_apply v h (ix2 r c) (ix3 p k c) (by
    rw [Shape.rowMajor_val_three, Shape.rowMajor_val_two]
    show (p.val * B + k.val) * C + c.val = r.val * C + c.val
    rw [hr])

/-- And back: row `p · B + k` of a two-axis array is entry `(p, k)` of its unflattening. -/
theorem cast_unflatten {A B C N : Nat} (v : (⟨2, ![N, C]⟩ : Shape).Idx → α)
    (h : (⟨2, ![N, C]⟩ : Shape).ShapeCasts ⟨3, ![A, B, C]⟩) (p : Fin A) (k : Fin B) (c : Fin C) (r : Fin N)
    (hr : r.val = p.val * B + k.val) : shapeCast ⟨3, ![A, B, C]⟩ v h (ix3 p k c) = v (ix2 r c) :=
  shapeCast_apply v h (ix3 p k c) (ix2 r c) (by
    rw [Shape.rowMajor_val_three, Shape.rowMajor_val_two]
    show r.val * C + c.val = (p.val * B + k.val) * C + c.val
    rw [hr])

/-- A two-axis array flattened to one column. -/
theorem cast_column {A B N : Nat} (v : (⟨2, ![A, B]⟩ : Shape).Idx → α)
    (h : (⟨2, ![A, B]⟩ : Shape).ShapeCasts ⟨2, ![N, 1]⟩) (p : Fin A) (k : Fin B) (r : Fin N)
    (hr : r.val = p.val * B + k.val) : shapeCast ⟨2, ![N, 1]⟩ v h (ix2 r (0 : Fin 1)) = v (ix2 p k) :=
  shapeCast_apply v h (ix2 r (0 : Fin 1)) (ix2 p k) (by
    rw [Shape.rowMajor_val_two, Shape.rowMajor_val_two]
    show p.val * B + k.val = r.val * 1 + 0
    rw [hr, Nat.mul_one, Nat.add_zero])

/-- An axis of extent one inserted in the middle. -/
theorem cast_insert_mid {A B : Nat} (v : (⟨2, ![A, B]⟩ : Shape).Idx → α)
    (h : (⟨2, ![A, B]⟩ : Shape).ShapeCasts ⟨3, ![A, 1, B]⟩) (p : Fin A) (k : Fin B) :
    shapeCast ⟨3, ![A, 1, B]⟩ v h (ix3 p (0 : Fin 1) k) = v (ix2 p k) :=
  shapeCast_apply v h (ix3 p (0 : Fin 1) k) (ix2 p k) (by
    rw [Shape.rowMajor_val_three, Shape.rowMajor_val_two]
    show p.val * B + k.val = (p.val * 1 + 0) * B + k.val
    rw [Nat.mul_one, Nat.add_zero])

/-- An axis of extent one appended. -/
theorem cast_append_unit {A B : Nat} (v : (⟨2, ![A, B]⟩ : Shape).Idx → α)
    (h : (⟨2, ![A, B]⟩ : Shape).ShapeCasts ⟨3, ![A, B, 1]⟩) (p : Fin A) (l : Fin B) :
    shapeCast ⟨3, ![A, B, 1]⟩ v h (ix3 p l (0 : Fin 1)) = v (ix2 p l) :=
  shapeCast_apply v h (ix3 p l (0 : Fin 1)) (ix2 p l) (by
    rw [Shape.rowMajor_val_three, Shape.rowMajor_val_two]
    show p.val * B + l.val = (p.val * B + l.val) * 1 + 0
    rw [Nat.mul_one, Nat.add_zero])

/-- The middle axis of extent one dropped. -/
theorem cast_drop_mid {A C : Nat} (v : (⟨3, ![A, 1, C]⟩ : Shape).Idx → α)
    (h : (⟨3, ![A, 1, C]⟩ : Shape).ShapeCasts ⟨2, ![A, C]⟩) (p : Fin A) (c : Fin C) :
    shapeCast ⟨2, ![A, C]⟩ v h (ix2 p c) = v (ix3 p (0 : Fin 1) c) :=
  shapeCast_apply v h (ix2 p c) (ix3 p (0 : Fin 1) c) (by
    rw [Shape.rowMajor_val_three, Shape.rowMajor_val_two]
    show (p.val * 1 + 0) * C + c.val = p.val * C + c.val
    rw [Nat.mul_one, Nat.add_zero])

/-- A vector as a column. -/
theorem cast_vec_column {A : Nat} (v : (⟨1, ![A]⟩ : Shape).Idx → α)
    (h : (⟨1, ![A]⟩ : Shape).ShapeCasts ⟨2, ![A, 1]⟩) (p : Fin A) :
    shapeCast ⟨2, ![A, 1]⟩ v h (ix2 p (0 : Fin 1)) = v (ix1 p) :=
  shapeCast_apply v h (ix2 p (0 : Fin 1)) (ix1 p) (by
    rw [Shape.rowMajor_val_one, Shape.rowMajor_val_two]
    show p.val = p.val * 1 + 0
    rw [Nat.mul_one, Nat.add_zero])

/-- A vector as a row. -/
theorem cast_vec_row {A : Nat} (v : (⟨1, ![A]⟩ : Shape).Idx → α)
    (h : (⟨1, ![A]⟩ : Shape).ShapeCasts ⟨2, ![1, A]⟩) (c : Fin A) :
    shapeCast ⟨2, ![1, A]⟩ v h (ix2 (0 : Fin 1) c) = v (ix1 c) :=
  shapeCast_apply v h (ix2 (0 : Fin 1) c) (ix1 c) (by
    rw [Shape.rowMajor_val_one, Shape.rowMajor_val_two]
    show c.val = 0 * A + c.val
    rw [Nat.zero_mul, Nat.zero_add])

end Cert.MaxSim.Layout

end
-- ==== Proof.KernelOps.lean ====
/-
  The kernel body's non-pointwise operations read at an index, at the extended reals.

  A broadcast along an axis of extent one reads the operand at `0` there; the first-token slice reads token `0`; a sum over
  the last axis is the sum over that axis's coordinates; the maximum over the document axis is the fold of `max` over its
  coordinates from the accumulator's value; and a matrix product into the zero accumulator is, entry by entry, the sum over
  the contracted coordinate of the operands' products — for the batched product, within one batch element.
-/
import proofs.«146330_j53549652246634_2_alg».proof.KernelIdeal
import proofs.«146330_j53549652246634_2_alg».proof.Proof.Layout

noncomputable section

namespace Cert.KernelIdeal.Ops

open Idealize.ShloMosaic Idealize.ShloMosaic.ValueIdx Cert.KernelIdeal

variable {α : Type}

/-! ## Broadcasts along axes of extent one -/

theorem bc_S1_S8 (v : S1.Idx → α) (h : S1.Broadcasts S8) (p : Fin 8) :
    broadcastTo S8 v h (ix1 p) = v (ix1 (0 : Fin 1)) :=
  broadcastTo_apply v h (ix1 p) (ix1 (0 : Fin 1)) (fun a => by match a with | ⟨0, _⟩ => rfl)

theorem bc_S1x128_S256x128 (v : S1x128.Idx → α) (h : S1x128.Broadcasts S256x128) (r : Fin 256) (c : Fin 128) :
    broadcastTo S256x128 v h (ix2 r c) = v (ix2 (0 : Fin 1) c) :=
  broadcastTo_apply v h (ix2 r c) (ix2 (0 : Fin 1) c) (fun a => by match a with | ⟨0, _⟩ => rfl | ⟨1, _⟩ => rfl)

theorem bc_S1x128_S4096x128 (v : S1x128.Idx → α) (h : S1x128.Broadcasts S4096x128) (r : Fin 4096) (c : Fin 128) :
    broadcastTo S4096x128 v h (ix2 r c) = v (ix2 (0 : Fin 1) c) :=
  broadcastTo_apply v h (ix2 r c) (ix2 (0 : Fin 1) c) (fun a => by match a with | ⟨0, _⟩ => rfl | ⟨1, _⟩ => rfl)

theorem bc_S4096x1_S4096x128 (v : S4096x1.Idx → α) (h : S4096x1.Broadcasts S4096x128) (r : Fin 4096) (c : Fin 128) :
    broadcastTo S4096x128 v h (ix2 r c) = v (ix2 r (0 : Fin 1)) :=
  broadcastTo_apply v h (ix2 r c) (ix2 r (0 : Fin 1)) (fun a => by match a with | ⟨0, _⟩ => rfl | ⟨1, _⟩ => rfl)

theorem bc_S1x1_S4096x1 (v : S1x1.Idx → α) (h : S1x1.Broadcasts S4096x1) (r : Fin 4096) :
    broadcastTo S4096x1 v h (ix2 r (0 : Fin 1)) = v (ix2 (0 : Fin 1) (0 : Fin 1)) :=
  broadcastTo_apply v h (ix2 r (0 : Fin 1)) (ix2 (0 : Fin 1) (0 : Fin 1)) (fun a => by match a with | ⟨0, _⟩ => rfl | ⟨1, _⟩ => rfl)

theorem bc_S8x32x1_S8x32x128 (v : S8x32x1.Idx → α) (h : S8x32x1.Broadcasts S8x32x128) (p : Fin 8) (l : Fin 32) (c : Fin 128) :
    broadcastTo S8x32x128 v h (ix3 p l c) = v (ix3 p l (0 : Fin 1)) :=
  broadcastTo_apply v h (ix3 p l c) (ix3 p l (0 : Fin 1)) (fun a => by
    match a with | ⟨0, _⟩ => rfl | ⟨1, _⟩ => rfl | ⟨2, _⟩ => rfl)

theorem bc_S8x1x512_S8x32x512 (v : S8x1x512.Idx → α) (h : S8x1x512.Broadcasts S8x32x512) (p : Fin 8) (l : Fin 32) (k : Fin 512) :
    broadcastTo S8x32x512 v h (ix3 p l k) = v (ix3 p (0 : Fin 1) k) :=
  broadcastTo_apply v h (ix3 p l k) (ix3 p (0 : Fin 1) k) (fun a => by
    match a with | ⟨0, _⟩ => rfl | ⟨1, _⟩ => rfl | ⟨2, _⟩ => rfl)

/-! ## The first-token slices -/

theorem slice_first_query (v : S8x32x768.Idx → α) (h : S8x32x768.Slices ![0, 0, 0] S8x1x768) (p : Fin 8) (hh : Fin 768) :
    extractStridedSlice S8x1x768 ![0, 0, 0] v h (ix3 p (0 : Fin 1) hh) = v (ix3 p (0 : Fin 32) hh) :=
  extractStridedSlice_apply ![0, 0, 0] v h (ix3 p (0 : Fin 1) hh) (ix3 p (0 : Fin 32) hh) (fun a => by
    match a with
    | ⟨0, _⟩ => exact (Nat.zero_add _).symm
    | ⟨1, _⟩ => exact (Nat.zero_add _).symm
    | ⟨2, _⟩ => exact (Nat.zero_add _).symm)

theorem slice_first_doc (v : S8x512x768.Idx → α) (h : S8x512x768.Slices ![0, 0, 0] S8x1x768) (p : Fin 8) (hh : Fin 768) :
    extractStridedSlice S8x1x768 ![0, 0, 0] v h (ix3 p (0 : Fin 1) hh) = v (ix3 p (0 : Fin 512) hh) :=
  extractStridedSlice_apply ![0, 0, 0] v h (ix3 p (0 : Fin 1) hh) (ix3 p (0 : Fin 512) hh) (fun a => by
    match a with
    | ⟨0, _⟩ => exact (Nat.zero_add _).symm
    | ⟨1, _⟩ => exact (Nat.zero_add _).symm
    | ⟨2, _⟩ => exact (Nat.zero_add _).symm)

/-! ## Reductions over the last axis -/

/-- The sum over the hidden axis. -/
theorem sum_hidden (v : FVec Ideal S8x768 .f32) (h : S8x768.Reduces [1] S8) (hφ : FKind.Formats .f32)
    (hacc : (0x00000000#32 : BitVec 32) = FKind.add.neutral .f32 hφ) (p : Fin 8) :
    multiReduction .add [1] S8 v 0x00000000#32 h hφ hacc (ix1 p) = ∑ hh : Fin 768, v (ix2 p hh) := by
  refine (Ideal.multiReduction_add_single v 0x00000000#32 h hφ hacc (ix1 p)).trans ?_
  refine Finset.sum_congr rfl fun k _ => congrArg v ?_
  exact funext fun a => Fin.ext (by match a with | ⟨0, _⟩ => rfl | ⟨1, _⟩ => rfl)

/-- The sum over the query tokens. -/
theorem sum_query (v : FVec Ideal S8x32 .f32) (h : S8x32.Reduces [1] S8) (hφ : FKind.Formats .f32)
    (hacc : (0x00000000#32 : BitVec 32) = FKind.add.neutral .f32 hφ) (p : Fin 8) :
    multiReduction .add [1] S8 v 0x00000000#32 h hφ hacc (ix1 p) = ∑ l : Fin 32, v (ix2 p l) := by
  refine (Ideal.multiReduction_add_single v 0x00000000#32 h hφ hacc (ix1 p)).trans ?_
  refine Finset.sum_congr rfl fun k _ => congrArg v ?_
  exact funext fun a => Fin.ext (by match a with | ⟨0, _⟩ => rfl | ⟨1, _⟩ => rfl)

/-- The maximum over the document tokens. -/
theorem max_docs (v : FVec Ideal S8x32x512 .f32) (h : S8x32x512.Reduces [2] S8x32) (hφ : FKind.Formats .f32)
    (hacc : (0xFF800000#32 : BitVec 32) = FKind.maximumf.neutral .f32 hφ) (p : Fin 8) (l : Fin 32) :
    multiReduction .maximumf [2] S8x32 v 0xFF800000#32 h hφ hacc (ix2 p l)
      = (Finset.univ : Finset (Fin 512)).fold max (Ideal.ofBits .f32 0xFF800000#32) (fun k => v (ix3 p l k)) := by
  refine (Ideal.multiReduction_maximumf_single v 0xFF800000#32 h hφ hacc (ix2 p l)).trans ?_
  refine congrArg (fun f => (Finset.univ : Finset (Fin 512)).fold max (Ideal.ofBits .f32 0xFF800000#32) f) ?_
  exact funext fun k => congrArg v (funext fun a => Fin.ext (by
    match a with | ⟨0, _⟩ => rfl | ⟨1, _⟩ => rfl | ⟨2, _⟩ => rfl))

end Cert.KernelIdeal.Ops

end
-- ==== Proof.KernelDots.lean ====
/-
  The body's matrix products read at an entry, at the extended reals.

  Into the zero accumulator a product of a `[R, K]` and a `[K, C]` matrix is, at entry `(r, c)`, the sum over the contracted
  coordinate `h` of `lhs (r, h) · rhs (h, c)`; the batched product of the query vectors `[8, 32, 128]` with the document vectors
  `[8, 512, 128]`, contracted over the channel axis within each batch element, is at `(p, l, k)` the sum over the channel `c`
  of `lhs (p, l, c) · rhs (p, k, c)`. Each operand coordinate is read off the product's dimension numbers: a batch or free
  axis takes the result's coordinate, the contracted axis the summation index.
-/
import proofs.«146330_j53549652246634_2_alg».proof.Proof.Gen.KernelIdeal
import Idealize.ShloMosaic.Lib.ValueIdx
import Idealize.ShloMosaic.PureOps.Ideal.Laws

noncomputable section

namespace Cert.KernelIdeal.Dots

open Idealize.ShloMosaic Idealize.ShloMosaic.ValueIdx Cert.KernelIdeal

/-! ## The document tokens' compressor: `[4096, 768] · [768, 128]` -/

theorem doc_lhs0 (i : S4096x128.Idx) (q : dot_S4096x768_S768x128_S4096x128_1_0_0_1_n_n.contr.Idx) :
    (dot_S4096x768_S768x128_S4096x128_1_0_0_1_n_n.lhsIdx i q 0).val = (i 0).val := by
  unfold DotDims.lhsIdx
  rw [dif_neg (show ¬(0 : Fin S4096x768.rank) ∈ dot_S4096x768_S768x128_S4096x128_1_0_0_1_n_n.lhsBatch by decide),
    dif_pos (show (0 : Fin S4096x768.rank) ∈ dot_S4096x768_S768x128_S4096x128_1_0_0_1_n_n.lhsNonContracting by decide)]
  rfl
theorem doc_lhs1 (i : S4096x128.Idx) (q : dot_S4096x768_S768x128_S4096x128_1_0_0_1_n_n.contr.Idx) :
    (dot_S4096x768_S768x128_S4096x128_1_0_0_1_n_n.lhsIdx i q 1).val = (q ⟨0, by decide⟩).val :=
  dot_S4096x768_S768x128_S4096x128_1_0_0_1_n_n.lhsIdx_val_of_single rfl i q
theorem doc_rhs0 (i : S4096x128.Idx) (q : dot_S4096x768_S768x128_S4096x128_1_0_0_1_n_n.contr.Idx) :
    (dot_S4096x768_S768x128_S4096x128_1_0_0_1_n_n.rhsIdx i q 0).val = (q ⟨0, by decide⟩).val :=
  dot_S4096x768_S768x128_S4096x128_1_0_0_1_n_n.rhsIdx_val_of_single rfl i q
theorem doc_rhs1 (i : S4096x128.Idx) (q : dot_S4096x768_S768x128_S4096x128_1_0_0_1_n_n.contr.Idx) :
    (dot_S4096x768_S768x128_S4096x128_1_0_0_1_n_n.rhsIdx i q 1).val = (i 1).val := by
  unfold DotDims.rhsIdx
  rw [dif_neg (show ¬(1 : Fin S768x128.rank) ∈ dot_S4096x768_S768x128_S4096x128_1_0_0_1_n_n.rhsBatch by decide),
    dif_pos (show (1 : Fin S768x128.rank) ∈ dot_S4096x768_S768x128_S4096x128_1_0_0_1_n_n.rhsNonContracting by decide)]
  rfl

/-- Row `r`, channel `c` of the document projection is the sum over the hidden coordinate. -/
theorem mm_doc (lhs : FVec Ideal S4096x768 .bf16) (rhs : FVec Ideal S768x128 .bf16) (r : Fin 4096) (c : Fin 128) :
    matmul dot_S4096x768_S768x128_S4096x128_1_0_0_1_n_n none lhs rhs (constant (F := Ideal) S4096x128 .f32 0x00000000#32) (ix2 r c)
      = ∑ h : Fin 768, lhs (ix2 r h) * rhs (ix2 h c) := by
  refine (Ideal.matmul_constant_zero_apply dot_S4096x768_S768x128_S4096x128_1_0_0_1_n_n none lhs rhs (ix2 r c)).trans ?_
  rw [← Equiv.sum_comp (contrEquiv1 dot_S4096x768_S768x128_S4096x128_1_0_0_1_n_n 768 rfl rfl).symm]
  refine Finset.sum_congr rfl fun k _ => ?_
  have hk := contrEquiv1_symm_val dot_S4096x768_S768x128_S4096x128_1_0_0_1_n_n 768 rfl rfl k
  have el : dot_S4096x768_S768x128_S4096x128_1_0_0_1_n_n.lhsIdx (ix2 r c)
      ((contrEquiv1 dot_S4096x768_S768x128_S4096x128_1_0_0_1_n_n 768 rfl rfl).symm k) = ix2 r k :=
    funext fun a => Fin.ext (by
      match a with
      | ⟨0, _⟩ => exact doc_lhs0 _ _
      | ⟨1, _⟩ => exact (doc_lhs1 _ _).trans hk)
  have er : dot_S4096x768_S768x128_S4096x128_1_0_0_1_n_n.rhsIdx (ix2 r c)
      ((contrEquiv1 dot_S4096x768_S768x128_S4096x128_1_0_0_1_n_n 768 rfl rfl).symm k) = ix2 k c :=
    funext fun a => Fin.ext (by
      match a with
      | ⟨0, _⟩ => exact (doc_rhs0 _ _).trans hk
      | ⟨1, _⟩ => exact doc_rhs1 _ _)
  rw [el, er]

/-! ## The query tokens' compressor: `[256, 768] · [768, 128]` -/

theorem qry_lhs0 (i : S256x128.Idx) (q : dot_S256x768_S768x128_S256x128_1_0_0_1_n_n.contr.Idx) :
    (dot_S256x768_S768x128_S256x128_1_0_0_1_n_n.lhsIdx i q 0).val = (i 0).val := by
  unfold DotDims.lhsIdx
  rw [dif_neg (show ¬(0 : Fin S256x768.rank) ∈ dot_S256x768_S768x128_S256x128_1_0_0_1_n_n.lhsBatch by decide),
    dif_pos (show (0 : Fin S256x768.rank) ∈ dot_S256x768_S768x128_S256x128_1_0_0_1_n_n.lhsNonContracting by decide)]
  rfl
theorem qry_lhs1 (i : S256x128.Idx) (q : dot_S256x768_S768x128_S256x128_1_0_0_1_n_n.contr.Idx) :
    (dot_S256x768_S768x128_S256x128_1_0_0_1_n_n.lhsIdx i q 1).val = (q ⟨0, by decide⟩).val :=
  dot_S256x768_S768x128_S256x128_1_0_0_1_n_n.lhsIdx_val_of_single rfl i q
theorem qry_rhs0 (i : S256x128.Idx) (q : dot_S256x768_S768x128_S256x128_1_0_0_1_n_n.contr.Idx) :
    (dot_S256x768_S768x128_S256x128_1_0_0_1_n_n.rhsIdx i q 0).val = (q ⟨0, by decide⟩).val :=
  dot_S256x768_S768x128_S256x128_1_0_0_1_n_n.rhsIdx_val_of_single rfl i q
theorem qry_rhs1 (i : S256x128.Idx) (q : dot_S256x768_S768x128_S256x128_1_0_0_1_n_n.contr.Idx) :
    (dot_S256x768_S768x128_S256x128_1_0_0_1_n_n.rhsIdx i q 1).val = (i 1).val := by
  unfold DotDims.rhsIdx
  rw [dif_neg (show ¬(1 : Fin S768x128.rank) ∈ dot_S256x768_S768x128_S256x128_1_0_0_1_n_n.rhsBatch by decide),
    dif_pos (show (1 : Fin S768x128.rank) ∈ dot_S256x768_S768x128_S256x128_1_0_0_1_n_n.rhsNonContracting by decide)]
  rfl

/-- Row `r`, channel `c` of the query projection is the sum over the hidden coordinate. -/
theorem mm_qry (lhs : FVec Ideal S256x768 .bf16) (rhs : FVec Ideal S768x128 .bf16) (r : Fin 256) (c : Fin 128) :
    matmul dot_S256x768_S768x128_S256x128_1_0_0_1_n_n none lhs rhs (constant (F := Ideal) S256x128 .f32 0x00000000#32) (ix2 r c)
      = ∑ h : Fin 768, lhs (ix2 r h) * rhs (ix2 h c) := by
  refine (Ideal.matmul_constant_zero_apply dot_S256x768_S768x128_S256x128_1_0_0_1_n_n none lhs rhs (ix2 r c)).trans ?_
  rw [← Equiv.sum_comp (contrEquiv1 dot_S256x768_S768x128_S256x128_1_0_0_1_n_n 768 rfl rfl).symm]
  refine Finset.sum_congr rfl fun k _ => ?_
  have hk := contrEquiv1_symm_val dot_S256x768_S768x128_S256x128_1_0_0_1_n_n 768 rfl rfl k
  have el : dot_S256x768_S768x128_S256x128_1_0_0_1_n_n.lhsIdx (ix2 r c)
      ((contrEquiv1 dot_S256x768_S768x128_S256x128_1_0_0_1_n_n 768 rfl rfl).symm k) = ix2 r k :=
    funext fun a => Fin.ext (by
      match a with
      | ⟨0, _⟩ => exact qry_lhs0 _ _
      | ⟨1, _⟩ => exact (qry_lhs1 _ _).trans hk)
  have er : dot_S256x768_S768x128_S256x128_1_0_0_1_n_n.rhsIdx (ix2 r c)
      ((contrEquiv1 dot_S256x768_S768x128_S256x128_1_0_0_1_n_n 768 rfl rfl).symm k) = ix2 k c :=
    funext fun a => Fin.ext (by
      match a with
      | ⟨0, _⟩ => exact (qry_rhs0 _ _).trans hk
      | ⟨1, _⟩ => exact qry_rhs1 _ _)
  rw [el, er]

/-! ## The stopword score: `[4096, 128] · [128, 1]` -/

theorem stop_lhs0 (i : S4096x1.Idx) (q : dot_S4096x128_S128x1_S4096x1_1_0_0_1_n_n.contr.Idx) :
    (dot_S4096x128_S128x1_S4096x1_1_0_0_1_n_n.lhsIdx i q 0).val = (i 0).val := by
  unfold DotDims.lhsIdx
  rw [dif_neg (show ¬(0 : Fin S4096x128.rank) ∈ dot_S4096x128_S128x1_S4096x1_1_0_0_1_n_n.lhsBatch by decide),
    dif_pos (show (0 : Fin S4096x128.rank) ∈ dot_S4096x128_S128x1_S4096x1_1_0_0_1_n_n.lhsNonContracting by decide)]
  rfl
theorem stop_lhs1 (i : S4096x1.Idx) (q : dot_S4096x128_S128x1_S4096x1_1_0_0_1_n_n.contr.Idx) :
    (dot_S4096x128_S128x1_S4096x1_1_0_0_1_n_n.lhsIdx i q 1).val = (q ⟨0, by decide⟩).val :=
  dot_S4096x128_S128x1_S4096x1_1_0_0_1_n_n.lhsIdx_val_of_single rfl i q
theorem stop_rhs0 (i : S4096x1.Idx) (q : dot_S4096x128_S128x1_S4096x1_1_0_0_1_n_n.contr.Idx) :
    (dot_S4096x128_S128x1_S4096x1_1_0_0_1_n_n.rhsIdx i q 0).val = (q ⟨0, by decide⟩).val :=
  dot_S4096x128_S128x1_S4096x1_1_0_0_1_n_n.rhsIdx_val_of_single rfl i q
theorem stop_rhs1 (i : S4096x1.Idx) (q : dot_S4096x128_S128x1_S4096x1_1_0_0_1_n_n.contr.Idx) :
    (dot_S4096x128_S128x1_S4096x1_1_0_0_1_n_n.rhsIdx i q 1).val = (i 1).val := by
  unfold DotDims.rhsIdx
  rw [dif_neg (show ¬(1 : Fin S128x1.rank) ∈ dot_S4096x128_S128x1_S4096x1_1_0_0_1_n_n.rhsBatch by decide),
    dif_pos (show (1 : Fin S128x1.rank) ∈ dot_S4096x128_S128x1_S4096x1_1_0_0_1_n_n.rhsNonContracting by decide)]
  rfl

/-- Row `r` of the stopword score is the sum over the channel. -/
theorem mm_stop (lhs : FVec Ideal S4096x128 .bf16) (rhs : FVec Ideal S128x1 .bf16) (r : Fin 4096) :
    matmul dot_S4096x128_S128x1_S4096x1_1_0_0_1_n_n none lhs rhs (constant (F := Ideal) S4096x1 .f32 0x00000000#32) (ix2 r (0 : Fin 1))
      = ∑ c : Fin 128, lhs (ix2 r c) * rhs (ix2 c (0 : Fin 1)) := by
  refine (Ideal.matmul_constant_zero_apply dot_S4096x128_S128x1_S4096x1_1_0_0_1_n_n none lhs rhs (ix2 r (0 : Fin 1))).trans ?_
  rw [← Equiv.sum_comp (contrEquiv1 dot_S4096x128_S128x1_S4096x1_1_0_0_1_n_n 128 rfl rfl).symm]
  refine Finset.sum_congr rfl fun k _ => ?_
  have hk := contrEquiv1_symm_val dot_S4096x128_S128x1_S4096x1_1_0_0_1_n_n 128 rfl rfl k
  have el : dot_S4096x128_S128x1_S4096x1_1_0_0_1_n_n.lhsIdx (ix2 r (0 : Fin 1))
      ((contrEquiv1 dot_S4096x128_S128x1_S4096x1_1_0_0_1_n_n 128 rfl rfl).symm k) = ix2 r k :=
    funext fun a => Fin.ext (by
      match a with
      | ⟨0, _⟩ => exact stop_lhs0 _ _
      | ⟨1, _⟩ => exact (stop_lhs1 _ _).trans hk)
  have er : dot_S4096x128_S128x1_S4096x1_1_0_0_1_n_n.rhsIdx (ix2 r (0 : Fin 1))
      ((contrEquiv1 dot_S4096x128_S128x1_S4096x1_1_0_0_1_n_n 128 rfl rfl).symm k) = ix2 k (0 : Fin 1) :=
    funext fun a => Fin.ext (by
      match a with
      | ⟨0, _⟩ => exact (stop_rhs0 _ _).trans hk
      | ⟨1, _⟩ => exact stop_rhs1 _ _)
  rw [el, er]

/-! ## The similarities: `[8, 32, 128] · [8, 512, 128]`, batched over the first axis, contracted over the last -/

theorem sim_lhs0 (i : S8x32x512.Idx) (q : dot_S8x32x128_S8x512x128_S8x32x512_2_2_1_1_0_0.contr.Idx) :
    (dot_S8x32x128_S8x512x128_S8x32x512_2_2_1_1_0_0.lhsIdx i q 0).val = (i 0).val := by
  unfold DotDims.lhsIdx
  rw [dif_pos (show (0 : Fin S8x32x128.rank) ∈ dot_S8x32x128_S8x512x128_S8x32x512_2_2_1_1_0_0.lhsBatch by decide)]
  rfl
theorem sim_lhs1 (i : S8x32x512.Idx) (q : dot_S8x32x128_S8x512x128_S8x32x512_2_2_1_1_0_0.contr.Idx) :
    (dot_S8x32x128_S8x512x128_S8x32x512_2_2_1_1_0_0.lhsIdx i q 1).val = (i 1).val := by
  unfold DotDims.lhsIdx
  rw [dif_neg (show ¬(1 : Fin S8x32x128.rank) ∈ dot_S8x32x128_S8x512x128_S8x32x512_2_2_1_1_0_0.lhsBatch by decide),
    dif_pos (show (1 : Fin S8x32x128.rank) ∈ dot_S8x32x128_S8x512x128_S8x32x512_2_2_1_1_0_0.lhsNonContracting by decide)]
  rfl
theorem sim_lhs2 (i : S8x32x512.Idx) (q : dot_S8x32x128_S8x512x128_S8x32x512_2_2_1_1_0_0.contr.Idx) :
    (dot_S8x32x128_S8x512x128_S8x32x512_2_2_1_1_0_0.lhsIdx i q 2).val = (q ⟨0, by decide⟩).val :=
  dot_S8x32x128_S8x512x128_S8x32x512_2_2_1_1_0_0.lhsIdx_val_of_single rfl i q
theorem sim_rhs0 (i : S8x32x512.Idx) (q : dot_S8x32x128_S8x512x128_S8x32x512_2_2_1_1_0_0.contr.Idx) :
    (dot_S8x32x128_S8x512x128_S8x32x512_2_2_1_1_0_0.rhsIdx i q 0).val = (i 0).val := by
  unfold DotDims.rhsIdx
  rw [dif_pos (show (0 : Fin S8x512x128.rank) ∈ dot_S8x32x128_S8x512x128_S8x32x512_2_2_1_1_0_0.rhsBatch by decide)]
  rfl
theorem sim_rhs1 (i : S8x32x512.Idx) (q : dot_S8x32x128_S8x512x128_S8x32x512_2_2_1_1_0_0.contr.Idx) :
    (dot_S8x32x128_S8x512x128_S8x32x512_2_2_1_1_0_0.rhsIdx i q 1).val = (i 2).val := by
  unfold DotDims.rhsIdx
  rw [dif_neg (show ¬(1 : Fin S8x512x128.rank) ∈ dot_S8x32x128_S8x512x128_S8x32x512_2_2_1_1_0_0.rhsBatch by decide),
    dif_pos (show (1 : Fin S8x512x128.rank) ∈ dot_S8x32x128_S8x512x128_S8x32x512_2_2_1_1_0_0.rhsNonContracting by decide)]
  rfl
theorem sim_rhs2 (i : S8x32x512.Idx) (q : dot_S8x32x128_S8x512x128_S8x32x512_2_2_1_1_0_0.contr.Idx) :
    (dot_S8x32x128_S8x512x128_S8x32x512_2_2_1_1_0_0.rhsIdx i q 2).val = (q ⟨0, by decide⟩).val :=
  dot_S8x32x128_S8x512x128_S8x32x512_2_2_1_1_0_0.rhsIdx_val_of_single rfl i q

/-- Within batch element `p`, the similarity of query token `l` and document token `k` is the sum over the channel. -/
theorem mm_sim (lhs : FVec Ideal S8x32x128 .bf16) (rhs : FVec Ideal S8x512x128 .bf16) (p : Fin 8) (l : Fin 32) (k : Fin 512) :
    matmul dot_S8x32x128_S8x512x128_S8x32x512_2_2_1_1_0_0 none lhs rhs (constant (F := Ideal) S8x32x512 .f32 0x00000000#32) (ix3 p l k)
      = ∑ c : Fin 128, lhs (ix3 p l c) * rhs (ix3 p k c) := by
  refine (Ideal.matmul_constant_zero_apply dot_S8x32x128_S8x512x128_S8x32x512_2_2_1_1_0_0 none lhs rhs (ix3 p l k)).trans ?_
  rw [← Equiv.sum_comp (contrEquiv1 dot_S8x32x128_S8x512x128_S8x32x512_2_2_1_1_0_0 128 rfl rfl).symm]
  refine Finset.sum_congr rfl fun c _ => ?_
  have hc := contrEquiv1_symm_val dot_S8x32x128_S8x512x128_S8x32x512_2_2_1_1_0_0 128 rfl rfl c
  have el : dot_S8x32x128_S8x512x128_S8x32x512_2_2_1_1_0_0.lhsIdx (ix3 p l k)
      ((contrEquiv1 dot_S8x32x128_S8x512x128_S8x32x512_2_2_1_1_0_0 128 rfl rfl).symm c) = ix3 p l c :=
    funext fun a => Fin.ext (by
      match a with
      | ⟨0, _⟩ => exact sim_lhs0 _ _
      | ⟨1, _⟩ => exact sim_lhs1 _ _
      | ⟨2, _⟩ => exact (sim_lhs2 _ _).trans hc)
  have er : dot_S8x32x128_S8x512x128_S8x32x512_2_2_1_1_0_0.rhsIdx (ix3 p l k)
      ((contrEquiv1 dot_S8x32x128_S8x512x128_S8x32x512_2_2_1_1_0_0 128 rfl rfl).symm c) = ix3 p k c :=
    funext fun a => Fin.ext (by
      match a with
      | ⟨0, _⟩ => exact sim_rhs0 _ _
      | ⟨1, _⟩ => exact sim_rhs1 _ _
      | ⟨2, _⟩ => exact (sim_rhs2 _ _).trans hc)
  rw [el, er]

end Cert.KernelIdeal.Dots

end
-- ==== Proof.KernelPay.lean ====
/-
  The kernel body's payloads read at an index, at the extended reals, over one block of eight batch elements.

  Batch element `p` of the block owns rows `p · 32 + l` of the flattened query tokens and rows `p · 512 + k` of the flattened
  document tokens. Read at those rows, the two compressor products are the projections of Spec.lean, the stopword product
  is the sum over the channel of projection times stopword weight, and the similarity product, the offset, the maximum
  over the document tokens, the masked sum over the query tokens and the merge are the remaining steps of the score.
-/
import proofs.«146330_j53549652246634_2_alg».proof.Proof.Gen.KernelIdeal.Skeleton
import proofs.«146330_j53549652246634_2_alg».proof.Proof.Spec
import proofs.«146330_j53549652246634_2_alg».proof.Proof.Layout
import proofs.«146330_j53549652246634_2_alg».proof.Proof.KernelOps
import proofs.«146330_j53549652246634_2_alg».proof.Proof.KernelDots

noncomputable section

namespace Cert.KernelIdeal.Pay

open Idealize.ShloMosaic Idealize.ShloMosaic.ValueIdx Cert.KernelIdeal Cert.KernelIdeal.Gen Cert.MaxSim

/-- The flattened row of query token `l` of batch element `p`. -/
def qrow (p : Fin 8) (l : Fin 32) : Fin 256 := ⟨p.val * 32 + l.val, by have := p.isLt; have := l.isLt; omega⟩
/-- The flattened row of document token `k` of batch element `p`. -/
def drow (p : Fin 8) (k : Fin 512) : Fin 4096 := ⟨p.val * 512 + k.val, by have := p.isLt; have := k.isLt; omega⟩

/-- Narrowing to bf16 changes no entry at the extended reals. -/
theorem narrow_apply {s : Shape} (a : FVec Ideal s .f32) (h : FTy.bf16.bits < FTy.f32.bits) (i : s.Idx) :
    (truncf .bf16 a h : FVec Ideal s .bf16) i = a i := rfl

/-- A mask converted to a float is its mask value, entry by entry. -/
theorem pay7_apply (v2 : Vec Ideal S8x32 .i32) (i : S8x32.Idx) : k0_pay7 (F := Ideal) v2 i = maskVal (v2 i) := rfl
theorem pay8_apply (v4 : Vec Ideal S8x512 .i32) (i : S8x512.Idx) : k0_pay8 (F := Ideal) v4 i = maskVal (v4 i) := rfl

/-- The first-token dot product of batch element `p`. -/
theorem pay9_apply (v0 : Vec Ideal S8x32x768 .f32) (v1 : Vec Ideal S8x512x768 .f32) (p : Fin 8) :
    k0_pay9 (F := Ideal) v0 v1 (ix1 p) = ∑ h : Fin 768, v0 (ix3 p (0 : Fin 32) h) * v1 (ix3 p (0 : Fin 512) h) := by
  unfold k0_pay9
  dsimp only
  refine (Ops.sum_hidden _ _ _ _ p).trans ?_
  refine Finset.sum_congr rfl fun h _ => ?_
  refine (mulf_apply _ _ _).trans (congrArg₂ (· * ·) ?_ ?_)
  · exact (Layout.cast_drop_mid _ _ p h).trans (Ops.slice_first_query v0 _ p h)
  · exact (Layout.cast_drop_mid _ _ p h).trans (Ops.slice_first_doc v1 _ p h)

/-- Row `p · 512 + k` of the document projection is the compressor applied to document token `k` of batch element `p`. -/
theorem pay12_apply (v1 : Vec Ideal S8x512x768 .f32) (v6 : Vec Ideal S768x128 .f32) (v7 : Vec Ideal S128 .f32)
    (p : Fin 8) (k : Fin 512) (c : Fin 128) :
    k0_pay12 (F := Ideal) v1 v6 v7 (ix2 (drow p k) c)
      = projD (fun k h => v1 (ix3 p k h)) (fun h c => v6 (ix2 h c)) (fun c => v7 (ix1 c)) k c := by
  unfold k0_pay12 k0_pay10 projD
  dsimp only
  refine (addf_apply _ _ _).trans (congrArg₂ (· + ·) ?_ ?_)
  · refine (Dots.mm_doc _ _ (drow p k) c).trans ?_
    refine Finset.sum_congr rfl fun h _ => congrArg₂ (· * ·) ?_ rfl
    exact Layout.cast_flatten v1 _ p k h (drow p k) rfl
  · exact (Ops.bc_S1x128_S4096x128 _ _ (drow p k) c).trans (Layout.cast_vec_row v7 _ c)

/-- Row `p · 512 + k` of the stopword product is the sum over the channel of projection times stopword weight. -/
theorem pay13_apply (v1 : Vec Ideal S8x512x768 .f32) (v6 : Vec Ideal S768x128 .f32) (v7 : Vec Ideal S128 .f32)
    (v8 : Vec Ideal S128x1 .f32) (p : Fin 8) (k : Fin 512) :
    k0_pay13 (F := Ideal) v1 v6 v7 v8 (ix2 (drow p k) (0 : Fin 1))
      = ∑ c : Fin 128, projD (fun k h => v1 (ix3 p k h)) (fun h c => v6 (ix2 h c)) (fun c => v7 (ix1 c)) k c * v8 (ix2 c (0 : Fin 1)) := by
  unfold k0_pay13
  refine (Dots.mm_stop _ _ (drow p k)).trans ?_
  exact Finset.sum_congr rfl fun c _ => congrArg₂ (· * ·) (pay12_apply v1 v6 v7 p k c) rfl

/-- The stopword bias as a one-by-one matrix. -/
theorem pay14_apply (v9 : Vec Ideal S1 .f32) : k0_pay14 (F := Ideal) v9 (ix2 (0 : Fin 1) (0 : Fin 1)) = v9 (ix1 (0 : Fin 1)) := by
  unfold k0_pay14
  exact Layout.cast_vec_column v9 _ (0 : Fin 1)

/-- Entry `(p, l, c)` of the masked query projection is query token `l`'s vector. -/
theorem pay11_apply (v0 : Vec Ideal S8x32x768 .f32) (v2 : Vec Ideal S8x32 .i32) (v6 : Vec Ideal S768x128 .f32) (v7 : Vec Ideal S128 .f32)
    (p : Fin 8) (l : Fin 32) (c : Fin 128) :
    k0_pay11 (F := Ideal) v0 v2 v6 v7 (ix3 p l c)
      = qvec (fun l h => v0 (ix3 p l h)) (fun l => v2 (ix2 p l)) (fun h c => v6 (ix2 h c)) (fun c => v7 (ix1 c)) l c := by
  unfold k0_pay11 k0_pay10 qvec projQ
  dsimp only
  refine (mulf_apply _ _ _).trans (congrArg₂ (· * ·) ?_ ?_)
  · refine (Layout.cast_unflatten _ _ p l c (qrow p l) rfl).trans ?_
    refine (addf_apply _ _ _).trans (congrArg₂ (· + ·) ?_ ?_)
    · refine (Dots.mm_qry _ _ (qrow p l) c).trans ?_
      refine Finset.sum_congr rfl fun h _ => congrArg₂ (· * ·) ?_ rfl
      exact Layout.cast_flatten v0 _ p l h (qrow p l) rfl
    · exact (Ops.bc_S1x128_S256x128 _ _ (qrow p l) c).trans (Layout.cast_vec_row v7 _ c)
  · exact (Ops.bc_S8x32x1_S8x32x128 _ _ p l c).trans (Layout.cast_append_unit (k0_pay7 (F := Ideal) v2) _ p l)

/-- The weighted first-token score of batch element `p`, from the dot products and the merger parameter. -/
theorem pay2_apply (v10 : Vec Ideal S1 .f32) (v16 : FVec Ideal S8 .f32) (p : Fin 8) :
    k0_pay2 (F := Ideal) v10 v16 (ix1 p) = v16 (ix1 p) * Ideal.logistic (v10 (ix1 (0 : Fin 1))) := by
  unfold k0_pay2 k0_pay1
  dsimp only
  refine (mulf_apply _ _ _).trans (congrArg₂ (· * ·) rfl ?_)
  exact Ops.bc_S1_S8 _ _ p

/-- The weighted term score of batch element `p`, from the mask values, the query vectors, the document projections, the
    stopword scores and bias, and the merger parameter: the similarity product and its offset, the maximum over the
    document tokens, the masked sum over the query tokens, times one minus the merge weight. -/
theorem pay3_apply (v3 : FVec Ideal S8x32 .f32) (v5 : FVec Ideal S8x512 .f32) (v10 : Vec Ideal S1 .f32)
    (v27 : FVec Ideal S8x32x128 .f32) (v33 : FVec Ideal S4096x128 .f32) (v36 : FVec Ideal S4096x1 .f32) (v37 : FVec Ideal S1x1 .f32)
    (p : Fin 8) :
    k0_pay3 (F := Ideal) v3 v5 v10 v27 v33 v36 v37 (ix1 p)
      = (∑ l : Fin 32,
          (Finset.univ : Finset (Fin 512)).fold max negInfW (fun k =>
            (∑ c : Fin 128, v27 (ix3 p l c)
                * (v33 (ix2 (drow p k) c) * max (v36 (ix2 (drow p k) (0 : Fin 1)) + v37 (ix2 (0 : Fin 1) (0 : Fin 1))) zeroW
                    * v5 (ix2 p k)))
              + (v5 (ix2 p k) - one) * thousand)
            * v3 (ix2 p l))
        * (one - Ideal.logistic (v10 (ix1 (0 : Fin 1)))) := by
  unfold k0_pay3 k0_pay1
  dsimp only
  refine (mulf_apply _ _ _).trans (congrArg₂ (· * ·) ?_ ?_)
  · refine (Ops.sum_query _ _ _ _ p).trans (Finset.sum_congr rfl fun l _ => ?_)
    refine (mulf_apply _ _ _).trans (congrArg₂ (· * ·) ?_ rfl)
    refine (Ops.max_docs _ _ _ _ p l).trans ?_
    refine congrArg (fun f => (Finset.univ : Finset (Fin 512)).fold max negInfW f) (funext fun k => ?_)
    refine (addf_apply _ _ _).trans (congrArg₂ (· + ·) ?_ ?_)
    · refine (Dots.mm_sim _ _ p l k).trans (Finset.sum_congr rfl fun c _ => congrArg₂ (· * ·) rfl ?_)
      refine (narrow_apply _ _ (ix3 p k c)).trans ?_
      refine (Layout.cast_unflatten _ _ p k c (drow p k) rfl).trans ?_
      refine (mulf_apply _ _ _).trans (congrArg₂ (· * ·) ?_ ?_)
      · refine (mulf_apply _ _ _).trans (congrArg₂ (· * ·) rfl ?_)
        refine (Ops.bc_S4096x1_S4096x128 _ _ (drow p k) c).trans ?_
        refine (maximumf_apply _ _ _).trans (congrArg₂ max ?_ rfl)
        refine (addf_apply _ _ _).trans (congrArg₂ (· + ·) rfl ?_)
        exact Ops.bc_S1x1_S4096x1 v37 _ (drow p k)
      · exact (Ops.bc_S4096x1_S4096x128 _ _ (drow p k) c).trans (Layout.cast_column v5 _ p k (drow p k) rfl)
    · refine (Ops.bc_S8x1x512_S8x32x512 _ _ p l k).trans ?_
      refine (mulf_apply _ _ _).trans (congrArg₂ (· * ·) ?_ rfl)
      refine (subf_apply _ _ _).trans (congrArg₂ (· - ·) ?_ rfl)
      exact Layout.cast_insert_mid v5 _ p k
  · exact Ops.bc_S1_S8 _ _ p

/-- The three stored columns at row `p`. -/
theorem pay5_apply (v10 : Vec Ideal S1 .f32) (v16 : FVec Ideal S8 .f32) (p : Fin 8) :
    k0_pay5 (F := Ideal) v10 v16 (ix2 p (0 : Fin 1)) = k0_pay2 (F := Ideal) v10 v16 (ix1 p) := by
  unfold k0_pay5
  exact Layout.cast_vec_column _ _ p

theorem pay6_apply (v3 : FVec Ideal S8x32 .f32) (v5 : FVec Ideal S8x512 .f32) (v10 : Vec Ideal S1 .f32)
    (v27 : FVec Ideal S8x32x128 .f32) (v33 : FVec Ideal S4096x128 .f32) (v36 : FVec Ideal S4096x1 .f32) (v37 : FVec Ideal S1x1 .f32)
    (p : Fin 8) :
    k0_pay6 (F := Ideal) v3 v5 v10 v27 v33 v36 v37 (ix2 p (0 : Fin 1)) = k0_pay3 (F := Ideal) v3 v5 v10 v27 v33 v36 v37 (ix1 p) := by
  unfold k0_pay6
  exact Layout.cast_vec_column _ _ p

theorem pay4_apply (v3 : FVec Ideal S8x32 .f32) (v5 : FVec Ideal S8x512 .f32) (v10 : Vec Ideal S1 .f32) (v16 : FVec Ideal S8 .f32)
    (v27 : FVec Ideal S8x32x128 .f32) (v33 : FVec Ideal S4096x128 .f32) (v36 : FVec Ideal S4096x1 .f32) (v37 : FVec Ideal S1x1 .f32)
    (p : Fin 8) :
    k0_pay4 (F := Ideal) v3 v5 v10 v16 v27 v33 v36 v37 (ix2 p (0 : Fin 1))
      = k0_pay2 (F := Ideal) v10 v16 (ix1 p) + k0_pay3 (F := Ideal) v3 v5 v10 v27 v33 v36 v37 (ix1 p) := by
  unfold k0_pay4
  exact (Layout.cast_vec_column _ _ p).trans (addf_apply _ _ _)

end Cert.KernelIdeal.Pay

end
-- ==== Proof.KernelPoint.lean ====
/-
  What one grid point leaves in row `p` of each of its three output blocks: the score, the weighted first-token score and
  the weighted term score of batch element `p` of the block, as Spec.lean defines them on that element's slices of the nine
  input blocks.

  Each output block is written by one store that covers it, of a value computed from loads of the whole input blocks, so the
  block after the body is that value. Row `p` of the value is read through the payload lemmas: the document projection at
  row `p · 512 + k` is document token `k`'s projection, the stopword product there its stopword score, the masked query
  projection at `(p, l, ·)` query token `l`'s vector, and the mask columns the mask values.
-/
import proofs.«146330_j53549652246634_2_alg».proof.Proof.Gen.KernelIdeal.Frame
import proofs.«146330_j53549652246634_2_alg».proof.Proof.KernelPay

noncomputable section

namespace Cert.KernelIdeal.Point

open Idealize.ShloMosaic Idealize.ShloMosaic.ValueIdx Cert.KernelIdeal Cert.KernelIdeal.Gen Cert.MaxSim Cert.KernelIdeal.Pay

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## Each output block after the body is its one store's value over the whole input blocks -/

theorem out10_open (x0 : Vec Ideal S8x32x768 .f32) (x1 : Vec Ideal S8x512x768 .f32) (x2 : Vec Ideal S8x32 .i32)
    (x3 : Vec Ideal S8x512 .i32) (x4 : Vec Ideal S768x128 .f32) (x5 : Vec Ideal S128 .f32) (x6 : Vec Ideal S128x1 .f32)
    (x7 x8 : Vec Ideal S1 .f32) :
    out0_10 (F := Ideal) x0 x1 x2 x3 x4 x5 x6 x7 x8 = k0_pay5 x8 (k0_pay9 x0 x1) := by
  unfold out0_10
  rw [View.canon_unit_zero hz2]
  simp only [View.ld_unit_zero (S := S1) hz1, View.ld_unit_zero (S := S8x32x768) hz3, View.ld_unit_zero (S := S8x512x768) hz3]

theorem out11_open (x0 : Vec Ideal S8x32x768 .f32) (x1 : Vec Ideal S8x512x768 .f32) (x2 : Vec Ideal S8x32 .i32)
    (x3 : Vec Ideal S8x512 .i32) (x4 : Vec Ideal S768x128 .f32) (x5 : Vec Ideal S128 .f32) (x6 : Vec Ideal S128x1 .f32)
    (x7 x8 : Vec Ideal S1 .f32) :
    out0_11 (F := Ideal) x0 x1 x2 x3 x4 x5 x6 x7 x8
      = k0_pay6 (k0_pay7 x2) (k0_pay8 x3) x8 (k0_pay11 x0 x2 x4 x5) (k0_pay12 x1 x4 x5) (k0_pay13 x1 x4 x5 x6) (k0_pay14 x7) := by
  unfold out0_11
  rw [View.canon_unit_zero hz2]
  simp only [View.ld_unit_zero (S := S1) hz1, View.ld_unit_zero (S := S8x32x768) hz3, View.ld_unit_zero (S := S8x512x768) hz3,
    View.ld_unit_zero (S := S8x32) hz2, View.ld_unit_zero (S := S8x512) hz2, View.ld_unit_zero (S := S768x128) hz2,
    View.ld_unit_zero (S := S128) hz1, View.ld_unit_zero (S := S128x1) hz2]

theorem out9_open (x0 : Vec Ideal S8x32x768 .f32) (x1 : Vec Ideal S8x512x768 .f32) (x2 : Vec Ideal S8x32 .i32)
    (x3 : Vec Ideal S8x512 .i32) (x4 : Vec Ideal S768x128 .f32) (x5 : Vec Ideal S128 .f32) (x6 : Vec Ideal S128x1 .f32)
    (x7 x8 : Vec Ideal S1 .f32) :
    out0_9 (F := Ideal) x0 x1 x2 x3 x4 x5 x6 x7 x8
      = k0_pay4 (k0_pay7 x2) (k0_pay8 x3) x8 (k0_pay9 x0 x1) (k0_pay11 x0 x2 x4 x5) (k0_pay12 x1 x4 x5) (k0_pay13 x1 x4 x5 x6)
          (k0_pay14 x7) := by
  unfold out0_9
  rw [View.canon_unit_zero hz2]
  simp only [View.ld_unit_zero (S := S1) hz1, View.ld_unit_zero (S := S8x32x768) hz3, View.ld_unit_zero (S := S8x512x768) hz3,
    View.ld_unit_zero (S := S8x32) hz2, View.ld_unit_zero (S := S8x512) hz2, View.ld_unit_zero (S := S768x128) hz2,
    View.ld_unit_zero (S := S128) hz1, View.ld_unit_zero (S := S128x1) hz2]

/-! ## Row `p` of each -/

/-- The weighted first-token score. -/
theorem cls_at (x0 : Vec Ideal S8x32x768 .f32) (x1 : Vec Ideal S8x512x768 .f32) (x2 : Vec Ideal S8x32 .i32)
    (x3 : Vec Ideal S8x512 .i32) (x4 : Vec Ideal S768x128 .f32) (x5 : Vec Ideal S128 .f32) (x6 : Vec Ideal S128x1 .f32)
    (x7 x8 : Vec Ideal S1 .f32) (p : Fin 8) :
    k0_pay2 (F := Ideal) x8 (k0_pay9 x0 x1) (ix1 p)
      = clsScore (fun l h => x0 (ix3 p l h)) (fun k h => x1 (ix3 p k h)) (x8 (ix1 (0 : Fin 1))) := by
  unfold clsScore sigma
  exact (pay2_apply x8 (k0_pay9 x0 x1) p).trans (congrArg₂ (· * ·) (pay9_apply x0 x1 p) rfl)

/-- The weighted term score. -/
theorem term_at (x0 : Vec Ideal S8x32x768 .f32) (x1 : Vec Ideal S8x512x768 .f32) (x2 : Vec Ideal S8x32 .i32)
    (x3 : Vec Ideal S8x512 .i32) (x4 : Vec Ideal S768x128 .f32) (x5 : Vec Ideal S128 .f32) (x6 : Vec Ideal S128x1 .f32)
    (x7 x8 : Vec Ideal S1 .f32) (p : Fin 8) :
    k0_pay3 (F := Ideal) (k0_pay7 x2) (k0_pay8 x3) x8 (k0_pay11 x0 x2 x4 x5) (k0_pay12 x1 x4 x5) (k0_pay13 x1 x4 x5 x6) (k0_pay14 x7) (ix1 p)
      = termScore (fun l h => x0 (ix3 p l h)) (fun k h => x1 (ix3 p k h)) (fun l => x2 (ix2 p l)) (fun k => x3 (ix2 p k))
        (fun h c => x4 (ix2 h c)) (fun c => x5 (ix1 c)) (fun c => x6 (ix2 c (0 : Fin 1))) (x7 (ix1 (0 : Fin 1))) (x8 (ix1 (0 : Fin 1))) := by
  refine (pay3_apply _ _ _ _ _ _ _ p).trans ?_
  unfold termScore term sim dvec importance sigma
  refine congrArg₂ (· * ·) (Finset.sum_congr rfl fun l _ => congrArg₂ (· * ·) ?_ rfl) rfl
  refine congrArg (fun f => (Finset.univ : Finset (Fin 512)).fold max negInfW f) (funext fun k => ?_)
  refine congrArg₂ (· + ·) (Finset.sum_congr rfl fun c _ => congrArg₂ (· * ·) (pay11_apply x0 x2 x4 x5 p l c) ?_) rfl
  refine congrArg₂ (· * ·) (congrArg₂ (· * ·) (pay12_apply x1 x4 x5 p k c) ?_) rfl
  exact congrArg₂ max (congrArg₂ (· + ·) (pay13_apply x1 x4 x5 x6 p k) (pay14_apply x7)) rfl

theorem out10_eq (x0 : Vec Ideal S8x32x768 .f32) (x1 : Vec Ideal S8x512x768 .f32) (x2 : Vec Ideal S8x32 .i32)
    (x3 : Vec Ideal S8x512 .i32) (x4 : Vec Ideal S768x128 .f32) (x5 : Vec Ideal S128 .f32) (x6 : Vec Ideal S128x1 .f32)
    (x7 x8 : Vec Ideal S1 .f32) (p : Fin 8) :
    out0_10 (F := Ideal) x0 x1 x2 x3 x4 x5 x6 x7 x8 (ix2 p (0 : Fin 1))
      = clsScore (fun l h => x0 (ix3 p l h)) (fun k h => x1 (ix3 p k h)) (x8 (ix1 (0 : Fin 1))) := by
  rw [out10_open]
  exact (pay5_apply _ _ p).trans (cls_at x0 x1 x2 x3 x4 x5 x6 x7 x8 p)

theorem out11_eq (x0 : Vec Ideal S8x32x768 .f32) (x1 : Vec Ideal S8x512x768 .f32) (x2 : Vec Ideal S8x32 .i32)
    (x3 : Vec Ideal S8x512 .i32) (x4 : Vec Ideal S768x128 .f32) (x5 : Vec Ideal S128 .f32) (x6 : Vec Ideal S128x1 .f32)
    (x7 x8 : Vec Ideal S1 .f32) (p : Fin 8) :
    out0_11 (F := Ideal) x0 x1 x2 x3 x4 x5 x6 x7 x8 (ix2 p (0 : Fin 1))
      = termScore (fun l h => x0 (ix3 p l h)) (fun k h => x1 (ix3 p k h)) (fun l => x2 (ix2 p l)) (fun k => x3 (ix2 p k))
        (fun h c => x4 (ix2 h c)) (fun c => x5 (ix1 c)) (fun c => x6 (ix2 c (0 : Fin 1))) (x7 (ix1 (0 : Fin 1))) (x8 (ix1 (0 : Fin 1))) := by
  rw [out11_open]
  exact (pay6_apply _ _ _ _ _ _ _ p).trans (term_at x0 x1 x2 x3 x4 x5 x6 x7 x8 p)

theorem out9_eq (x0 : Vec Ideal S8x32x768 .f32) (x1 : Vec Ideal S8x512x768 .f32) (x2 : Vec Ideal S8x32 .i32)
    (x3 : Vec Ideal S8x512 .i32) (x4 : Vec Ideal S768x128 .f32) (x5 : Vec Ideal S128 .f32) (x6 : Vec Ideal S128x1 .f32)
    (x7 x8 : Vec Ideal S1 .f32) (p : Fin 8) :
    out0_9 (F := Ideal) x0 x1 x2 x3 x4 x5 x6 x7 x8 (ix2 p (0 : Fin 1))
      = score (fun l h => x0 (ix3 p l h)) (fun k h => x1 (ix3 p k h)) (fun l => x2 (ix2 p l)) (fun k => x3 (ix2 p k))
        (fun h c => x4 (ix2 h c)) (fun c => x5 (ix1 c)) (fun c => x6 (ix2 c (0 : Fin 1))) (x7 (ix1 (0 : Fin 1))) (x8 (ix1 (0 : Fin 1))) := by
  rw [out9_open]
  unfold score
  exact (pay4_apply _ _ _ _ _ _ _ _ p).trans
    (congrArg₂ (· + ·) (cls_at x0 x1 x2 x3 x4 x5 x6 x7 x8 p) (term_at x0 x1 x2 x3 x4 x5 x6 x7 x8 p))

end Cert.KernelIdeal.Point

end
-- ==== Proof.KernelArray.lean ====
/-
  The idealized kernel's run with its three result arrays named.

  The kernel visits sixteen grid points; point `t` holds batch rows `8t … 8t + 7` of the two hidden arrays and the two
  masks, the five parameter arrays whole, and writes rows `8t … 8t + 7` of three `[128, 1]` result arrays. Row `p` of
  what it writes is the per-element score (resp. first-token score, term score) of batch element `8t + p`'s slices, so
  block `t` of each result is block `t` of one whole-array column whose entry `(b, 0)` is batch element `b`'s value; the
  sixteen blocks tile the array (row `r` lies in block `r / 8`), so each array ends holding that column. After the
  region each column is viewed as a `[128]` vector, entry `b` being entry `(b, 0)`. The nine arguments are only read.
-/
import proofs.«146330_j53549652246634_2_alg».proof.Proof.Gen.KernelIdeal.Frame
import proofs.«146330_j53549652246634_2_alg».proof.Proof.Arrays
import proofs.«146330_j53549652246634_2_alg».proof.Proof.KernelPoint
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Arr

open Cert.KernelIdeal Cert.KernelIdeal.Gen

variable (m : (ℓ : Loc nD τ sig) → Buf (Elt Ideal) ℓ) (ρ : Dev nD → PrngReg)

/-- The printed index maps, decided once over the sixteen grid points: the batched windows (the two hidden arrays, the
    two masks, the three results) sit at block row `t`, block column `0`; the parameter windows at block `0`. -/
theorem block_index : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ win0_5.index t (0 : Fin 1) = 0
    ∧ (win0_6.index t (0 : Fin 2) = 0 ∧ win0_6.index t (1 : Fin 2) = 0)
    ∧ win0_7.index t (0 : Fin 1) = 0
    ∧ win0_8.index t (0 : Fin 1) = 0
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

/-! ## Each input block, read where the grid point puts it

A block's coordinate on an axis is the block index times the block's extent plus the coordinate inside the block. -/

/-- The query block at point `t` is batch rows `8t … 8t + 7` of the query array. -/
theorem qblk_apply (c : Dev nD) (t : Fin cfg0.N) (x : S8x32x768.Idx) (k : S128x32x768.Idx)
    (hk0 : (k 0).val = 8 * t.val + (x 0).val) (hk1 : (k 1).val = (x 1).val) (hk2 : (k 2).val = (x 2).val) :
    (iblk m c 0 t : Vec Ideal S8x32x768 .f32) x = (m ((c.tc : Thread nD τ).loc main_arg0) : S128x32x768.Idx → EReal) k := by
  obtain ⟨⟨e0, e1, e2⟩, -⟩ := block_index t
  unfold iblk
  rw [View.read_apply]
  show V m c main_arg0 _ = m (c.tc.loc main_arg0) _
  rw [V_main_arg0]
  congr 1
  funext a
  apply Fin.ext
  match a with
  | ⟨0, _⟩ => show win0_0.index t (0 : Fin 3) * 8 + 1 * (x 0).val = (k 0).val; rw [e0, hk0]; omega
  | ⟨1, _⟩ => show win0_0.index t (1 : Fin 3) * 32 + 1 * (x 1).val = (k 1).val; rw [e1, hk1]; omega
  | ⟨2, _⟩ => show win0_0.index t (2 : Fin 3) * 768 + 1 * (x 2).val = (k 2).val; rw [e2, hk2]; omega

/-- The document block at point `t` is batch rows `8t … 8t + 7` of the document array. -/
theorem dblk_apply (c : Dev nD) (t : Fin cfg0.N) (x : S8x512x768.Idx) (k : S128x512x768.Idx)
    (hk0 : (k 0).val = 8 * t.val + (x 0).val) (hk1 : (k 1).val = (x 1).val) (hk2 : (k 2).val = (x 2).val) :
    (iblk m c 1 t : Vec Ideal S8x512x768 .f32) x = (m ((c.tc : Thread nD τ).loc main_arg1) : S128x512x768.Idx → EReal) k := by
  obtain ⟨-, ⟨e0, e1, e2⟩, -⟩ := block_index t
  unfold iblk
  rw [View.read_apply]
  show V m c main_arg1 _ = m (c.tc.loc main_arg1) _
  rw [V_main_arg1]
  congr 1
  funext a
  apply Fin.ext
  match a with
  | ⟨0, _⟩ => show win0_1.index t (0 : Fin 3) * 8 + 1 * (x 0).val = (k 0).val; rw [e0, hk0]; omega
  | ⟨1, _⟩ => show win0_1.index t (1 : Fin 3) * 512 + 1 * (x 1).val = (k 1).val; rw [e1, hk1]; omega
  | ⟨2, _⟩ => show win0_1.index t (2 : Fin 3) * 768 + 1 * (x 2).val = (k 2).val; rw [e2, hk2]; omega

/-- The query-mask block at point `t` is rows `8t … 8t + 7` of the query mask. -/
theorem qmblk_apply (c : Dev nD) (t : Fin cfg0.N) (x : S8x32.Idx) (k : S128x32.Idx)
    (hk0 : (k 0).val = 8 * t.val + (x 0).val) (hk1 : (k 1).val = (x 1).val) :
    (iblk m c 2 t : Vec Ideal S8x32 .i32) x = (m ((c.tc : Thread nD τ).loc main_arg2) : S128x32.Idx → BitVec 32) k := by
  obtain ⟨-, -, ⟨e0, e1⟩, -⟩ := block_index t
  unfold iblk
  rw [View.read_apply]
  show V m c main_arg2 _ = m (c.tc.loc main_arg2) _
  rw [V_main_arg2]
  congr 1
  funext a
  apply Fin.ext
  match a with
  | ⟨0, _⟩ => show win0_2.index t (0 : Fin 2) * 8 + 1 * (x 0).val = (k 0).val; rw [e0, hk0]; omega
  | ⟨1, _⟩ => show win0_2.index t (1 : Fin 2) * 32 + 1 * (x 1).val = (k 1).val; rw [e1, hk1]; omega

/-- The document-mask block at point `t` is rows `8t … 8t + 7` of the document mask. -/
theorem dmblk_apply (c : Dev nD) (t : Fin cfg0.N) (x : S8x512.Idx) (k : S128x512.Idx)
    (hk0 : (k 0).val = 8 * t.val + (x 0).val) (hk1 : (k 1).val = (x 1).val) :
    (iblk m c 3 t : Vec Ideal S8x512 .i32) x = (m ((c.tc : Thread nD τ).loc main_arg3) : S128x512.Idx → BitVec 32) k := by
  obtain ⟨-, -, -, ⟨e0, e1⟩, -⟩ := block_index t
  unfold iblk
  rw [View.read_apply]
  show V m c main_arg3 _ = m (c.tc.loc main_arg3) _
  rw [V_main_arg3]
  congr 1
  funext a
  apply Fin.ext
  match a with
  | ⟨0, _⟩ => show win0_3.index t (0 : Fin 2) * 8 + 1 * (x 0).val = (k 0).val; rw [e0, hk0]; omega
  | ⟨1, _⟩ => show win0_3.index t (1 : Fin 2) * 512 + 1 * (x 1).val = (k 1).val; rw [e1, hk1]; omega

/-- The compressor-matrix window is the whole matrix at every point. -/
theorem wblk_apply (c : Dev nD) (t : Fin cfg0.N) (x : S768x128.Idx) :
    (iblk m c 4 t : Vec Ideal S768x128 .f32) x = (m ((c.tc : Thread nD τ).loc main_arg4) : S768x128.Idx → EReal) x := by
  obtain ⟨-, -, -, -, ⟨e0, e1⟩, -⟩ := block_index t
  unfold iblk
  rw [View.read_apply]
  show V m c main_arg4 _ = m (c.tc.loc main_arg4) _
  rw [V_main_arg4]
  congr 1
  funext a
  apply Fin.ext
  match a with
  | ⟨0, _⟩ => show win0_4.index t (0 : Fin 2) * 768 + 1 * (x 0).val = (x 0).val; rw [e0]; omega
  | ⟨1, _⟩ => show win0_4.index t (1 : Fin 2) * 128 + 1 * (x 1).val = (x 1).val; rw [e1]; omega

/-- The compressor-bias window is the whole vector at every point. -/
theorem bcblk_apply (c : Dev nD) (t : Fin cfg0.N) (x : S128.Idx) :
    (iblk m c 5 t : Vec Ideal S128 .f32) x = (m ((c.tc : Thread nD τ).loc main_arg5) : S128.Idx → EReal) x := by
  obtain ⟨-, -, -, -, -, e0, -⟩ := block_index t
  unfold iblk
  rw [View.read_apply]
  show V m c main_arg5 _ = m (c.tc.loc main_arg5) _
  rw [V_main_arg5]
  congr 1
  funext a
  apply Fin.ext
  match a with
  | ⟨0, _⟩ => show win0_5.index t (0 : Fin 1) * 128 + 1 * (x 0).val = (x 0).val; rw [e0]; omega

/-- The stopword-vector window is the whole column at every point. -/
theorem wsblk_apply (c : Dev nD) (t : Fin cfg0.N) (x : S128x1.Idx) :
    (iblk m c 6 t : Vec Ideal S128x1 .f32) x = (m ((c.tc : Thread nD τ).loc main_arg6) : S128x1.Idx → EReal) x := by
  obtain ⟨-, -, -, -, -, -, ⟨e0, e1⟩, -⟩ := block_index t
  unfold iblk
  rw [View.read_apply]
  show V m c main_arg6 _ = m (c.tc.loc main_arg6) _
  rw [V_main_arg6]
  congr 1
  funext a
  apply Fin.ext
  match a with
  | ⟨0, _⟩ => show win0_6.index t (0 : Fin 2) * 128 + 1 * (x 0).val = (x 0).val; rw [e0]; omega
  | ⟨1, _⟩ => show win0_6.index t (1 : Fin 2) * 1 + 1 * (x 1).val = (x 1).val; rw [e1]; omega

/-- The stopword-bias window is the whole one-entry array at every point. -/
theorem bsblk_apply (c : Dev nD) (t : Fin cfg0.N) (x : S1.Idx) :
    (iblk m c 7 t : Vec Ideal S1 .f32) x = (m ((c.tc : Thread nD τ).loc main_arg7) : S1.Idx → EReal) x := by
  obtain ⟨-, -, -, -, -, -, -, e0, -⟩ := block_index t
  unfold iblk
  rw [View.read_apply]
  show V m c main_arg7 _ = m (c.tc.loc main_arg7) _
  rw [V_main_arg7]
  congr 1
  funext a
  apply Fin.ext
  match a with
  | ⟨0, _⟩ => show win0_7.index t (0 : Fin 1) * 1 + 1 * (x 0).val = (x 0).val; rw [e0]; omega

/-- The merger-parameter window is the whole one-entry array at every point. -/
theorem smblk_apply (c : Dev nD) (t : Fin cfg0.N) (x : S1.Idx) :
    (iblk m c 8 t : Vec Ideal S1 .f32) x = (m ((c.tc : Thread nD τ).loc main_arg8) : S1.Idx → EReal) x := by
  obtain ⟨-, -, -, -, -, -, -, -, e0, -⟩ := block_index t
  unfold iblk
  rw [View.read_apply]
  show V m c main_arg8 _ = m (c.tc.loc main_arg8) _
  rw [V_main_arg8]
  congr 1
  funext a
  apply Fin.ext
  match a with
  | ⟨0, _⟩ => show win0_8.index t (0 : Fin 1) * 1 + 1 * (x 0).val = (x 0).val; rw [e0]; omega

/-! ## One row of an output block

An index of an `[8, 1]` block is a row `p` and the column `0`; the body's result there is the per-element function of
row `p` of the input blocks. -/

theorem row_ix (j : S8x1.Idx) : j = ix2 (j 0) (0 : Fin 1) := by
  funext a
  match a with
  | ⟨0, _⟩ => rfl
  | ⟨1, _⟩ => exact Fin.ext (by have := idx2_lt1 j; show (j 1).val = 0; omega)

theorem score_row (x0 : Vec Ideal S8x32x768 .f32) (x1 : Vec Ideal S8x512x768 .f32) (x2 : Vec Ideal S8x32 .i32) (x3 : Vec Ideal S8x512 .i32) (x4 : Vec Ideal S768x128 .f32) (x5 : Vec Ideal S128 .f32) (x6 : Vec Ideal S128x1 .f32) (x7 x8 : Vec Ideal S1 .f32) (j : S8x1.Idx) :
    out0_9 x0 x1 x2 x3 x4 x5 x6 x7 x8 j = Cert.MaxSim.score (fun l h => x0 (ix3 (j 0) l h)) (fun k h => x1 (ix3 (j 0) k h)) (fun l => x2 (ix2 (j 0) l)) (fun k => x3 (ix2 (j 0) k)) (fun h c => x4 (ix2 h c)) (fun c => x5 (ix1 c)) (fun c => x6 (ix2 c (0 : Fin 1))) (x7 (ix1 (0 : Fin 1))) (x8 (ix1 (0 : Fin 1))) :=
  (congrArg (out0_9 x0 x1 x2 x3 x4 x5 x6 x7 x8) (row_ix j)).trans (Point.out9_eq x0 x1 x2 x3 x4 x5 x6 x7 x8 (j 0))

theorem cls_row (x0 : Vec Ideal S8x32x768 .f32) (x1 : Vec Ideal S8x512x768 .f32) (x2 : Vec Ideal S8x32 .i32) (x3 : Vec Ideal S8x512 .i32) (x4 : Vec Ideal S768x128 .f32) (x5 : Vec Ideal S128 .f32) (x6 : Vec Ideal S128x1 .f32) (x7 x8 : Vec Ideal S1 .f32) (j : S8x1.Idx) :
    out0_10 x0 x1 x2 x3 x4 x5 x6 x7 x8 j = Cert.MaxSim.clsScore (fun l h => x0 (ix3 (j 0) l h)) (fun k h => x1 (ix3 (j 0) k h)) (x8 (ix1 (0 : Fin 1))) :=
  (congrArg (out0_10 x0 x1 x2 x3 x4 x5 x6 x7 x8) (row_ix j)).trans (Point.out10_eq x0 x1 x2 x3 x4 x5 x6 x7 x8 (j 0))

theorem term_row (x0 : Vec Ideal S8x32x768 .f32) (x1 : Vec Ideal S8x512x768 .f32) (x2 : Vec Ideal S8x32 .i32) (x3 : Vec Ideal S8x512 .i32) (x4 : Vec Ideal S768x128 .f32) (x5 : Vec Ideal S128 .f32) (x6 : Vec Ideal S128x1 .f32) (x7 x8 : Vec Ideal S1 .f32) (j : S8x1.Idx) :
    out0_11 x0 x1 x2 x3 x4 x5 x6 x7 x8 j = Cert.MaxSim.termScore (fun l h => x0 (ix3 (j 0) l h)) (fun k h => x1 (ix3 (j 0) k h)) (fun l => x2 (ix2 (j 0) l)) (fun k => x3 (ix2 (j 0) k)) (fun h c => x4 (ix2 h c)) (fun c => x5 (ix1 c)) (fun c => x6 (ix2 c (0 : Fin 1))) (x7 (ix1 (0 : Fin 1))) (x8 (ix1 (0 : Fin 1))) :=
  (congrArg (out0_11 x0 x1 x2 x3 x4 x5 x6 x7 x8) (row_ix j)).trans (Point.out11_eq x0 x1 x2 x3 x4 x5 x6 x7 x8 (j 0))

/-- The three per-element functions respect equality of their slices. -/
theorem score_congr {q q' : Fin 32 → Fin 768 → EReal} {d d' : Fin 512 → Fin 768 → EReal} {mq mq' : Fin 32 → BitVec 32} {md md' : Fin 512 → BitVec 32}
    {W W' : Fin 768 → Fin 128 → EReal} {bc bc' ws ws' : Fin 128 → EReal} {bs bs' sm sm' : EReal}
    (hq : q = q') (hd : d = d') (hmq : mq = mq') (hmd : md = md') (hW : W = W') (hbc : bc = bc') (hws : ws = ws') (hbs : bs = bs') (hsm : sm = sm') :
    Cert.MaxSim.score q d mq md W bc ws bs sm = Cert.MaxSim.score q' d' mq' md' W' bc' ws' bs' sm' := by
  subst hq hd hmq hmd hW hbc hws hbs hsm; rfl
theorem cls_congr {q q' : Fin 32 → Fin 768 → EReal} {d d' : Fin 512 → Fin 768 → EReal} {sm sm' : EReal}
    (hq : q = q') (hd : d = d') (hsm : sm = sm') : Cert.MaxSim.clsScore q d sm = Cert.MaxSim.clsScore q' d' sm' := by
  subst hq hd hsm; rfl
theorem term_congr {q q' : Fin 32 → Fin 768 → EReal} {d d' : Fin 512 → Fin 768 → EReal} {mq mq' : Fin 32 → BitVec 32} {md md' : Fin 512 → BitVec 32}
    {W W' : Fin 768 → Fin 128 → EReal} {bc bc' ws ws' : Fin 128 → EReal} {bs bs' sm sm' : EReal}
    (hq : q = q') (hd : d = d') (hmq : mq = mq') (hmd : md = md') (hW : W = W') (hbc : bc = bc') (hws : ws = ws') (hbs : bs = bs') (hsm : sm = sm') :
    Cert.MaxSim.termScore q d mq md W bc ws bs sm = Cert.MaxSim.termScore q' d' mq' md' W' bc' ws' bs' sm' := by
  subst hq hd hmq hmd hW hbc hws hbs hsm; rfl

/-! ## The three result columns

What each `[128, 1]` result array ends holding: entry `(b, 0)` is batch element `b`'s value. -/

def scoreCol (c : Dev nD) : S128x1.Idx → EReal := fun i =>
  Cert.MaxSim.scoreAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (i 0)
def clsCol (c : Dev nD) : S128x1.Idx → EReal := fun i =>
  Cert.MaxSim.clsAt (m ((c.tc : Thread nD τ).loc main_arg0)) (m ((c.tc : Thread nD τ).loc main_arg1)) (m ((c.tc : Thread nD τ).loc main_arg8)) (i 0)
def termCol (c : Dev nD) : S128x1.Idx → EReal := fun i =>
  Cert.MaxSim.termAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (i 0)

/-- What point `t` writes back to the score array is block `t` of the score column: row `p` of the block is batch
    element `8t + p`, whose slices of the argument arrays are row `p` of the batched blocks and the whole parameters. -/
theorem flushed_score (c : Dev nD) (t : Fin cfg0.N) :
    (dats m 0 c).flushed 9 t = ((cfg0.win 9).blk t).view.read (Elt Ideal) (scoreCol m c) := by
  show (cfg0.win 9).cut (grid0.coords t) ((dats m 0 c).after 9 t) = _
  rw [after0_9]
  funext j
  show out0_9 (iblk m c 0 t) (iblk m c 1 t) (iblk m c 2 t) (iblk m c 3 t) (iblk m c 4 t) (iblk m c 5 t) (iblk m c 6 t) (iblk m c 7 t) (iblk m c 8 t) j = scoreCol m c (((cfg0.win 9).blk t).view.emb j)
  refine (score_row (iblk m c 0 t) (iblk m c 1 t) (iblk m c 2 t) (iblk m c 3 t) (iblk m c 4 t) (iblk m c 5 t) (iblk m c 6 t) (iblk m c 7 t) (iblk m c 8 t) j).trans ?_
  have hb : ((((cfg0.win 9).blk t).view.emb j) 0).val = 8 * t.val + (j 0).val := by
    obtain ⟨-, -, -, -, -, -, -, -, -, ⟨e9, -⟩, ⟨e10, -⟩, ⟨e11, -⟩⟩ := block_index t
    show win0_9.index t (0 : Fin 2) * 8 + 1 * (j 0).val = _
    rw [e9]; omega
  unfold scoreCol Cert.MaxSim.scoreAt
  exact score_congr
    (funext fun l => funext fun h => qblk_apply m c t (ix3 (j 0) l h) (ix3 _ l h) hb rfl rfl)
    (funext fun k => funext fun h => dblk_apply m c t (ix3 (j 0) k h) (ix3 _ k h) hb rfl rfl)
    (funext fun l => qmblk_apply m c t (ix2 (j 0) l) (ix2 _ l) hb rfl)
    (funext fun k => dmblk_apply m c t (ix2 (j 0) k) (ix2 _ k) hb rfl)
    (funext fun h => funext fun c' => wblk_apply m c t (ix2 h c'))
    (funext fun c' => bcblk_apply m c t (ix1 c'))
    (funext fun c' => wsblk_apply m c t (ix2 c' (0 : Fin 1)))
    (bsblk_apply m c t (ix1 (0 : Fin 1)))
    (smblk_apply m c t (ix1 (0 : Fin 1)))

/-- The same for the first-token score. -/
theorem flushed_cls (c : Dev nD) (t : Fin cfg0.N) :
    (dats m 0 c).flushed 10 t = ((cfg0.win 10).blk t).view.read (Elt Ideal) (clsCol m c) := by
  show (cfg0.win 10).cut (grid0.coords t) ((dats m 0 c).after 10 t) = _
  rw [after0_10]
  funext j
  show out0_10 (iblk m c 0 t) (iblk m c 1 t) (iblk m c 2 t) (iblk m c 3 t) (iblk m c 4 t) (iblk m c 5 t) (iblk m c 6 t) (iblk m c 7 t) (iblk m c 8 t) j = clsCol m c (((cfg0.win 10).blk t).view.emb j)
  refine (cls_row (iblk m c 0 t) (iblk m c 1 t) (iblk m c 2 t) (iblk m c 3 t) (iblk m c 4 t) (iblk m c 5 t) (iblk m c 6 t) (iblk m c 7 t) (iblk m c 8 t) j).trans ?_
  have hb : ((((cfg0.win 10).blk t).view.emb j) 0).val = 8 * t.val + (j 0).val := by
    obtain ⟨-, -, -, -, -, -, -, -, -, ⟨e9, -⟩, ⟨e10, -⟩, ⟨e11, -⟩⟩ := block_index t
    show win0_10.index t (0 : Fin 2) * 8 + 1 * (j 0).val = _
    rw [e10]; omega
  unfold clsCol Cert.MaxSim.clsAt
  exact cls_congr
    (funext fun l => funext fun h => qblk_apply m c t (ix3 (j 0) l h) (ix3 _ l h) hb rfl rfl)
    (funext fun k => funext fun h => dblk_apply m c t (ix3 (j 0) k h) (ix3 _ k h) hb rfl rfl)
    (smblk_apply m c t (ix1 (0 : Fin 1)))

/-- The same for the term score. -/
theorem flushed_term (c : Dev nD) (t : Fin cfg0.N) :
    (dats m 0 c).flushed 11 t = ((cfg0.win 11).blk t).view.read (Elt Ideal) (termCol m c) := by
  show (cfg0.win 11).cut (grid0.coords t) ((dats m 0 c).after 11 t) = _
  rw [after0_11]
  funext j
  show out0_11 (iblk m c 0 t) (iblk m c 1 t) (iblk m c 2 t) (iblk m c 3 t) (iblk m c 4 t) (iblk m c 5 t) (iblk m c 6 t) (iblk m c 7 t) (iblk m c 8 t) j = termCol m c (((cfg0.win 11).blk t).view.emb j)
  refine (term_row (iblk m c 0 t) (iblk m c 1 t) (iblk m c 2 t) (iblk m c 3 t) (iblk m c 4 t) (iblk m c 5 t) (iblk m c 6 t) (iblk m c 7 t) (iblk m c 8 t) j).trans ?_
  have hb : ((((cfg0.win 11).blk t).view.emb j) 0).val = 8 * t.val + (j 0).val := by
    obtain ⟨-, -, -, -, -, -, -, -, -, ⟨e9, -⟩, ⟨e10, -⟩, ⟨e11, -⟩⟩ := block_index t
    show win0_11.index t (0 : Fin 2) * 8 + 1 * (j 0).val = _
    rw [e11]; omega
  unfold termCol Cert.MaxSim.termAt
  exact term_congr
    (funext fun l => funext fun h => qblk_apply m c t (ix3 (j 0) l h) (ix3 _ l h) hb rfl rfl)
    (funext fun k => funext fun h => dblk_apply m c t (ix3 (j 0) k h) (ix3 _ k h) hb rfl rfl)
    (funext fun l => qmblk_apply m c t (ix2 (j 0) l) (ix2 _ l) hb rfl)
    (funext fun k => dmblk_apply m c t (ix2 (j 0) k) (ix2 _ k) hb rfl)
    (funext fun h => funext fun c' => wblk_apply m c t (ix2 h c'))
    (funext fun c' => bcblk_apply m c t (ix1 c'))
    (funext fun c' => wsblk_apply m c t (ix2 c' (0 : Fin 1)))
    (bsblk_apply m c t (ix1 (0 : Fin 1)))
    (smblk_apply m c t (ix1 (0 : Fin 1)))

/-! ## The blocks tile each result array -/

/-- An index of the array is in point `t`'s block iff each coordinate is in the block's range on its axis. -/
theorem mem_scoreBlk (t : Fin cfg0.N) (i : S128x1.Idx) :
    i ∈ ((cfg0.win 9).blk t).view.set ↔ ∀ a : Fin 2, win0_9.index t a * S8x1.size a ≤ (i a).val ∧ (i a).val < win0_9.index t a * S8x1.size a + S8x1.size a := by
  show i ∈ ((View.whole main_v0_0).slice (win0_9.rect t)).set ↔ _
  rw [View.set_slice_whole, Rect.mem_set_unit]
  exact Iff.rfl

/-- Every row of the array is in some point's block: row `r` in point `r / 8`'s. -/
theorem scoreBlk_cover (i : S128x1.Idx) : ∃ t : Fin cfg0.N, (cfg0.win 9).flush t = true ∧ i ∈ ((cfg0.win 9).blk t).view.set := by
  have hi0 : (i 0).val < 128 := idx2_lt0 i
  have hi1 : (i 1).val < 1 := idx2_lt1 i
  have hN : cfg0.N = 16 := N_0
  refine ⟨⟨(i 0).val / 8, by rw [hN]; omega⟩, flush0_9 _, ?_⟩
  rw [mem_scoreBlk]
  obtain ⟨-, -, -, -, -, -, -, -, -, ⟨e9, f9⟩, ⟨e10, f10⟩, ⟨e11, f11⟩⟩ := block_index ⟨(i 0).val / 8, by rw [hN]; omega⟩
  intro a
  match a with
  | ⟨0, _⟩ => show win0_9.index _ (0 : Fin 2) * 8 ≤ (i 0).val ∧ (i 0).val < win0_9.index _ (0 : Fin 2) * 8 + 8; rw [e9]; show (i 0).val / 8 * 8 ≤ (i 0).val ∧ (i 0).val < (i 0).val / 8 * 8 + 8; omega
  | ⟨1, _⟩ => show win0_9.index _ (1 : Fin 2) * 1 ≤ (i 1).val ∧ (i 1).val < win0_9.index _ (1 : Fin 2) * 1 + 1; rw [f9]; omega

/-- An index of the array is in point `t`'s block iff each coordinate is in the block's range on its axis. -/
theorem mem_clsBlk (t : Fin cfg0.N) (i : S128x1.Idx) :
    i ∈ ((cfg0.win 10).blk t).view.set ↔ ∀ a : Fin 2, win0_10.index t a * S8x1.size a ≤ (i a).val ∧ (i a).val < win0_10.index t a * S8x1.size a + S8x1.size a := by
  show i ∈ ((View.whole main_v0_1).slice (win0_10.rect t)).set ↔ _
  rw [View.set_slice_whole, Rect.mem_set_unit]
  exact Iff.rfl

/-- Every row of the array is in some point's block: row `r` in point `r / 8`'s. -/
theorem clsBlk_cover (i : S128x1.Idx) : ∃ t : Fin cfg0.N, (cfg0.win 10).flush t = true ∧ i ∈ ((cfg0.win 10).blk t).view.set := by
  have hi0 : (i 0).val < 128 := idx2_lt0 i
  have hi1 : (i 1).val < 1 := idx2_lt1 i
  have hN : cfg0.N = 16 := N_0
  refine ⟨⟨(i 0).val / 8, by rw [hN]; omega⟩, flush0_10 _, ?_⟩
  rw [mem_clsBlk]
  obtain ⟨-, -, -, -, -, -, -, -, -, ⟨e9, f9⟩, ⟨e10, f10⟩, ⟨e11, f11⟩⟩ := block_index ⟨(i 0).val / 8, by rw [hN]; omega⟩
  intro a
  match a with
  | ⟨0, _⟩ => show win0_10.index _ (0 : Fin 2) * 8 ≤ (i 0).val ∧ (i 0).val < win0_10.index _ (0 : Fin 2) * 8 + 8; rw [e10]; show (i 0).val / 8 * 8 ≤ (i 0).val ∧ (i 0).val < (i 0).val / 8 * 8 + 8; omega
  | ⟨1, _⟩ => show win0_10.index _ (1 : Fin 2) * 1 ≤ (i 1).val ∧ (i 1).val < win0_10.index _ (1 : Fin 2) * 1 + 1; rw [f10]; omega

/-- An index of the array is in point `t`'s block iff each coordinate is in the block's range on its axis. -/
theorem mem_termBlk (t : Fin cfg0.N) (i : S128x1.Idx) :
    i ∈ ((cfg0.win 11).blk t).view.set ↔ ∀ a : Fin 2, win0_11.index t a * S8x1.size a ≤ (i a).val ∧ (i a).val < win0_11.index t a * S8x1.size a + S8x1.size a := by
  show i ∈ ((View.whole main_v0_2).slice (win0_11.rect t)).set ↔ _
  rw [View.set_slice_whole, Rect.mem_set_unit]
  exact Iff.rfl

/-- Every row of the array is in some point's block: row `r` in point `r / 8`'s. -/
theorem termBlk_cover (i : S128x1.Idx) : ∃ t : Fin cfg0.N, (cfg0.win 11).flush t = true ∧ i ∈ ((cfg0.win 11).blk t).view.set := by
  have hi0 : (i 0).val < 128 := idx2_lt0 i
  have hi1 : (i 1).val < 1 := idx2_lt1 i
  have hN : cfg0.N = 16 := N_0
  refine ⟨⟨(i 0).val / 8, by rw [hN]; omega⟩, flush0_11 _, ?_⟩
  rw [mem_termBlk]
  obtain ⟨-, -, -, -, -, -, -, -, -, ⟨e9, f9⟩, ⟨e10, f10⟩, ⟨e11, f11⟩⟩ := block_index ⟨(i 0).val / 8, by rw [hN]; omega⟩
  intro a
  match a with
  | ⟨0, _⟩ => show win0_11.index _ (0 : Fin 2) * 8 ≤ (i 0).val ∧ (i 0).val < win0_11.index _ (0 : Fin 2) * 8 + 8; rw [e11]; show (i 0).val / 8 * 8 ≤ (i 0).val ∧ (i 0).val < (i 0).val / 8 * 8 + 8; omega
  | ⟨1, _⟩ => show win0_11.index _ (1 : Fin 2) * 1 ≤ (i 1).val ∧ (i 1).val < win0_11.index _ (1 : Fin 2) * 1 + 1; rw [f11]; omega

/-- So each result array ends holding its column. -/
theorem final_score (c : Dev nD) : (dats m 0 c).arrAt 9 cfg0.N = scoreCol m c :=
  (dats m 0 c).arrAt_eq_of_cover 9 (scoreCol m c) (fun t _ => flushed_score m c t) scoreBlk_cover
theorem final_cls (c : Dev nD) : (dats m 0 c).arrAt 10 cfg0.N = clsCol m c :=
  (dats m 0 c).arrAt_eq_of_cover 10 (clsCol m c) (fun t _ => flushed_cls m c t) clsBlk_cover
theorem final_term (c : Dev nD) : (dats m 0 c).arrAt 11 cfg0.N = termCol m c :=
  (dats m 0 c).arrAt_eq_of_cover 11 (termCol m c) (fun t _ => flushed_term m c t) termBlk_cover

/-! ## The reshapes after the region

Each `[128, 1]` result is viewed as `[128]`: entry `b` of the view is entry `(b, 0)` of the column. -/

theorem dropCol_apply (x : S128x1.Idx → EReal) (h : S128x1.ShapeCasts S128) (i : S128.Idx) :
    shapeCast S128 x h i = x (ix2 (i 0) (0 : Fin 1)) :=
  shapeCast_apply x h i _ (by
    rw [Shape.rowMajor_val_two, Shape.rowMajor_val_one]
    show (i 0).val * 1 + 0 = (i 0).val
    omega)

theorem tail_score (c : Dev nD) :
    Pipeline.afterTail₀ cfgs (dats m) 0 (V0 m) [hostOps1] c main_v1 = Cert.MaxSim.scoreArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0_0) = scoreCol m c :=
    (Pipeline.withArrays_arr spec0 launch0.win.arr_inj c _ _ 9).trans (final_score m c)
  funext i
  show shapeCast S128 (Pipeline.withArrays (cfgs 0).spec c (V0 m c) (fun w => (dats m 0 c).arrAt w (cfgs 0).N) (Proc.devRef .tc main_v0_0)) shapeCasts_S128x1_S128 i = _
  rw [e]
  exact dropCol_apply (scoreCol m c) shapeCasts_S128x1_S128 i

theorem tail_cls (c : Dev nD) :
    Pipeline.afterTail₀ cfgs (dats m) 0 (V0 m) [hostOps1] c main_v2 = Cert.MaxSim.clsArr (m ((c.tc : Thread nD τ).loc main_arg0)) (m ((c.tc : Thread nD τ).loc main_arg1)) (m ((c.tc : Thread nD τ).loc main_arg8)) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v0_1) = clsCol m c :=
    (Pipeline.withArrays_arr spec0 launch0.win.arr_inj c _ _ 10).trans (final_cls m c)
  funext i
  show shapeCast S128 (Pipeline.withArrays (cfgs 0).spec c (V0 m c) (fun w => (dats m 0 c).arrAt w (cfgs 0).N) (Proc.devRef .tc main_v0_1)) shapeCasts_S128x1_S128 i = _
  rw [e]
  exact dropCol_apply (clsCol m c) shapeCasts_S128x1_S128 i

theorem tail_term (c : Dev nD) :
    Pipeline.afterTail₀ cfgs (dats m) 0 (V0 m) [hostOps1] c main_v3 = Cert.MaxSim.termArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v0_2) = termCol m c :=
    (Pipeline.withArrays_arr spec0 launch0.win.arr_inj c _ _ 11).trans (final_term m c)
  funext i
  show shapeCast S128 (Pipeline.withArrays (cfgs 0).spec c (V0 m c) (fun w => (dats m 0 c).arrAt w (cfgs 0).N) (Proc.devRef .tc main_v0_2)) shapeCasts_S128x1_S128 i = _
  rw [e]
  exact dropCol_apply (termCol m c) shapeCasts_S128x1_S128 i

/-! ## The run, read -/

/-- The three `[128]` results are no window's array and are unscoped: the region passes them by, and the reshapes after
    it write them. -/
theorem v1_rest : main_v1 ∈ Pipeline.restRefs sig (cfgs 0).spec := Pipeline.mem_restRefs_of main_v1 rfl (by decide)
theorem v2_rest : main_v2 ∈ Pipeline.restRefs sig (cfgs 0).spec := Pipeline.mem_restRefs_of main_v2 rfl (by decide)
theorem v3_rest : main_v3 ∈ Pipeline.restRefs sig (cfgs 0).spec := Pipeline.mem_restRefs_of main_v3 rfl (by decide)

/-- The idealized kernel's run with its three results named: every execution ends with the score, the first-token score
    and the term score of every batch element in the three result arrays, and the nine arguments as launched. -/
theorem run :
    θ_run (defs (F := Ideal)) (onTc (τ := τ) (main (F := Ideal))) ⟨m, fun _ => 0, ρ⟩ fun r => ∀ c : Dev nD,
      r.2.mem ((c.tc : Thread nD τ).loc main_v1) = Cert.MaxSim.scoreArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v2) = Cert.MaxSim.clsArr (m ((c.tc : Thread nD τ).loc main_arg0)) (m ((c.tc : Thread nD τ).loc main_arg1)) (m ((c.tc : Thread nD τ).loc main_arg8))
      ∧ r.2.mem ((c.tc : Thread nD τ).loc main_v3) = Cert.MaxSim.termArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨((h c).2 main_v1 v1_rest).trans (tail_score m c),
      ((h c).2 main_v2 v2_rest).trans (tail_cls m c),
      ((h c).2 main_v3 v3_rest).trans (tail_term m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c)))⟩)
    (run_main m ρ)

end Cert.KernelIdeal.Arr

end
-- ==== Proof.RefRun.lean ====
/-
  The reference program's run, read one stretch at a time.

  The reference is a straight line of 69 operations. Several of its intermediate arrays are read more than
  once: the document projection feeds both the importance gate and the gated document vectors, the query mask
  feeds both the masked query vectors and the final selection, the document mask feeds both the gated document
  vectors and the masking of the similarities, and the mixing weight σ feeds both σ and 1 − σ. Written out as
  one expression of the nine arguments, every such array is repeated at each place it is read, and the
  expression grows with the product of the repetitions.

  Here each intermediate is named ONCE, by the value `ReadP.val_main_vN` of the operation that writes it (that
  value applies the operation to the EARLIER named values), and the line is cut into six stretches:

    1. through %17: the masks, the two leading-token slices, the query projection and the document projection;
    2. through %21: the masked query vectors;
    3. through %32: the importance gate and the gated, masked document vectors;
    4. through %38: the leading-token inner product, the similarities, their masking, the maximum over documents;
    5. through %40: the selection by the query mask and the sum over queries;
    6. through %51: σ, the two weighted terms and their sum.

  Running a concatenation is running its parts in turn (`after_append`). For each stretch one lemma says: if,
  before the stretch, the buffers it reads hold their named values, then after it the buffers that are still to
  be read hold theirs. A buffer the stretch writes is one operation applied to the buffers it reads, a buffer it
  does not write is unchanged; so each lemma compares only a stretch's worth of term, and the named values are
  compared as wholes, never unfolded. Chaining the six lemmas from the launch contents gives the three results.
-/
import proofs.«146330_j53549652246634_2_alg».proof.Proof.RunOps
import proofs.«146330_j53549652246634_2_alg».proof.Proof.ReadP

noncomputable section

namespace Cert.ReferenceIdeal.RefRun

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The six stretches -/

/-- Through %17: the two masks (%2, %5), the leading-token slices (%7, %9), the query projection (%13) and the
    document projection (%17). -/
abbrev opsProj : List (HloOp τ sig (Elt F)) :=
  [ nullary main_c (constantI S_ 32 0#32),
    unary main_c main_v0 (broadcastInDim S128x32 ![] bcast_S_S128x32 : (⟨S_, .i32⟩ : BufTy).Contents (Elt F) → (⟨S128x32, .i32⟩ : BufTy).Contents (Elt F)),
    binary main_arg2 main_v0 main_v1 (cmpi .ne : (⟨S128x32, .i32⟩ : BufTy).Contents (Elt F) → (⟨S128x32, .i32⟩ : BufTy).Contents (Elt F) → (⟨S128x32, .i1⟩ : BufTy).Contents (Elt F)),
    unary main_v1 main_v2 (id : (⟨S128x32, .i1⟩ : BufTy).Contents (Elt F) → (⟨S128x32, .i1⟩ : BufTy).Contents (Elt F)),
    nullary main_c_0 (constantI S_ 32 0#32),
    unary main_c_0 main_v3 (broadcastInDim S128x512 ![] bcast_S_S128x512 : (⟨S_, .i32⟩ : BufTy).Contents (Elt F) → (⟨S128x512, .i32⟩ : BufTy).Contents (Elt F)),
    binary main_arg3 main_v3 main_v4 (cmpi .ne : (⟨S128x512, .i32⟩ : BufTy).Contents (Elt F) → (⟨S128x512, .i32⟩ : BufTy).Contents (Elt F) → (⟨S128x512, .i1⟩ : BufTy).Contents (Elt F)),
    unary main_v4 main_v5 (id : (⟨S128x512, .i1⟩ : BufTy).Contents (Elt F) → (⟨S128x512, .i1⟩ : BufTy).Contents (Elt F)),
    unary main_arg0 main_v6 ((extractStridedSlice S128x1x768 ![0, 0, 0] · slices_S128x32x768_S128x1x768_0_0_0) : (⟨S128x32x768, .f32⟩ : BufTy).Contents (Elt F) → (⟨S128x1x768, .f32⟩ : BufTy).Contents (Elt F)),
    reshape main_v6 main_v7 rfl shapeCasts_S128x1x768_S128x768,
    unary main_arg1 main_v8 ((extractStridedSlice S128x1x768 ![0, 0, 0] · slices_S128x512x768_S128x1x768_0_0_0) : (⟨S128x512x768, .f32⟩ : BufTy).Contents (Elt F) → (⟨S128x1x768, .f32⟩ : BufTy).Contents (Elt F)),
    reshape main_v8 main_v9 rfl shapeCasts_S128x1x768_S128x768,
    binary main_arg0 main_arg4 main_v10 ((fun l r => Host.dotGeneral dot_S128x32x768_S768x128_S128x32x128_2_0_01_1_n_n none l r) : (⟨S128x32x768, .f32⟩ : BufTy).Contents (Elt F) → (⟨S768x128, .f32⟩ : BufTy).Contents (Elt F) → (⟨S128x32x128, .f32⟩ : BufTy).Contents (Elt F)),
    unary main_arg5 main_v11 (broadcastInDim S1x1x128 ![2] bcast_S128_S1x1x128_2 : (⟨S128, .f32⟩ : BufTy).Contents (Elt F) → (⟨S1x1x128, .f32⟩ : BufTy).Contents (Elt F)),
    unary main_v11 main_v12 (broadcastInDim S128x32x128 ![0, 1, 2] bcast_S1x1x128_S128x32x128_0_1_2 : (⟨S1x1x128, .f32⟩ : BufTy).Contents (Elt F) → (⟨S128x32x128, .f32⟩ : BufTy).Contents (Elt F)),
    binary main_v10 main_v12 main_v13 (addf : (⟨S128x32x128, .f32⟩ : BufTy).Contents (Elt F) → (⟨S128x32x128, .f32⟩ : BufTy).Contents (Elt F) → (⟨S128x32x128, .f32⟩ : BufTy).Contents (Elt F)),
    binary main_arg1 main_arg4 main_v14 ((fun l r => Host.dotGeneral dot_S128x512x768_S768x128_S128x512x128_2_0_01_1_n_n none l r) : (⟨S128x512x768, .f32⟩ : BufTy).Contents (Elt F) → (⟨S768x128, .f32⟩ : BufTy).Contents (Elt F) → (⟨S128x512x128, .f32⟩ : BufTy).Contents (Elt F)),
    unary main_arg5 main_v15 (broadcastInDim S1x1x128 ![2] bcast_S128_S1x1x128_2 : (⟨S128, .f32⟩ : BufTy).Contents (Elt F) → (⟨S1x1x128, .f32⟩ : BufTy).Contents (Elt F)),
    unary main_v15 main_v16 (broadcastInDim S128x512x128 ![0, 1, 2] bcast_S1x1x128_S128x512x128_0_1_2 : (⟨S1x1x128, .f32⟩ : BufTy).Contents (Elt F) → (⟨S128x512x128, .f32⟩ : BufTy).Contents (Elt F)),
    binary main_v14 main_v16 main_v17 (addf : (⟨S128x512x128, .f32⟩ : BufTy).Contents (Elt F) → (⟨S128x512x128, .f32⟩ : BufTy).Contents (Elt F) → (⟨S128x512x128, .f32⟩ : BufTy).Contents (Elt F)) ]

/-- Through %21: the query projection times the query mask. -/
abbrev opsQuery : List (HloOp τ sig (Elt F)) :=
  [ unary main_v2 main_v18 (broadcastInDim S128x32x1 ![0, 1] bcast_S128x32_S128x32x1_0_1 : (⟨S128x32, .i1⟩ : BufTy).Contents (Elt F) → (⟨S128x32x1, .i1⟩ : BufTy).Contents (Elt F)),
    unary main_v18 main_v19 (uitofp .f32 : (⟨S128x32x1, .i1⟩ : BufTy).Contents (Elt F) → (⟨S128x32x1, .f32⟩ : BufTy).Contents (Elt F)),
    unary main_v19 main_v20 (broadcastInDim S128x32x128 ![0, 1, 2] bcast_S128x32x1_S128x32x128_0_1_2 : (⟨S128x32x1, .f32⟩ : BufTy).Contents (Elt F) → (⟨S128x32x128, .f32⟩ : BufTy).Contents (Elt F)),
    binary main_v13 main_v20 main_v21 (mulf : (⟨S128x32x128, .f32⟩ : BufTy).Contents (Elt F) → (⟨S128x32x128, .f32⟩ : BufTy).Contents (Elt F) → (⟨S128x32x128, .f32⟩ : BufTy).Contents (Elt F)) ]

/-- Through %32: the importance gate max(w·d + b, 0) and the document projection times gate times mask. -/
abbrev opsDoc : List (HloOp τ sig (Elt F)) :=
  [ binary main_v17 main_arg6 main_v22 ((fun l r => Host.dotGeneral dot_S128x512x128_S128x1_S128x512x1_2_0_01_1_n_n none l r) : (⟨S128x512x128, .f32⟩ : BufTy).Contents (Elt F) → (⟨S128x1, .f32⟩ : BufTy).Contents (Elt F) → (⟨S128x512x1, .f32⟩ : BufTy).Contents (Elt F)),
    unary main_arg7 main_v23 (broadcastInDim S1x1x1 ![2] bcast_S1_S1x1x1_2 : (⟨S1, .f32⟩ : BufTy).Contents (Elt F) → (⟨S1x1x1, .f32⟩ : BufTy).Contents (Elt F)),
    unary main_v23 main_v24 (broadcastInDim S128x512x1 ![0, 1, 2] bcast_S1x1x1_S128x512x1_0_1_2 : (⟨S1x1x1, .f32⟩ : BufTy).Contents (Elt F) → (⟨S128x512x1, .f32⟩ : BufTy).Contents (Elt F)),
    binary main_v22 main_v24 main_v25 (addf : (⟨S128x512x1, .f32⟩ : BufTy).Contents (Elt F) → (⟨S128x512x1, .f32⟩ : BufTy).Contents (Elt F) → (⟨S128x512x1, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S128x512x1, .f32⟩) main_call0_v0) (broadcastInDim S128x512x1 ![] bcast_S_S128x512x1),
    TRef.binary (TRef.of (T := ⟨S128x512x1, .f32⟩) main_v25) (TRef.of (T := ⟨S128x512x1, .f32⟩) main_call0_v0) (TRef.of (T := ⟨S128x512x1, .f32⟩) main_v26) maximumf,
    unary main_v26 main_v27 (broadcastInDim S128x512x128 ![0, 1, 2] bcast_S128x512x1_S128x512x128_0_1_2 : (⟨S128x512x1, .f32⟩ : BufTy).Contents (Elt F) → (⟨S128x512x128, .f32⟩ : BufTy).Contents (Elt F)),
    binary main_v17 main_v27 main_v28 (mulf : (⟨S128x512x128, .f32⟩ : BufTy).Contents (Elt F) → (⟨S128x512x128, .f32⟩ : BufTy).Contents (Elt F) → (⟨S128x512x128, .f32⟩ : BufTy).Contents (Elt F)),
    unary main_v5 main_v29 (broadcastInDim S128x512x1 ![0, 1] bcast_S128x512_S128x512x1_0_1 : (⟨S128x512, .i1⟩ : BufTy).Contents (Elt F) → (⟨S128x512x1, .i1⟩ : BufTy).Contents (Elt F)),
    unary main_v29 main_v30 (uitofp .f32 : (⟨S128x512x1, .i1⟩ : BufTy).Contents (Elt F) → (⟨S128x512x1, .f32⟩ : BufTy).Contents (Elt F)),
    unary main_v30 main_v31 (broadcastInDim S128x512x128 ![0, 1, 2] bcast_S128x512x1_S128x512x128_0_1_2 : (⟨S128x512x1, .f32⟩ : BufTy).Contents (Elt F) → (⟨S128x512x128, .f32⟩ : BufTy).Contents (Elt F)),
    binary main_v28 main_v31 main_v32 (mulf : (⟨S128x512x128, .f32⟩ : BufTy).Contents (Elt F) → (⟨S128x512x128, .f32⟩ : BufTy).Contents (Elt F) → (⟨S128x512x128, .f32⟩ : BufTy).Contents (Elt F)) ]

/-- Through %38: the leading tokens' inner product (%34), the similarities (%35), masked documents sent to −1000
    (%37), and the maximum over documents (%38). -/
abbrev opsMax : List (HloOp τ sig (Elt F)) :=
  [ binary main_v7 main_v9 main_v33 (mulf : (⟨S128x768, .f32⟩ : BufTy).Contents (Elt F) → (⟨S128x768, .f32⟩ : BufTy).Contents (Elt F) → (⟨S128x768, .f32⟩ : BufTy).Contents (Elt F)),
    nullary main_cst (constant S_ .f32 0x00000000#32),
    binary main_v33 main_cst main_v34 ((fun x v => Host.reduceAdd x v reducesTo_S128x768_S128_d1 h_S_) : (⟨S128x768, .f32⟩ : BufTy).Contents (Elt F) → (⟨S_, .f32⟩ : BufTy).Contents (Elt F) → (⟨S128, .f32⟩ : BufTy).Contents (Elt F)),
    binary main_v21 main_v32 main_v35 ((fun l r => Host.dotGeneral dot_S128x32x128_S128x512x128_S128x32x512_2_2_1_1_0_0 none l r) : (⟨S128x32x128, .f32⟩ : BufTy).Contents (Elt F) → (⟨S128x512x128, .f32⟩ : BufTy).Contents (Elt F) → (⟨S128x32x512, .f32⟩ : BufTy).Contents (Elt F)),
    unary main_v5 main_v36 (broadcastInDim S128x1x512 ![0, 2] bcast_S128x512_S128x1x512_0_2 : (⟨S128x512, .i1⟩ : BufTy).Contents (Elt F) → (⟨S128x1x512, .i1⟩ : BufTy).Contents (Elt F)),
    nullary main_cst_1 (constant S_ .f32 0xC47A0000#32),
    TRef.unary (TRef.of (T := ⟨S_, .f32⟩) main_cst_1) (TRef.of (T := ⟨S_, .f32⟩) main_call1_v0) id,
    TRef.unary (TRef.of (T := ⟨S128x1x512, .i1⟩) main_v36) (TRef.of (T := ⟨S128x32x512, .i1⟩) main_call1_v1) (broadcastInDim S128x32x512 ![0, 1, 2] bcast_S128x1x512_S128x32x512_0_1_2),
    TRef.unary (TRef.of (T := ⟨S_, .f32⟩) main_call1_v0) (TRef.of (T := ⟨S128x32x512, .f32⟩) main_call1_v2) (broadcastInDim S128x32x512 ![] bcast_S_S128x32x512),
    TRef.ternary (TRef.of (T := ⟨S128x32x512, .i1⟩) main_call1_v1) (TRef.of (T := ⟨S128x32x512, .f32⟩) main_v35) (TRef.of (T := ⟨S128x32x512, .f32⟩) main_call1_v2) (TRef.of (T := ⟨S128x32x512, .f32⟩) main_v37) select,
    nullary main_cst_2 (constant S_ .f32 0xFF800000#32),
    binary main_v37 main_cst_2 main_v38 ((fun x v => Host.reduce FloatOps.maximumf x v reducesTo_S128x32x512_S128x32_d2 h_S_) : (⟨S128x32x512, .f32⟩ : BufTy).Contents (Elt F) → (⟨S_, .f32⟩ : BufTy).Contents (Elt F) → (⟨S128x32, .f32⟩ : BufTy).Contents (Elt F)) ]

/-- Through %40: masked queries sent to 0, then the sum over queries. -/
abbrev opsSum : List (HloOp τ sig (Elt F)) :=
  [ nullary main_cst_3 (constant S_ .f32 0x00000000#32),
    TRef.unary (TRef.of (T := ⟨S_, .f32⟩) main_cst_3) (TRef.of (T := ⟨S_, .f32⟩) main_call2_v0) id,
    TRef.unary (TRef.of (T := ⟨S_, .f32⟩) main_call2_v0) (TRef.of (T := ⟨S128x32, .f32⟩) main_call2_v1) (broadcastInDim S128x32 ![] bcast_S_S128x32),
    TRef.ternary (TRef.of (T := ⟨S128x32, .i1⟩) main_v2) (TRef.of (T := ⟨S128x32, .f32⟩) main_v38) (TRef.of (T := ⟨S128x32, .f32⟩) main_call2_v1) (TRef.of (T := ⟨S128x32, .f32⟩) main_v39) select,
    nullary main_cst_4 (constant S_ .f32 0x00000000#32),
    binary main_v39 main_cst_4 main_v40 ((fun x v => Host.reduceAdd x v reducesTo_S128x32_S128_d1 h_S_) : (⟨S128x32, .f32⟩ : BufTy).Contents (Elt F) → (⟨S_, .f32⟩ : BufTy).Contents (Elt F) → (⟨S128, .f32⟩ : BufTy).Contents (Elt F)) ]

/-- Through %51: σ = 1 / (1 + exp (−s)), the term σ · %34, the term (1 − σ) · %40, and their sum. -/
abbrev opsMix : List (HloOp τ sig (Elt F)) :=
  [ reshape main_arg8 main_v41 rfl shapeCasts_S1_S_,
    unary main_v41 main_v42 (Host.negf : (⟨S_, .f32⟩ : BufTy).Contents (Elt F) → (⟨S_, .f32⟩ : BufTy).Contents (Elt F)),
    unary main_v42 main_v43 (Host.exp : (⟨S_, .f32⟩ : BufTy).Contents (Elt F) → (⟨S_, .f32⟩ : BufTy).Contents (Elt F)),
    nullary main_cst_5 (constant S_ .f32 0x3F800000#32),
    binary main_cst_5 main_v43 main_v44 (addf : (⟨S_, .f32⟩ : BufTy).Contents (Elt F) → (⟨S_, .f32⟩ : BufTy).Contents (Elt F) → (⟨S_, .f32⟩ : BufTy).Contents (Elt F)),
    nullary main_cst_6 (constant S_ .f32 0x3F800000#32),
    binary main_cst_6 main_v44 main_v45 (Host.divf : (⟨S_, .f32⟩ : BufTy).Contents (Elt F) → (⟨S_, .f32⟩ : BufTy).Contents (Elt F) → (⟨S_, .f32⟩ : BufTy).Contents (Elt F)),
    unary main_v45 main_v46 (broadcastInDim S128 ![] bcast_S_S128 : (⟨S_, .f32⟩ : BufTy).Contents (Elt F) → (⟨S128, .f32⟩ : BufTy).Contents (Elt F)),
    binary main_v34 main_v46 main_v47 (mulf : (⟨S128, .f32⟩ : BufTy).Contents (Elt F) → (⟨S128, .f32⟩ : BufTy).Contents (Elt F) → (⟨S128, .f32⟩ : BufTy).Contents (Elt F)),
    nullary main_cst_7 (constant S_ .f32 0x3F800000#32),
    binary main_cst_7 main_v45 main_v48 (subf : (⟨S_, .f32⟩ : BufTy).Contents (Elt F) → (⟨S_, .f32⟩ : BufTy).Contents (Elt F) → (⟨S_, .f32⟩ : BufTy).Contents (Elt F)),
    unary main_v48 main_v49 (broadcastInDim S128 ![] bcast_S_S128 : (⟨S_, .f32⟩ : BufTy).Contents (Elt F) → (⟨S128, .f32⟩ : BufTy).Contents (Elt F)),
    binary main_v40 main_v49 main_v50 (mulf : (⟨S128, .f32⟩ : BufTy).Contents (Elt F) → (⟨S128, .f32⟩ : BufTy).Contents (Elt F) → (⟨S128, .f32⟩ : BufTy).Contents (Elt F)),
    binary main_v47 main_v50 main_v51 (addf : (⟨S128, .f32⟩ : BufTy).Contents (Elt F) → (⟨S128, .f32⟩ : BufTy).Contents (Elt F) → (⟨S128, .f32⟩ : BufTy).Contents (Elt F)) ]

/-- The program is the six stretches in order. -/
theorem ops_cut : (ops : List (HloOp τ sig (Elt F))) = opsProj ++ (opsQuery ++ (opsDoc ++ (opsMax ++ (opsSum ++ opsMix)))) := rfl

/-- Running the program is running the six stretches in turn. -/
theorem after_ops (V : Valuation τ sig (Elt F)) :
    after ops V = after opsMix (after opsSum (after opsMax (after opsDoc (after opsQuery (after opsProj V))))) := by
  rw [ops_cut]; simp only [after_append]

/-! ## What the buffers hold at each cut

`x0 … x8` are the nine arguments' launch contents. Each statement lists the buffers that are still to be read,
each at its named value. -/

section Cuts

variable (x0 : (⟨S128x32x768, .f32⟩ : BufTy).Contents (Elt F)) (x1 : (⟨S128x512x768, .f32⟩ : BufTy).Contents (Elt F))
  (x2 : (⟨S128x32, .i32⟩ : BufTy).Contents (Elt F)) (x3 : (⟨S128x512, .i32⟩ : BufTy).Contents (Elt F))
  (x4 : (⟨S768x128, .f32⟩ : BufTy).Contents (Elt F)) (x5 : (⟨S128, .f32⟩ : BufTy).Contents (Elt F))
  (x6 : (⟨S128x1, .f32⟩ : BufTy).Contents (Elt F)) (x7 x8 : (⟨S1, .f32⟩ : BufTy).Contents (Elt F))

/-- At launch: the arguments. -/
structure AtStart (W : Valuation τ sig (Elt F)) : Prop where
  a0 : W (Proc.devRef .tc main_arg0) = x0
  a1 : W (Proc.devRef .tc main_arg1) = x1
  a2 : W (Proc.devRef .tc main_arg2) = x2
  a3 : W (Proc.devRef .tc main_arg3) = x3
  a4 : W (Proc.devRef .tc main_arg4) = x4
  a5 : W (Proc.devRef .tc main_arg5) = x5
  a6 : W (Proc.devRef .tc main_arg6) = x6
  a7 : W (Proc.devRef .tc main_arg7) = x7
  a8 : W (Proc.devRef .tc main_arg8) = x8

/-- After %17. -/
structure At17 (W : Valuation τ sig (Elt F)) : Prop where
  v2 : W (Proc.devRef .tc main_v2) = ReadP.val_main_v2 (F := F) x2
  v5 : W (Proc.devRef .tc main_v5) = ReadP.val_main_v5 (F := F) x3
  v7 : W (Proc.devRef .tc main_v7) = ReadP.val_main_v7 (F := F) x0
  v9 : W (Proc.devRef .tc main_v9) = ReadP.val_main_v9 (F := F) x1
  v13 : W (Proc.devRef .tc main_v13) = ReadP.val_main_v13 (F := F) x0 x4 x5
  v17 : W (Proc.devRef .tc main_v17) = ReadP.val_main_v17 (F := F) x1 x4 x5
  a6 : W (Proc.devRef .tc main_arg6) = x6
  a7 : W (Proc.devRef .tc main_arg7) = x7
  a8 : W (Proc.devRef .tc main_arg8) = x8

/-- After %21. -/
structure At21 (W : Valuation τ sig (Elt F)) : Prop where
  v2 : W (Proc.devRef .tc main_v2) = ReadP.val_main_v2 (F := F) x2
  v5 : W (Proc.devRef .tc main_v5) = ReadP.val_main_v5 (F := F) x3
  v7 : W (Proc.devRef .tc main_v7) = ReadP.val_main_v7 (F := F) x0
  v9 : W (Proc.devRef .tc main_v9) = ReadP.val_main_v9 (F := F) x1
  v17 : W (Proc.devRef .tc main_v17) = ReadP.val_main_v17 (F := F) x1 x4 x5
  v21 : W (Proc.devRef .tc main_v21) = ReadP.val_main_v21 (F := F) x0 x2 x4 x5
  a6 : W (Proc.devRef .tc main_arg6) = x6
  a7 : W (Proc.devRef .tc main_arg7) = x7
  a8 : W (Proc.devRef .tc main_arg8) = x8

/-- After %32. -/
structure At32 (W : Valuation τ sig (Elt F)) : Prop where
  v2 : W (Proc.devRef .tc main_v2) = ReadP.val_main_v2 (F := F) x2
  v5 : W (Proc.devRef .tc main_v5) = ReadP.val_main_v5 (F := F) x3
  v7 : W (Proc.devRef .tc main_v7) = ReadP.val_main_v7 (F := F) x0
  v9 : W (Proc.devRef .tc main_v9) = ReadP.val_main_v9 (F := F) x1
  v21 : W (Proc.devRef .tc main_v21) = ReadP.val_main_v21 (F := F) x0 x2 x4 x5
  v32 : W (Proc.devRef .tc main_v32) = ReadP.val_main_v32 (F := F) x1 x3 x4 x5 x6 x7
  a8 : W (Proc.devRef .tc main_arg8) = x8

/-- After %38. -/
structure At38 (W : Valuation τ sig (Elt F)) : Prop where
  v2 : W (Proc.devRef .tc main_v2) = ReadP.val_main_v2 (F := F) x2
  v34 : W (Proc.devRef .tc main_v34) = ReadP.val_main_v34 (F := F) x0 x1
  v38 : W (Proc.devRef .tc main_v38) = ReadP.val_main_v38 (F := F) x0 x1 x2 x3 x4 x5 x6 x7
  a8 : W (Proc.devRef .tc main_arg8) = x8

/-- After %40. -/
structure At40 (W : Valuation τ sig (Elt F)) : Prop where
  v34 : W (Proc.devRef .tc main_v34) = ReadP.val_main_v34 (F := F) x0 x1
  v40 : W (Proc.devRef .tc main_v40) = ReadP.val_main_v40 (F := F) x0 x1 x2 x3 x4 x5 x6 x7
  a8 : W (Proc.devRef .tc main_arg8) = x8

/-- At the end: the three results. -/
structure AtEnd (W : Valuation τ sig (Elt F)) : Prop where
  v51 : W (Proc.devRef .tc main_v51) = ReadP.val_main_v51 (F := F) x0 x1 x2 x3 x4 x5 x6 x7 x8
  v47 : W (Proc.devRef .tc main_v47) = ReadP.val_main_v47 (F := F) x0 x1 x8
  v50 : W (Proc.devRef .tc main_v50) = ReadP.val_main_v50 (F := F) x0 x1 x2 x3 x4 x5 x6 x7 x8

variable {x0 x1 x2 x3 x4 x5 x6 x7 x8}

/-! ## One lemma per stretch

In each proof: a buffer the stretch writes is its operation applied to the buffers read, the buffers read are
replaced by their named values, and the named value of the buffer written unfolds to the same application.
(In the fifth stretch the selection reads %2 and %38 through the transport between a buffer's contents and a
value of its type; that transport is along an equation of a type with itself, the identity, and is removed
before the named values are put in, so that they are compared as wholes.) -/

theorem stepProj {W : Valuation τ sig (Elt F)} (h : AtStart x0 x1 x2 x3 x4 x5 x6 x7 x8 W) :
    At17 x0 x1 x2 x3 x4 x5 x6 x7 x8 (after opsProj W) where
  v2 := by after_results_simp; rw [h.a2]; rfl
  v5 := by after_results_simp; rw [h.a3]; rfl
  v7 := by after_results_simp; rw [h.a0]; rfl
  v9 := by after_results_simp; rw [h.a1]; rfl
  v13 := by after_results_simp; rw [h.a0, h.a4, h.a5]; rfl
  v17 := by after_results_simp; rw [h.a1, h.a4, h.a5]; rfl
  a6 := by after_results_simp; exact h.a6
  a7 := by after_results_simp; exact h.a7
  a8 := by after_results_simp; exact h.a8

theorem stepQuery {W : Valuation τ sig (Elt F)} (h : At17 x0 x1 x2 x3 x4 x5 x6 x7 x8 W) :
    At21 x0 x1 x2 x3 x4 x5 x6 x7 x8 (after opsQuery W) where
  v2 := by after_results_simp; exact h.v2
  v5 := by after_results_simp; exact h.v5
  v7 := by after_results_simp; exact h.v7
  v9 := by after_results_simp; exact h.v9
  v17 := by after_results_simp; exact h.v17
  v21 := by after_results_simp; rw [h.v13, h.v2]; rfl
  a6 := by after_results_simp; exact h.a6
  a7 := by after_results_simp; exact h.a7
  a8 := by after_results_simp; exact h.a8

theorem stepDoc {W : Valuation τ sig (Elt F)} (h : At21 x0 x1 x2 x3 x4 x5 x6 x7 x8 W) :
    At32 x0 x1 x2 x3 x4 x5 x6 x7 x8 (after opsDoc W) where
  v2 := by after_results_simp; exact h.v2
  v5 := by after_results_simp; exact h.v5
  v7 := by after_results_simp; exact h.v7
  v9 := by after_results_simp; exact h.v9
  v21 := by after_results_simp; exact h.v21
  v32 := by after_results_simp; rw [h.v17, h.a6, h.a7, h.v5]; rfl
  a8 := by after_results_simp; exact h.a8

theorem stepMax {W : Valuation τ sig (Elt F)} (h : At32 x0 x1 x2 x3 x4 x5 x6 x7 x8 W) :
    At38 x0 x1 x2 x3 x4 x5 x6 x7 x8 (after opsMax W) where
  v2 := by after_results_simp; exact h.v2
  v34 := by after_results_simp; rw [h.v7, h.v9]; rfl
  v38 := by after_results_simp; rw [h.v5, h.v21, h.v32]; rfl
  a8 := by after_results_simp; exact h.a8

theorem stepSum {W : Valuation τ sig (Elt F)} (h : At38 x0 x1 x2 x3 x4 x5 x6 x7 x8 W) :
    At40 x0 x1 x2 x3 x4 x5 x6 x7 x8 (after opsSum W) where
  v34 := by after_results_simp; exact h.v34
  v40 := by after_results_simp; simp only [cast_eq]; rw [h.v2, h.v38]; rfl
  a8 := by after_results_simp; exact h.a8

theorem stepMix {W : Valuation τ sig (Elt F)} (h : At40 x0 x1 x2 x3 x4 x5 x6 x7 x8 W) :
    AtEnd x0 x1 x2 x3 x4 x5 x6 x7 x8 (after opsMix W) where
  v51 := by after_results_simp; rw [h.v34, h.v40, h.a8]; rfl
  v47 := by after_results_simp; rw [h.v34, h.a8]; rfl
  v50 := by after_results_simp; rw [h.v40, h.a8]; rfl

/-! ## No stretch writes an argument -/

theorem keepProj {W : Valuation τ sig (Elt F)} (h : AtStart x0 x1 x2 x3 x4 x5 x6 x7 x8 W) :
    AtStart x0 x1 x2 x3 x4 x5 x6 x7 x8 (after opsProj W) where
  a0 := by after_results_simp; exact h.a0
  a1 := by after_results_simp; exact h.a1
  a2 := by after_results_simp; exact h.a2
  a3 := by after_results_simp; exact h.a3
  a4 := by after_results_simp; exact h.a4
  a5 := by after_results_simp; exact h.a5
  a6 := by after_results_simp; exact h.a6
  a7 := by after_results_simp; exact h.a7
  a8 := by after_results_simp; exact h.a8

theorem keepQuery {W : Valuation τ sig (Elt F)} (h : AtStart x0 x1 x2 x3 x4 x5 x6 x7 x8 W) :
    AtStart x0 x1 x2 x3 x4 x5 x6 x7 x8 (after opsQuery W) where
  a0 := by after_results_simp; exact h.a0
  a1 := by after_results_simp; exact h.a1
  a2 := by after_results_simp; exact h.a2
  a3 := by after_results_simp; exact h.a3
  a4 := by after_results_simp; exact h.a4
  a5 := by after_results_simp; exact h.a5
  a6 := by after_results_simp; exact h.a6
  a7 := by after_results_simp; exact h.a7
  a8 := by after_results_simp; exact h.a8

theorem keepDoc {W : Valuation τ sig (Elt F)} (h : AtStart x0 x1 x2 x3 x4 x5 x6 x7 x8 W) :
    AtStart x0 x1 x2 x3 x4 x5 x6 x7 x8 (after opsDoc W) where
  a0 := by after_results_simp; exact h.a0
  a1 := by after_results_simp; exact h.a1
  a2 := by after_results_simp; exact h.a2
  a3 := by after_results_simp; exact h.a3
  a4 := by after_results_simp; exact h.a4
  a5 := by after_results_simp; exact h.a5
  a6 := by after_results_simp; exact h.a6
  a7 := by after_results_simp; exact h.a7
  a8 := by after_results_simp; exact h.a8

theorem keepMax {W : Valuation τ sig (Elt F)} (h : AtStart x0 x1 x2 x3 x4 x5 x6 x7 x8 W) :
    AtStart x0 x1 x2 x3 x4 x5 x6 x7 x8 (after opsMax W) where
  a0 := by after_results_simp; exact h.a0
  a1 := by after_results_simp; exact h.a1
  a2 := by after_results_simp; exact h.a2
  a3 := by after_results_simp; exact h.a3
  a4 := by after_results_simp; exact h.a4
  a5 := by after_results_simp; exact h.a5
  a6 := by after_results_simp; exact h.a6
  a7 := by after_results_simp; exact h.a7
  a8 := by after_results_simp; exact h.a8

theorem keepSum {W : Valuation τ sig (Elt F)} (h : AtStart x0 x1 x2 x3 x4 x5 x6 x7 x8 W) :
    AtStart x0 x1 x2 x3 x4 x5 x6 x7 x8 (after opsSum W) where
  a0 := by after_results_simp; exact h.a0
  a1 := by after_results_simp; exact h.a1
  a2 := by after_results_simp; exact h.a2
  a3 := by after_results_simp; exact h.a3
  a4 := by after_results_simp; exact h.a4
  a5 := by after_results_simp; exact h.a5
  a6 := by after_results_simp; exact h.a6
  a7 := by after_results_simp; exact h.a7
  a8 := by after_results_simp; exact h.a8

theorem keepMix {W : Valuation τ sig (Elt F)} (h : AtStart x0 x1 x2 x3 x4 x5 x6 x7 x8 W) :
    AtStart x0 x1 x2 x3 x4 x5 x6 x7 x8 (after opsMix W) where
  a0 := by after_results_simp; exact h.a0
  a1 := by after_results_simp; exact h.a1
  a2 := by after_results_simp; exact h.a2
  a3 := by after_results_simp; exact h.a3
  a4 := by after_results_simp; exact h.a4
  a5 := by after_results_simp; exact h.a5
  a6 := by after_results_simp; exact h.a6
  a7 := by after_results_simp; exact h.a7
  a8 := by after_results_simp; exact h.a8

end Cuts

/-- From any contents `V`, after the whole program the three results hold their named values of `V`'s arguments. -/
theorem results (V : Valuation τ sig (Elt F)) :
    AtEnd (V (Proc.devRef .tc main_arg0)) (V (Proc.devRef .tc main_arg1)) (V (Proc.devRef .tc main_arg2))
      (V (Proc.devRef .tc main_arg3)) (V (Proc.devRef .tc main_arg4)) (V (Proc.devRef .tc main_arg5))
      (V (Proc.devRef .tc main_arg6)) (V (Proc.devRef .tc main_arg7)) (V (Proc.devRef .tc main_arg8)) (after ops V) := by
  rw [after_ops]
  exact stepMix (stepSum (stepMax (stepDoc (stepQuery (stepProj ⟨rfl, rfl, rfl, rfl, rfl, rfl, rfl, rfl, rfl⟩)))))

/-- From any contents `V`, after the whole program the nine arguments are what they were. -/
theorem args_kept (V : Valuation τ sig (Elt F)) :
    AtStart (V (Proc.devRef .tc main_arg0)) (V (Proc.devRef .tc main_arg1)) (V (Proc.devRef .tc main_arg2))
      (V (Proc.devRef .tc main_arg3)) (V (Proc.devRef .tc main_arg4)) (V (Proc.devRef .tc main_arg5))
      (V (Proc.devRef .tc main_arg6)) (V (Proc.devRef .tc main_arg7)) (V (Proc.devRef .tc main_arg8)) (after ops V) := by
  rw [after_ops]
  exact keepMix (keepSum (keepMax (keepDoc (keepQuery (keepProj ⟨rfl, rfl, rfl, rfl, rfl, rfl, rfl, rfl, rfl⟩)))))

/-! ## The run -/

/-- On every device, for any float values, from any memory with zero counters: every weakly fair execution of
    @main terminates with each result at its named value of the arguments' launch contents, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51) = ReadP.val_main_v51 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v47) = ReadP.val_main_v47 (F := F) (m ((c.tc : Thread nD τ).loc main_arg0)) (m ((c.tc : Thread nD τ).loc main_arg1)) (m ((c.tc : Thread nD τ).loc main_arg8))
      ∧ r.2.mem ((c.tc : Thread nD τ).loc main_v50) = ReadP.val_main_v50 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v51).trans (results (launchContents m c)).v51,
      (h c main_v47).trans (results (launchContents m c)).v47,
      (h c main_v50).trans (results (launchContents m c)).v50,
      (h c main_arg0).trans (args_kept (launchContents m c)).a0,
      (h c main_arg1).trans (args_kept (launchContents m c)).a1,
      (h c main_arg2).trans (args_kept (launchContents m c)).a2,
      (h c main_arg3).trans (args_kept (launchContents m c)).a3,
      (h c main_arg4).trans (args_kept (launchContents m c)).a4,
      (h c main_arg5).trans (args_kept (launchContents m c)).a5,
      (h c main_arg6).trans (args_kept (launchContents m c)).a6,
      (h c main_arg7).trans (args_kept (launchContents m c)).a7,
      (h c main_arg8).trans (args_kept (launchContents m c)).a8⟩)
    (run_seq scopedRefs_eq scopedSems_eq defs main (fun _ => ops) main_eq (fun _ => ops_sub) m ρ)

end Cert.ReferenceIdeal.RefRun

end
-- ==== Proof.RefSpec.lean ====
/-
  The reference program's three results, index by index, are the specification of Spec.lean / Arrays.lean.

  Each stage of the reference is read at explicit coordinates (batch element `b`, query token `l`, document token `k`,
  channel `c`, hidden coordinate `h`) from the generated one-operation-at-a-time reading of the program, bottom-up:
  the two projections (the contraction over the hidden axis plus the bias), the query vector, the importance, the document
  vector, the similarity, the maximum over the document tokens, the masked sum over the query tokens, the merge weight and
  the three results.

  The masks. The reference converts the BIT `w ≠ 0` of a mask word to a float and multiplies by it, and it SELECTS the
  literal −1000 where the document mask's bit is clear; the specification multiplies by the word read as a number and ADDS
  the offset `(mask value − 1) · 1000`. On a mask whose words are 0 or 1 the two agree:
    • `w = 1`: the bit is set and converts to `1`, the word reads as `1`; the offset is `(1 − 1) · 1000 = 0` and the select
      takes the sum; `where(qm, term, 0)` is `term · 1`.
    • `w = 0`: the bit is clear and converts to `0`, the word reads as `0`; every entry of the document vector is
      `x · 0 = 0` (`mul_zero` holds on all of the extended reals), so the sum over the channels is `0`, the offset is
      `(0 − 1) · 1000 = −1000` and the select takes the literal −1000; `where(qm, term, 0)` is `0 = term · 0`.
  The host's float sums start from the zero word (`0 + Σ`), and the logistic arrives spelled out as
  `1 / (1 + e^(−x))`, which is the logistic function by definition.
-/
import proofs.«146330_j53549652246634_2_alg».proof.Proof.ReadP
import proofs.«146330_j53549652246634_2_alg».proof.Proof.Arrays
import Idealize.ShloMosaic.Lib.IdealHost

noncomputable section

namespace Cert.ReferenceIdeal.RefSpec

open Cert.ReferenceIdeal Cert.ReferenceIdeal.Gen Idealize.ShloMosaic Idealize.ShloMosaic.ValueIdx Cert.MaxSim

theorem one_eq : one = 1 := Ideal.ofBits_one_f32

theorem thousand_eq : thousand = ((1000 : ℝ) : EReal) := by
  unfold thousand
  simp [Ideal.ofBits, Ideal.ieee, -EReal.coe_mul]; norm_num

theorem negThousand_eq : Ideal.ofBits .f32 0xC47A0000#32 = ((-1000 : ℝ) : EReal) := by
  simp [Ideal.ofBits, Ideal.ieee, -EReal.coe_mul]; norm_num

theorem maskVal_zero : maskVal 0#32 = 0 := by
  show (((0#32 : BitVec 32).toInt : ℝ) : EReal) = 0
  simp

theorem maskVal_one : maskVal 1#32 = 1 := by
  show (((1#32 : BitVec 32).toInt : ℝ) : EReal) = 1
  have : (1#32 : BitVec 32).toInt = 1 := by decide
  rw [this]; simp

theorem uitofp_bit_one : FloatOps.uitofp (F := Ideal) .f32 1#1 = (1 : EReal) := by
  show (((1#1 : BitVec 1).toNat : ℝ) : EReal) = 1
  simp

theorem uitofp_bit_zero : FloatOps.uitofp (F := Ideal) .f32 0#1 = (0 : EReal) := by
  show (((0#1 : BitVec 1).toNat : ℝ) : EReal) = 0
  simp

theorem ne_zero_word_zero : IntOp.cmpi .ne 0#32 0#32 = 0#1 := by decide
theorem ne_zero_word_one : IntOp.cmpi .ne 1#32 0#32 = 1#1 := by decide

theorem maskBit (w : BitVec 32) (hw : w = 0#32 ∨ w = 1#32) :
    FloatOps.uitofp (F := Ideal) .f32 (IntOp.cmpi .ne w 0#32) = maskVal w := by
  rcases hw with rfl | rfl
  · rw [ne_zero_word_zero, uitofp_bit_zero, maskVal_zero]
  · rw [ne_zero_word_one, uitofp_bit_one, maskVal_one]

/-! ## Batch element b's slices of the argument arrays -/

section
variable (x0 : (⟨S128x32x768, .f32⟩ : BufTy).Contents (Elt Ideal)) (x1 : (⟨S128x512x768, .f32⟩ : BufTy).Contents (Elt Ideal))
  (x2 : (⟨S128x32, .i32⟩ : BufTy).Contents (Elt Ideal)) (x3 : (⟨S128x512, .i32⟩ : BufTy).Contents (Elt Ideal))
  (x4 : (⟨S768x128, .f32⟩ : BufTy).Contents (Elt Ideal)) (x5 : (⟨S128, .f32⟩ : BufTy).Contents (Elt Ideal))
  (x6 : (⟨S128x1, .f32⟩ : BufTy).Contents (Elt Ideal)) (x7 x8 : (⟨S1, .f32⟩ : BufTy).Contents (Elt Ideal))

abbrev Q (b : Fin 128) : Fin 32 → Fin 768 → EReal := fun l h => x0 (ix3 b l h)
abbrev D (b : Fin 128) : Fin 512 → Fin 768 → EReal := fun k h => x1 (ix3 b k h)
abbrev MQ (b : Fin 128) : Fin 32 → BitVec 32 := fun l => x2 (ix2 b l)
abbrev MD (b : Fin 128) : Fin 512 → BitVec 32 := fun k => x3 (ix2 b k)
abbrev Wm : Fin 768 → Fin 128 → EReal := fun h c => x4 (ix2 h c)
abbrev Bc : Fin 128 → EReal := fun c => x5 (ix1 c)
abbrev Ws : Fin 128 → EReal := fun c => x6 (ix2 c (0 : Fin 1))
abbrev Bs : EReal := x7 (ix1 (0 : Fin 1))
abbrev Sm : EReal := x8 (ix1 (0 : Fin 1))

local macro "idx1" : tactic => `(tactic| exact funext fun a => Fin.ext (by match a with | ⟨0, _⟩ => rfl))
local macro "idx2" : tactic => `(tactic| exact funext fun a => Fin.ext (by match a with | ⟨0, _⟩ => rfl | ⟨1, _⟩ => rfl))
local macro "idx3" : tactic => `(tactic| exact funext fun a => Fin.ext (by match a with | ⟨0, _⟩ => rfl | ⟨1, _⟩ => rfl | ⟨2, _⟩ => rfl))

/-- The query projection: the contraction over the hidden axis plus the bias. -/
theorem v13_at (b : Fin 128) (l : Fin 32) (c : Fin 128) :
    ReadP.val_main_v13 (F := Ideal) x0 x4 x5 (ix3 b l c) = projQ (Q x0 b) (Wm x4) (Bc x5) l c := by
  rw [ReadP.val_main_v13_apply, ReadP.val_main_v10_apply, ReadP.val_main_v12_apply, ReadP.val_main_v11_apply]
  unfold projQ
  refine congrArg₂ (· + ·) (Finset.sum_congr rfl fun k _ => ?_) ?_
  · exact congrArg₂ (· * ·) (congrArg x0 (by idx3)) (congrArg x4 (by idx2))
  · exact congrArg x5 (by idx1)

/-- The document projection. -/
theorem v17_at (b : Fin 128) (k : Fin 512) (c : Fin 128) :
    ReadP.val_main_v17 (F := Ideal) x1 x4 x5 (ix3 b k c) = projD (D x1 b) (Wm x4) (Bc x5) k c := by
  rw [ReadP.val_main_v17_apply, ReadP.val_main_v14_apply, ReadP.val_main_v16_apply, ReadP.val_main_v15_apply]
  unfold projD
  refine congrArg₂ (· + ·) (Finset.sum_congr rfl fun h _ => ?_) ?_
  · exact congrArg₂ (· * ·) (congrArg x1 (by idx3)) (congrArg x4 (by idx2))
  · exact congrArg x5 (by idx1)

/-- The query mask's bit as a float, before the hypothesis on the mask's words is used. -/
theorem v20_at (b : Fin 128) (l : Fin 32) (c : Fin 128) :
    ReadP.val_main_v20 (F := Ideal) x2 (ix3 b l c) = FloatOps.uitofp (F := Ideal) .f32 (IntOp.cmpi .ne (x2 (ix2 b l)) 0#32) := by
  rw [ReadP.val_main_v20_apply, ReadP.val_main_v19_apply, ReadP.val_main_v18_apply, ReadP.val_main_v2_apply,
    ReadP.val_main_v1_apply, ReadP.val_main_v0_apply, ReadP.val_main_c_apply]
  exact congrArg (fun w => FloatOps.uitofp (F := Ideal) .f32 (IntOp.cmpi .ne w 0#32)) (congrArg x2 (by idx2))

/-- The document mask's bit as a float. -/
theorem v31_at (b : Fin 128) (k : Fin 512) (c : Fin 128) :
    ReadP.val_main_v31 (F := Ideal) x3 (ix3 b k c) = FloatOps.uitofp (F := Ideal) .f32 (IntOp.cmpi .ne (x3 (ix2 b k)) 0#32) := by
  rw [ReadP.val_main_v31_apply, ReadP.val_main_v30_apply, ReadP.val_main_v29_apply, ReadP.val_main_v5_apply,
    ReadP.val_main_v4_apply, ReadP.val_main_v3_apply, ReadP.val_main_c_0_apply]
  exact congrArg (fun w => FloatOps.uitofp (F := Ideal) .f32 (IntOp.cmpi .ne w 0#32)) (congrArg x3 (by idx2))

/-- A query token's vector. -/
theorem v21_at (hq : ∀ i, x2 i = 0#32 ∨ x2 i = 1#32) (b : Fin 128) (l : Fin 32) (c : Fin 128) :
    ReadP.val_main_v21 (F := Ideal) x0 x2 x4 x5 (ix3 b l c) = qvec (Q x0 b) (MQ x2 b) (Wm x4) (Bc x5) l c := by
  rw [ReadP.val_main_v21_apply, v13_at, v20_at, maskBit _ (hq _)]
  rfl

/-- A document token's importance. -/
theorem v26_at (b : Fin 128) (k : Fin 512) :
    ReadP.val_main_v26 (F := Ideal) x1 x4 x5 x6 x7 (ix3 b k (0 : Fin 1)) = importance (D x1 b) (Wm x4) (Bc x5) (Ws x6) (Bs x7) k := by
  rw [ReadP.val_main_v26_apply, ReadP.val_main_v25_apply, ReadP.val_main_v22_apply, ReadP.val_main_v24_apply,
    ReadP.val_main_v23_apply, ReadP.val_main_call0_v0_apply, ReadP.val_main_call0_cst_apply]
  unfold importance
  refine congrArg₂ max (congrArg₂ (· + ·) (Finset.sum_congr rfl fun c _ => ?_) (congrArg x7 (by idx1))) rfl
  rw [show ReadP.lidx_main_v22 (ix3 b k (0 : Fin 1)) c = ix3 b k c from by idx3, v17_at]
  exact congrArg (projD (D x1 b) (Wm x4) (Bc x5) k c * ·) (congrArg x6 (by idx2))

/-- A document token's vector. -/
theorem v32_at (hd : ∀ i, x3 i = 0#32 ∨ x3 i = 1#32) (b : Fin 128) (k : Fin 512) (c : Fin 128) :
    ReadP.val_main_v32 (F := Ideal) x1 x3 x4 x5 x6 x7 (ix3 b k c) = dvec (D x1 b) (MD x3 b) (Wm x4) (Bc x5) (Ws x6) (Bs x7) k c := by
  rw [ReadP.val_main_v32_apply, ReadP.val_main_v28_apply, v17_at, ReadP.val_main_v27_apply,
    show ReadP.idx_main_v27 (ix3 b k c) = ix3 b k (0 : Fin 1) from by idx3, v26_at, v31_at, maskBit _ (hd _)]
  rfl

/-- The contraction of a query vector with a document vector over the channels. -/
theorem v35_at (hq : ∀ i, x2 i = 0#32 ∨ x2 i = 1#32) (hd : ∀ i, x3 i = 0#32 ∨ x3 i = 1#32) (b : Fin 128) (l : Fin 32) (k : Fin 512) :
    ReadP.val_main_v35 (F := Ideal) x0 x1 x2 x3 x4 x5 x6 x7 (ix3 b l k)
      = ∑ c : Fin 128, qvec (Q x0 b) (MQ x2 b) (Wm x4) (Bc x5) l c * dvec (D x1 b) (MD x3 b) (Wm x4) (Bc x5) (Ws x6) (Bs x7) k c := by
  rw [ReadP.val_main_v35_apply]
  refine Finset.sum_congr rfl fun c _ => ?_
  rw [show ReadP.lidx_main_v35 (ix3 b l k) c = ix3 b l c from by idx3,
    show ReadP.ridx_main_v35 (ix3 b l k) c = ix3 b k c from by idx3, v21_at x0 x2 x4 x5 hq, v32_at x1 x3 x4 x5 x6 x7 hd]

/-- The select's condition: the document mask's bit. -/
theorem bit_md (b : Fin 128) (l : Fin 32) (k : Fin 512) :
    ReadP.val_main_call1_v1 (F := Ideal) x3 (ix3 b l k) = IntOp.cmpi .ne (x3 (ix2 b k)) 0#32 := by
  rw [ReadP.val_main_call1_v1_apply, ReadP.val_main_v36_apply, ReadP.val_main_v5_apply, ReadP.val_main_v4_apply,
    ReadP.val_main_v3_apply, ReadP.val_main_c_0_apply]
  exact congrArg (fun w => IntOp.cmpi .ne w 0#32) (congrArg x3 (by idx2))

theorem ereal_offset_live : ((1 : EReal) - 1) * ((1000 : ℝ) : EReal) = 0 := by
  rw [show ((1 : EReal) - 1) = 0 from by rw [← EReal.coe_one, ← EReal.coe_sub, sub_self, EReal.coe_zero], zero_mul]

theorem ereal_offset_masked : ((0 : EReal) - 1) * ((1000 : ℝ) : EReal) = ((-1000 : ℝ) : EReal) := by
  rw [zero_sub]; norm_cast; norm_num

/-- The similarity: the select on the document mask's bit against the offset form. On a live document token the offset
    is `(1 − 1) · 1000 = 0`; on a masked one every entry of the document vector is `x · 0 = 0`, so the sum is `0` and
    the offset `(0 − 1) · 1000 = −1000` is the selected literal. -/
theorem v37_at (hq : ∀ i, x2 i = 0#32 ∨ x2 i = 1#32) (hd : ∀ i, x3 i = 0#32 ∨ x3 i = 1#32) (b : Fin 128) (l : Fin 32) (k : Fin 512) :
    ReadP.val_main_v37 (F := Ideal) x0 x1 x2 x3 x4 x5 x6 x7 (ix3 b l k) = sim (Q x0 b) (D x1 b) (MQ x2 b) (MD x3 b) (Wm x4) (Bc x5) (Ws x6) (Bs x7) l k := by
  rw [ReadP.val_main_v37_apply, bit_md, v35_at x0 x1 x2 x3 x4 x5 x6 x7 hq hd, ReadP.val_main_call1_v2_apply,
    ReadP.val_main_call1_v0_apply, ReadP.val_main_cst_1_apply]
  unfold sim
  rcases hd (ix2 b k) with h0 | h1
  · have hz : ∀ c, dvec (D x1 b) (MD x3 b) (Wm x4) (Bc x5) (Ws x6) (Bs x7) k c = 0 := fun c => by
      unfold dvec
      show _ * maskVal (x3 (ix2 b k)) = 0
      rw [h0, maskVal_zero, mul_zero]
    rw [h0, ne_zero_word_zero, select_zero, Finset.sum_eq_zero (fun c _ => by rw [hz c, mul_zero]), zero_add]
    show Ideal.ofBits .f32 0xC47A0000#32 = (maskVal (x3 (ix2 b k)) - one) * thousand
    rw [h0, maskVal_zero, one_eq, thousand_eq, negThousand_eq, ereal_offset_masked]
  · rw [h1, ne_zero_word_one, select_one]
    show _ = _ + (maskVal (x3 (ix2 b k)) - one) * thousand
    rw [h1, maskVal_one, one_eq, thousand_eq, ereal_offset_live, add_zero]

/-- A query token's term: the maximum of its similarities over the document tokens. -/
theorem v38_at (hq : ∀ i, x2 i = 0#32 ∨ x2 i = 1#32) (hd : ∀ i, x3 i = 0#32 ∨ x3 i = 1#32) (b : Fin 128) (l : Fin 32) :
    ReadP.val_main_v38 (F := Ideal) x0 x1 x2 x3 x4 x5 x6 x7 (ix2 b l) = term (Q x0 b) (D x1 b) (MQ x2 b) (MD x3 b) (Wm x4) (Bc x5) (Ws x6) (Bs x7) l := by
  have hR : S128x32x512.Reduces [2] S128x32 := by decide
  unfold ReadP.val_main_v38
  rw [Host.reduce_eq_fold_single FloatOps.maximumf _ _ reducesTo_S128x32x512_S128x32_d2 hR h_S_]
  unfold term
  show (Finset.univ : Finset (Fin 512)).fold max (Ideal.ofBits .f32 0xFF800000#32)
    (fun k => ReadP.val_main_v37 (F := Ideal) x0 x1 x2 x3 x4 x5 x6 x7 (hR.lift (ix2 b l) k)) = _
  refine Finset.fold_congr (fun k _ => ?_)
  rw [show hR.lift (ix2 b l) k = ix3 b l k from by idx3]
  exact v37_at x0 x1 x2 x3 x4 x5 x6 x7 hq hd b l k

/-- The masked term: the select on the query mask's bit is the product with the mask value. -/
theorem v39_at (hq : ∀ i, x2 i = 0#32 ∨ x2 i = 1#32) (hd : ∀ i, x3 i = 0#32 ∨ x3 i = 1#32) (b : Fin 128) (l : Fin 32) :
    ReadP.val_main_v39 (F := Ideal) x0 x1 x2 x3 x4 x5 x6 x7 (ix2 b l) = term (Q x0 b) (D x1 b) (MQ x2 b) (MD x3 b) (Wm x4) (Bc x5) (Ws x6) (Bs x7) l * maskVal (x2 (ix2 b l)) := by
  rw [ReadP.val_main_v39_apply, ReadP.val_main_v2_apply, ReadP.val_main_v1_apply, ReadP.val_main_v0_apply,
    ReadP.val_main_c_apply, v38_at x0 x1 x2 x3 x4 x5 x6 x7 hq hd, ReadP.val_main_call2_v1_apply, ReadP.val_main_call2_v0_apply,
    ReadP.val_main_cst_3_apply]
  rcases hq (ix2 b l) with h0 | h1
  · rw [h0, ne_zero_word_zero, select_zero, maskVal_zero, mul_zero]; exact Ideal.ofBits_zero_f32
  · rw [h1, ne_zero_word_one, select_one, maskVal_one, mul_one]

/-- The sum of the masked terms over the query tokens; the host's sum starts from the zero word. -/
theorem v40_at (hq : ∀ i, x2 i = 0#32 ∨ x2 i = 1#32) (hd : ∀ i, x3 i = 0#32 ∨ x3 i = 1#32) (b : Fin 128) :
    ReadP.val_main_v40 (F := Ideal) x0 x1 x2 x3 x4 x5 x6 x7 (ix1 b) = ∑ l : Fin 32, term (Q x0 b) (D x1 b) (MQ x2 b) (MD x3 b) (Wm x4) (Bc x5) (Ws x6) (Bs x7) l * maskVal (MQ x2 b l) := by
  rw [ReadP.val_main_v40_apply, ReadP.val_main_cst_4_apply]
  show Ideal.ofBits .f32 0x00000000#32 + _ = _
  rw [Ideal.ofBits_zero_f32, zero_add]
  refine Finset.sum_congr rfl fun l _ => ?_
  rw [show ReadP.idx_main_v40 (ix1 b) l = ix2 b l from by idx2]
  exact v39_at x0 x1 x2 x3 x4 x5 x6 x7 hq hd b l

/-- The one-element shape has one index. -/
theorem s1_idx (k : S1.Idx) : k = ix1 (0 : Fin 1) :=
  funext fun a => Fin.ext (by match a with | ⟨0, _⟩ => exact Nat.lt_one_iff.mp (k 0).isLt)

/-- The merge weight: the quotient `1 / (1 + e^(−x))` spelled by the program is the logistic function. -/
theorem v45_at (i : S_.Idx) : ReadP.val_main_v45 (F := Ideal) x8 i = sigma (Sm x8) := by
  have h41 : ReadP.val_main_v41 (F := Ideal) x8 i = x8 (ix1 (0 : Fin 1)) := by
    unfold ReadP.val_main_v41 shapeCast
    exact congrArg x8 (s1_idx _)
  rw [ReadP.val_main_v45_apply, ReadP.val_main_cst_6_apply, ReadP.val_main_v44_apply, ReadP.val_main_cst_5_apply,
    ReadP.val_main_v43_apply, ReadP.val_main_v42_apply, h41]
  show Ideal.div (Ideal.ofBits .f32 0x3F800000#32) (Ideal.ofBits .f32 0x3F800000#32 + Ideal.exp (-(x8 (ix1 (0 : Fin 1))))) = Ideal.logistic _
  rw [Ideal.ofBits_one_f32]
  rfl

/-- The first-token product summed over the hidden axis. -/
theorem v34_at (b : Fin 128) :
    ReadP.val_main_v34 (F := Ideal) x0 x1 (ix1 b) = ∑ h : Fin 768, Q x0 b 0 h * D x1 b 0 h := by
  rw [ReadP.val_main_v34_apply, ReadP.val_main_cst_apply]
  show Ideal.ofBits .f32 0x00000000#32 + _ = _
  rw [Ideal.ofBits_zero_f32, zero_add]
  refine Finset.sum_congr rfl fun h _ => ?_
  rw [ReadP.val_main_v33_apply, ReadP.val_main_v7_apply, ReadP.val_main_v6_apply, ReadP.val_main_v9_apply,
    ReadP.val_main_v8_apply]
  have hb := b.isLt
  have hh := h.isLt
  refine congrArg₂ (· * ·) (congrArg x0 (funext fun a => Fin.ext ?_)) (congrArg x1 (funext fun a => Fin.ext ?_))
  · match a with
    | ⟨0, _⟩ => show (b.val * 768 + h.val) / 768 = b.val; omega
    | ⟨1, _⟩ => rfl
    | ⟨2, _⟩ => show (b.val * 768 + h.val) % 768 = h.val; omega
  · match a with
    | ⟨0, _⟩ => show (b.val * 768 + h.val) / 768 = b.val; omega
    | ⟨1, _⟩ => rfl
    | ⟨2, _⟩ => show (b.val * 768 + h.val) % 768 = h.val; omega

/-- The weighted first-token score. -/
theorem v47_at (b : Fin 128) :
    ReadP.val_main_v47 (F := Ideal) x0 x1 x8 (ix1 b) = clsScore (Q x0 b) (D x1 b) (Sm x8) := by
  rw [ReadP.val_main_v47_apply, v34_at, ReadP.val_main_v46_apply, v45_at]
  rfl

/-- The weighted term score. -/
theorem v50_at (hq : ∀ i, x2 i = 0#32 ∨ x2 i = 1#32) (hd : ∀ i, x3 i = 0#32 ∨ x3 i = 1#32) (b : Fin 128) :
    ReadP.val_main_v50 (F := Ideal) x0 x1 x2 x3 x4 x5 x6 x7 x8 (ix1 b) = termScore (Q x0 b) (D x1 b) (MQ x2 b) (MD x3 b) (Wm x4) (Bc x5) (Ws x6) (Bs x7) (Sm x8) := by
  rw [ReadP.val_main_v50_apply, v40_at x0 x1 x2 x3 x4 x5 x6 x7 hq hd, ReadP.val_main_v49_apply, ReadP.val_main_v48_apply,
    ReadP.val_main_cst_7_apply, v45_at]
  rfl

/-- The merged score. -/
theorem v51_at (hq : ∀ i, x2 i = 0#32 ∨ x2 i = 1#32) (hd : ∀ i, x3 i = 0#32 ∨ x3 i = 1#32) (b : Fin 128) :
    ReadP.val_main_v51 (F := Ideal) x0 x1 x2 x3 x4 x5 x6 x7 x8 (ix1 b) = score (Q x0 b) (D x1 b) (MQ x2 b) (MD x3 b) (Wm x4) (Bc x5) (Ws x6) (Bs x7) (Sm x8) := by
  rw [ReadP.val_main_v51_apply, v47_at, v50_at x0 x1 x2 x3 x4 x5 x6 x7 x8 hq hd]
  rfl

/-! ## The three results -/

theorem cls_eq : ReadP.val_main_v47 (F := Ideal) x0 x1 x8 = Cert.MaxSim.clsArr x0 x1 x8 := by
  funext i
  obtain ⟨b, rfl⟩ : ∃ b : Fin 128, i = ix1 b := ⟨i 0, eq_ix1 i⟩
  rw [clsArr_ix1]
  exact v47_at x0 x1 x8 b

theorem term_eq (hq : ∀ i, x2 i = 0#32 ∨ x2 i = 1#32) (hd : ∀ i, x3 i = 0#32 ∨ x3 i = 1#32) :
    ReadP.val_main_v50 (F := Ideal) x0 x1 x2 x3 x4 x5 x6 x7 x8 = Cert.MaxSim.termArr x0 x1 x2 x3 x4 x5 x6 x7 x8 := by
  funext i
  obtain ⟨b, rfl⟩ : ∃ b : Fin 128, i = ix1 b := ⟨i 0, eq_ix1 i⟩
  rw [termArr_ix1]
  exact v50_at x0 x1 x2 x3 x4 x5 x6 x7 x8 hq hd b

theorem score_eq (hq : ∀ i, x2 i = 0#32 ∨ x2 i = 1#32) (hd : ∀ i, x3 i = 0#32 ∨ x3 i = 1#32) :
    ReadP.val_main_v51 (F := Ideal) x0 x1 x2 x3 x4 x5 x6 x7 x8 = Cert.MaxSim.scoreArr x0 x1 x2 x3 x4 x5 x6 x7 x8 := by
  funext i
  obtain ⟨b, rfl⟩ : ∃ b : Fin 128, i = ix1 b := ⟨i 0, eq_ix1 i⟩
  rw [scoreArr_ix1]
  exact v51_at x0 x1 x2 x3 x4 x5 x6 x7 x8 hq hd b

end

end Cert.ReferenceIdeal.RefSpec
end
-- ==== Proof.Masks.lean ====
/-
  The two mask facts out of the precondition.

  The precondition is a conjunction (a chain of `and`s on one-bit words) of nine "all entries satisfy …" reductions; the
  last two say that every entry of the query mask, and of the document mask, equals 0 or equals 1: the reduction by `and`,
  from the bit 1, of the array of bits `(w = 0) or (w = 1)`. If the precondition's bit is 1 then both conjuncts' bits are
  1 (`and` of two bits is 1 only when both are), a reduction by `and` that came out 1 met only 1s, and the bit
  `(w = 0) or (w = 1)` being 1 says `w = 0` or `w = 1`. The seven float conjuncts are never opened: they enter only as
  the other operand of an `and`.
-/
import proofs.«146330_j53549652246634_2_alg».proof.Proof.Gen.Pre_finite_inputs
import Idealize.ShloMosaic.Lib.ReduceAll
import Idealize.ShloMosaic.Lib.ValueIdx
import Idealize.ShloMosaic.PureOps.Ideal

noncomputable section

namespace Cert.Proof.Masks

open Idealize.ShloMosaic Cert.Pre_finite_inputs

/-- The scalar shape has one index. -/
instance : Subsingleton S_.Idx := ⟨fun a b => funext fun d => d.elim0⟩

/-- The bit `(w = 0) or (w = 1)` being set says the word is 0 or 1. -/
theorem word_of_bit (w : BitVec 32) (h : IntOp.ori (IntOp.cmpi .eq w 0#32) (IntOp.cmpi .eq w 1#32) = 1#1) :
    w = 0#32 ∨ w = 1#32 := by
  rcases IntOp.ori_eq_one.1 h with h | h
  · exact Or.inl (IntOp.cmpi_eq.1 h)
  · exact Or.inr (IntOp.cmpi_eq.1 h)

/-- The last part of the chain: whatever bit the earlier conjuncts gave, the whole being 1 makes the two mask
    reductions 1, hence every entry of either mask 0 or 1. -/
theorem masks_of_part2 {F : FTy → Type} [FloatOps F] (a2 : IVec S128x32 32) (a3 : IVec S128x512 32) (v33 : IVec S_ 1)
    (h : fn_part2 (F := F) a2 a3 v33 ValueIdx.ix0 = 1#1) :
    (∀ i, a2 i = 0#32 ∨ a2 i = 1#32) ∧ (∀ i, a3 i = 0#32 ∨ a3 i = 1#32) := by
  obtain ⟨h40, h46⟩ := IntOp.andi_eq_one.1 h
  obtain ⟨_, h39⟩ := IntOp.andi_eq_one.1 h40
  exact ⟨fun i => word_of_bit (a2 i) (Host.reduce_andi_all _ _ _ _ _ h39 i),
    fun i => word_of_bit (a3 i) (Host.reduce_andi_all _ _ _ _ _ h46 i)⟩

theorem masks_of_pre (a0 : FVec Ideal S128x32x768 .f32) (a1 : FVec Ideal S128x512x768 .f32) (a2 : IVec S128x32 32)
    (a3 : IVec S128x512 32) (a4 : FVec Ideal S768x128 .f32) (a5 : FVec Ideal S128 .f32) (a6 : FVec Ideal S128x1 .f32)
    (a7 a8 : FVec Ideal S1 .f32)
    (h : Cert.Pre_finite_inputs.fn (F := Ideal) a0 a1 a2 a3 a4 a5 a6 a7 a8 = fun _ => 1#1) :
    (∀ i, a2 i = 0#32 ∨ a2 i = 1#32) ∧ (∀ i, a3 i = 0#32 ∨ a3 i = 1#32) := by
  have h0 : fn (F := Ideal) a0 a1 a2 a3 a4 a5 a6 a7 a8 ValueIdx.ix0 = 1#1 := congrFun h ValueIdx.ix0
  exact masks_of_part2 (F := Ideal) a2 a3 _ h0

end Cert.Proof.Masks

end
-- ==== Proof.lean ====
/-
  The certificate's claim.

  Under the precondition — every float input finite, and every entry of the two masks 0 or 1 — the idealized kernel and the
  idealized reference, run from memories that agree on the nine arguments, end with the same three result arrays: entry `b`
  of each is the late-interaction score, the weighted first-token score and the weighted term score of batch element `b`
  (Spec.lean, Arrays.lean). The kernel side reads what each grid point writes back, row by row of its block, and covers each
  result array by the sixteen blocks (KernelPoint.lean, KernelArray.lean); the reference side reads its sixty-nine operations
  stage by stage (RefRun.lean, RefSpec.lean). The two arrangements differ only at the masks: the kernel multiplies by the mask
  word read as a number and adds the offset `(mask − 1) · 1000`, the reference converts and selects on the bit `mask ≠ 0`; on
  0 and 1 these agree, and that is the one place the mask half of the precondition is used (Masks.lean decodes it). The
  finiteness half is not used: every law applied (`x · 0 = 0`, `x · 1 = x`, `x + 0 = x`) holds on all extended reals.
  The three frames are the generated frame runs of the two kernel programs and the reference's run with its results dropped;
  the idealization rewrote no operation, so `preserves` is `True`.
-/
import proofs.«146330_j53549652246634_2_alg».proof.Defs
import proofs.«146330_j53549652246634_2_alg».proof.Proof.Gen.Kernel
import proofs.«146330_j53549652246634_2_alg».proof.Proof.Gen.Kernel.Skeleton
import proofs.«146330_j53549652246634_2_alg».proof.Proof.Gen.Kernel.Launch
import proofs.«146330_j53549652246634_2_alg».proof.Proof.Gen.Kernel.Points
import proofs.«146330_j53549652246634_2_alg».proof.Proof.Gen.Kernel.Frame
import proofs.«146330_j53549652246634_2_alg».proof.Proof.Gen.KernelIdeal
import proofs.«146330_j53549652246634_2_alg».proof.Proof.Gen.KernelIdeal.Skeleton
import proofs.«146330_j53549652246634_2_alg».proof.Proof.Gen.KernelIdeal.Launch
import proofs.«146330_j53549652246634_2_alg».proof.Proof.Gen.KernelIdeal.Points
import proofs.«146330_j53549652246634_2_alg».proof.Proof.Gen.KernelIdeal.Frame
import proofs.«146330_j53549652246634_2_alg».proof.Proof.Gen.ReferenceIdeal
import proofs.«146330_j53549652246634_2_alg».proof.Proof.Gen.Pre_finite_inputs
import proofs.«146330_j53549652246634_2_alg».proof.Proof.KernelArray
import proofs.«146330_j53549652246634_2_alg».proof.Proof.RefRun
import proofs.«146330_j53549652246634_2_alg».proof.Proof.RefSpec
import proofs.«146330_j53549652246634_2_alg».proof.Proof.Masks
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its three results dropped. -/
theorem frame_ri : Cert.frame_ReferenceIdeal := fun m ρ _ =>
  (θ_run Cert.ReferenceIdeal.defs _ _).mono (fun _ h c => (h c).2.2.2) (Cert.ReferenceIdeal.RefRun.run (F := Ideal) m ρ)

/-- Both runs end at the specification's three arrays of the arguments; the reference's by the mask facts. -/
theorem algebraic : Cert.algebraic_KernelIdeal_ReferenceIdeal := by
  intro m ρ m' ρ' hpre hagree
  refine ⟨fun c => Cert.MaxSim.scoreArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.MaxSim.clsArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg8)),
    fun c => Cert.MaxSim.termArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Arr.run m ρ, ?_⟩
  refine (θ_run Cert.ReferenceIdeal.defs _ _).mono (fun r h c => ?_) (Cert.ReferenceIdeal.RefRun.run (F := Ideal) m' ρ')
  obtain ⟨h51, h47, h50, hargs⟩ := h c
  obtain ⟨e0, e1, e2, e3, e4, e5, e6, e7, e8⟩ := hagree c
  obtain ⟨hq, hd⟩ := Cert.Proof.Masks.masks_of_pre _ _ _ _ _ _ _ _ _ (hpre c)
  refine ⟨?_, ?_, ?_, hargs⟩
  · rw [h51, e0, e1, e2, e3, e4, e5, e6, e7, e8]
    exact Cert.ReferenceIdeal.RefSpec.score_eq _ _ _ _ _ _ _ _ _ hq hd
  · rw [h47, e0, e1, e8]
    exact Cert.ReferenceIdeal.RefSpec.cls_eq _ _ _
  · rw [h50, e0, e1, e2, e3, e4, e5, e6, e7, e8]
    exact Cert.ReferenceIdeal.RefSpec.term_eq _ _ _ _ _ _ _ _ _ hq hd

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
